-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S3200000 : Shape := ⟨1, ![3200000]⟩
abbrev S3x1x1 : Shape := ⟨3, ![3, 1, 1]⟩
abbrev S3x1 : Shape := ⟨2, ![3, 1]⟩
abbrev S100000x1024 : Shape := ⟨2, ![100000, 1024]⟩
abbrev S1024 : Shape := ⟨1, ![1024]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S3x1x1 : S_.BroadcastsInDim S3x1x1 (![] : Fin 0 → Fin S3x1x1.rank)
  reducesTo_S3x1x1_S_d0_1_2 : S3x1x1.ReducesTo [0, 1, 2] S_
  bcast_S_S3x1 : S_.BroadcastsInDim S3x1 (![] : Fin 0 → Fin S3x1.rank)
  reducesTo_S3x1_S_d0_1 : S3x1.ReducesTo [0, 1] S_
  bcast_S_S100000x1024 : S_.BroadcastsInDim S100000x1024 (![] : Fin 0 → Fin S100000x1024.rank)
  reducesTo_S100000x1024_S_d0_1 : S100000x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S3x1 .f32) (main_arg7 : FVec F S100000x1024 .f32) (main_arg8 : FVec F S1024 .f32) (main_v13 : IVec S_ 1) (main_v16 : IVec S3x1x1 1) : IVec S_ 1 :=
  let main_c_5 : IVec S_ 1 := constantI S_ 1 1#1
  let main_v17 : IVec S_ 1 := (fun x v => Host.reduce IntOp.andi x v reducesTo_S3x1x1_S_d0_1_2 h_S_) main_v16 main_c_5
  let main_v18 : IVec S_ 1 := andi main_v13 main_v17
  let main_v19 : FVec F S3x1 .f32 := Host.absf main_arg6
  let main_cst_6 : FVec F S_ .f32 := constant S_ .f32 0x7F800000#32
  let main_v20 : FVec F S3x1 .f32 := broadcastInDim S3x1 ![] bcast_S_S3x1 main_cst_6
  let main_v21 : IVec S3x1 1 := cmpf .olt main_v19 main_v20
  let main_c_7 : IVec S_ 1 := constantI S_ 1 1#1
  let main_v22 : IVec S_ 1 := (fun x v => Host.reduce IntOp.andi x v reducesTo_S3x1_S_d0_1 h_S_) main_v21 main_c_7
  let main_v23 : IVec S_ 1 := andi main_v18 main_v22
  let main_v24 : FVec F S100000x1024 .f32 := Host.absf main_arg7
  let main_cst_8 : FVec F S_ .f32 := constant S_ .f32 0x7F800000#32
  let main_v25 : FVec F S100000x1024 .f32 := broadcastInDim S100000x1024 ![] bcast_S_S100000x1024 main_cst_8
  let main_v26 : IVec S100000x1024 1 := cmpf .olt main_v24 main_v25
  let main_c_9 : IVec S_ 1 := constantI S_ 1 1#1
  let main_v27 : IVec S_ 1 := (fun x v => Host.reduce IntOp.andi x v reducesTo_S100000x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S100000x1 .f32) (main_arg1 : FVec F S100000x1 .f32) (main_arg2 : FVec F S3200000 .f32) (main_arg3 : IVec S3200000 32) (main_arg4 : IVec S3200000 32) (main_arg5 : FVec F S3x1x1 .f32) (main_arg6 : FVec F S3x1 .f32) (main_arg7 : FVec F S100000x1024 .f32) (main_arg8 : FVec F S1024 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S3x1x1 .f32 := Host.absf main_arg5
  let main_cst_4 : FVec F S_ .f32 := constant S_ .f32 0x7F800000#32
  let main_v15 : FVec F S3x1x1 .f32 := broadcastInDim S3x1x1 ![] bcast_S_S3x1x1 main_cst_4
  let main_v16 : IVec S3x1x1 1 := cmpf .olt main_v14 main_v15
  fn_part1 (F := F) main_arg6 main_arg7 main_arg8 main_v13 main_v16
-- ==== Kernel.lean ====
abbrev S100000x1 : Shape := ⟨2, ![100000, 1]⟩
abbrev S3200000 : Shape := ⟨1, ![3200000]⟩
abbrev S3x1x1 : Shape := ⟨3, ![3, 1, 1]⟩
abbrev S3x1 : Shape := ⟨2, ![3, 1]⟩
abbrev S100000x1024 : Shape := ⟨2, ![100000, 1024]⟩
abbrev S1024 : Shape := ⟨1, ![1024]⟩
abbrev S100000x2 : Shape := ⟨2, ![100000, 2]⟩
abbrev S3200000x1 : Shape := ⟨2, ![3200000, 1]⟩
abbrev S_ : Shape := ⟨0, ![]⟩
abbrev S3200000x2 : Shape := ⟨2, ![3200000, 2]⟩
abbrev S3200000x3 : Shape := ⟨2, ![3200000, 3]⟩
abbrev S100000x3 : Shape := ⟨2, ![100000, 3]⟩
abbrev S1x1x1 : Shape := ⟨3, ![1, 1, 1]⟩
abbrev S1x1 : Shape := ⟨2, ![1, 1]⟩
abbrev S1 : Shape := ⟨1, ![1]⟩
abbrev S1x100000x2 : Shape := ⟨3, ![1, 100000, 2]⟩
abbrev S3x100000x2 : Shape := ⟨3, ![3, 100000, 2]⟩
abbrev S1x1024 : Shape := ⟨2, ![1, 1024]⟩
abbrev S4000x1 : Shape := ⟨2, ![4000, 1]⟩
abbrev S4000x512 : Shape := ⟨2, ![4000, 512]⟩
abbrev S1x512 : Shape := ⟨2, ![1, 512]⟩

abbrev nBuf : Space → Nat
  | .hbm => 138
  | .vmem => 14
  | .smem => 0
  | _ => 0

abbrev hbmTy0_0 (i : Nat) : BufTy := match i % 128 with
  | 0 => ⟨S100000x1, .f32⟩
  | 1 => ⟨S100000x1, .f32⟩
  | 2 => ⟨S3200000, .f32⟩
  | 3 => ⟨S3200000, .i32⟩
  | 4 => ⟨S3200000, .i32⟩
  | 5 => ⟨S3x1x1, .f32⟩
  | 6 => ⟨S3x1, .f32⟩
  | 7 => ⟨S100000x1024, .f32⟩
  | 8 => ⟨S1024, .f32⟩
  | 9 => ⟨S100000x2, .f32⟩
  | 10 => ⟨S3200000x1, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x2, .f32⟩
  | 20 => ⟨S3200000x2, .f32⟩
  | 21 => ⟨S3200000x2, .f32⟩
  | 22 => ⟨S_, .f32⟩
  | 23 => ⟨S3200000x1, .f32⟩
  | 24 => ⟨S3200000x3, .f32⟩
  | 25 => ⟨S_, .f32⟩
  | 26 => ⟨S100000x3, .f32⟩
  | 27 => ⟨S3200000x1, .i32⟩
  | 28 => ⟨S100000x3, .f32⟩
  | 29 => ⟨S100000x1, .f32⟩
  | 30 => ⟨S_, .f32⟩
  | 31 => ⟨S100000x1, .f32⟩
  | 32 => ⟨S100000x1, .f32⟩
  | 33 => ⟨S_, .f32⟩
  | 34 => ⟨S100000x1, .f32⟩
  | 35 => ⟨S100000x1, .f32⟩
  | 36 => ⟨S100000x2, .f32⟩
  | 37 => ⟨S100000x2, .f32⟩
  | 38 => ⟨S100000x2, .f32⟩
  | 39 => ⟨S100000x2, .f32⟩
  | 40 => ⟨S1x1x1, .f32⟩
  | 41 => ⟨S_, .f32⟩
  | 42 => ⟨S100000x2, .f32⟩
  | 43 => ⟨S100000x2, .f32⟩
  | 44 => ⟨S1x1, .f32⟩
  | 45 => ⟨S1, .f32⟩
  | 46 => ⟨S1x1, .f32⟩
  | 47 => ⟨S100000x2, .f32⟩
  | 48 => ⟨S100000x2, .f32⟩
  | 49 => ⟨S_, .f32⟩
  | 50 => ⟨S100000x2, .f32⟩
  | 51 => ⟨S100000x2, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x2, .f32⟩
  | 61 => ⟨S3200000x2, .f32⟩
  | 62 => ⟨S3200000x2, .f32⟩
  | 63 => ⟨S_, .f32⟩
  | 64 => ⟨S100000x2, .f32⟩
  | 65 => ⟨S3200000x1, .i32⟩
  | 66 => ⟨S100000x2, .f32⟩
  | 67 => ⟨S100000x2, .f32⟩
  | 68 => ⟨S100000x2, .f32⟩
  | 69 => ⟨S100000x2, .f32⟩
  | 70 => ⟨S1x1x1, .f32⟩
  | 71 => ⟨S_, .f32⟩
  | 72 => ⟨S100000x2, .f32⟩
  | 73 => ⟨S100000x2, .f32⟩
  | 74 => ⟨S1x1, .f32⟩
  | 75 => ⟨S1, .f32⟩
  | 76 => ⟨S1x1, .f32⟩
  | 77 => ⟨S100000x2, .f32⟩
  | 78 => ⟨S100000x2, .f32⟩
  | 79 => ⟨S_, .f32⟩
  | 80 => ⟨S100000x2, .f32⟩
  | 81 => ⟨S100000x2, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000x2, .f32⟩
  | 91 => ⟨S3200000x2, .f32⟩
  | 92 => ⟨S3200000x2, .f32⟩
  | 93 => ⟨S_, .f32⟩
  | 94 => ⟨S100000x2, .f32⟩
  | 95 => ⟨S3200000x1, .i32⟩
  | 96 => ⟨S100000x2, .f32⟩
  | 97 => ⟨S100000x2, .f32⟩
  | 98 => ⟨S100000x2, .f32⟩
  | 99 => ⟨S100000x2, .f32⟩
  | 100 => ⟨S1x1x1, .f32⟩
  | 101 => ⟨S_, .f32⟩
  | 102 => ⟨S100000x2, .f32⟩
  | 103 => ⟨S100000x2, .f32⟩
  | 104 => ⟨S1x1, .f32⟩
  | 105 => ⟨S1, .f32⟩
  | 106 => ⟨S1x1, .f32⟩
  | 107 => ⟨S100000x2, .f32⟩
  | 108 => ⟨S100000x2, .f32⟩
  | 109 => ⟨S_, .f32⟩
  | 110 => ⟨S100000x2, .f32⟩
  | 111 => ⟨S100000x2, .f32⟩
  | 112 => ⟨S1x100000x2, .f32⟩
  | 113 => ⟨S1x100000x2, .f32⟩
  | 114 => ⟨S1x100000x2, .f32⟩
  | 115 => ⟨S3x100000x2, .f32⟩
  | 116 => ⟨S_, .f32⟩
  | 117 => ⟨S100000x2, .f32⟩
  | 118 => ⟨S_, .f32⟩
  | 119 => ⟨S100000x2, .f32⟩
  | 120 => ⟨S100000x2, .f32⟩
  | 121 => ⟨S100000x1, .f32⟩
  | 122 => ⟨S100000x1, .f32⟩
  | 123 => ⟨S1x1024, .f32⟩
  | 124 => ⟨S1x1024, .f32⟩
  | 125 => ⟨S1x1024, .f32⟩
  | 126 => ⟨S1x1024, .f32⟩
  | 127 => ⟨S_, .f32⟩
  | _ => ⟨S100000x1, .f32⟩

abbrev hbmTy0_1 (i : Nat) : BufTy := match i % 128 with
  | 0 => ⟨S1, .f32⟩
  | 1 => ⟨S1x1, .f32⟩
  | 2 => ⟨S1x1, .f32⟩
  | 3 => ⟨S1x1, .f32⟩
  | 4 => ⟨S_, .f32⟩
  | 5 => ⟨S1x1, .f32⟩
  | 6 => ⟨S1x1, .f32⟩
  | 7 => ⟨S_, .f32⟩
  | 8 => ⟨S1x1, .f32⟩
  | 9 => ⟨S1x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S4000x1, .f32⟩
  | .local _ .vmem, ⟨1, _⟩ => ⟨S4000x1, .f32⟩
  | .local _ .vmem, ⟨2, _⟩ => ⟨S4000x1, .f32⟩
  | .local _ .vmem, ⟨3, _⟩ => ⟨S4000x1, .f32⟩
  | .local _ .vmem, ⟨4, _⟩ => ⟨S4000x512, .f32⟩
  | .local _ .vmem, ⟨5, _⟩ => ⟨S4000x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call1_cst : Ref sig .tc := ⟨.hbm, 79, rfl⟩
abbrev main_call1_v0 : Ref sig .tc := ⟨.hbm, 80, rfl⟩
abbrev main_v59 : Ref sig .tc := ⟨.hbm, 81, rfl⟩
abbrev main_c_7 : Ref sig .tc := ⟨.hbm, 82, rfl⟩
abbrev main_v60 : Ref sig .tc := ⟨.hbm, 83, rfl⟩
abbrev main_v61 : Ref sig .tc := ⟨.hbm, 84, rfl⟩
abbrev main_c_8 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call2_cst : Ref sig .tc := ⟨.hbm, 109, rfl⟩
abbrev main_call2_v0 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_10 : Ref sig .tc := ⟨.hbm, 116, rfl⟩
abbrev main_v89 : Ref sig .tc := ⟨.hbm, 117, rfl⟩
abbrev main_cst_11 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95_0 : Ref sig .tc := ⟨.hbm, 124, rfl⟩
abbrev main_v95_1 : Ref sig .tc := ⟨.hbm, 125, rfl⟩
abbrev main_v96 : Ref sig .tc := ⟨.hbm, 126, rfl⟩
abbrev main_cst_12 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_13 : Ref sig .tc := ⟨.hbm, 132, rfl⟩
abbrev main_v101 : Ref sig .tc := ⟨.hbm, 133, rfl⟩
abbrev main_v102 : Ref sig .tc := ⟨.hbm, 134, rfl⟩
abbrev main_cst_14 : Ref sig .tc := ⟨.hbm, 135, rfl⟩
abbrev main_v103 : Ref sig .tc := ⟨.hbm, 136, rfl⟩
abbrev main_v104 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S100000x1_S100000x1_S100000x2_d1 : Shape.Concatenates [S100000x1, S100000x1] S100000x2 1
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x2_0_1 : S3200000x1.BroadcastsInDim S3200000x2 (![0, 1] : Fin 2 → Fin S3200000x2.rank)
  bcast_S_S3200000x1 : S_.BroadcastsInDim S3200000x1 (![] : Fin 0 → Fin S3200000x1.rank)
  concatenates_S3200000x2_S3200000x1_S3200000x3_d1 : Shape.Concatenates [S3200000x2, S3200000x1] S3200000x3 1
  bcast_S_S100000x3 : S_.BroadcastsInDim S100000x3 (![] : Fin 0 → Fin S100000x3.rank)
  slices_S100000x3_S100000x1_0_2 : S100000x3.Slices ![0, 2] S100000x1
  bcast_S_S100000x1 : S_.BroadcastsInDim S100000x1 (![] : Fin 0 → Fin S100000x1.rank)
  slices_S100000x3_S100000x2_0_0 : S100000x3.Slices ![0, 0] S100000x2
  bcast_S100000x1_S100000x2_0_1 : S100000x1.BroadcastsInDim S100000x2 (![0, 1] : Fin 2 → Fin S100000x2.rank)
  slices_S3x1x1_S1x1x1_0_0_0 : S3x1x1.Slices ![0, 0, 0] S1x1x1
  shapeCasts_S1x1x1_S_ : S1x1x1.ShapeCasts S_
  bcast_S_S100000x2 : S_.BroadcastsInDim S100000x2 (![] : Fin 0 → Fin S100000x2.rank)
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S100000x2_0_1 : S1x1.BroadcastsInDim S100000x2 (![0, 1] : Fin 2 → Fin S100000x2.rank)
  slices_S3x1x1_S1x1x1_1_0_0 : S3x1x1.Slices ![1, 0, 0] S1x1x1
  slices_S3x1_S1x1_1_0 : S3x1.Slices ![1, 0] S1x1
  slices_S3x1x1_S1x1x1_2_0_0 : S3x1x1.Slices ![2, 0, 0] S1x1x1
  slices_S3x1_S1x1_2_0 : S3x1.Slices ![2, 0] S1x1
  bcast_S100000x2_S1x100000x2_1_2 : S100000x2.BroadcastsInDim S1x100000x2 (![1, 2] : Fin 2 → Fin S1x100000x2.rank)
  concatenates_S1x100000x2_S1x100000x2_S1x100000x2_S3x100000x2_d0 : Shape.Concatenates [S1x100000x2, S1x100000x2, S1x100000x2] S3x100000x2 0
  reducesTo_S3x100000x2_S100000x2_d0 : S3x100000x2.ReducesTo [0] S100000x2
  h_S_ : 0 < S_.numel
  slices_S100000x2_S100000x1_0_0 : S100000x2.Slices ![0, 0] S100000x1
  slices_S100000x2_S100000x1_0_1 : S100000x2.Slices ![0, 1] S100000x1
  shapeCasts_S1024_S1x1024 : S1024.ShapeCasts S1x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bitsLt_bf16_f32 : FTy.bits .bf16 < FTy.bits .f32
  inb_S4000x512_S4000x512_0_0 : ∀ a, (![0, 0] : Fin 2 → Nat) a + S4000x512.size a ≤ S4000x512.size a
  h_S4000x512 : 0 < S4000x512.numel
  reducesTo_S1x1024_S1_d1 : S1x1024.ReducesTo [1] S1
  bcast_S1_S1x1_0 : S1.BroadcastsInDim S1x1 (![0] : Fin 1 → Fin S1x1.rank)
  bcast_S_S1x1 : S_.BroadcastsInDim S1x1 (![] : Fin 0 → Fin S1x1.rank)
  gather_S100000x2_S3200000x1_S3200000x2_1_0_n_n_0_1_12_wf : GatherDims.WF S100000x2 S3200000x1 S3200000x2 [1] [0] [] [0] [] 1 ![1, 2]
  scatter_S100000x3_S3200000x1_S3200000x3_1_0_0_1_wf : ScatterDims.WF S100000x3 S3200000x1 S3200000x3 [1] [0] [0] 1
  scatter_S100000x2_S3200000x1_S3200000x2_1_0_0_1_wf : ScatterDims.WF S100000x2 S3200000x1 S3200000x2 [1] [0] [0] 1
  dot_S4000x1_S4000x512_S1x512_0_0_1_1_n_n_wf : DotDims.WF S4000x1 S4000x512 S1x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .f32 = 32 ∨ (Rect.block (s := S100000x1) S4000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x512.size a ≤ S100000x1024.size a
  hwx0_2 : ∀ i : grid0.Coords, EltTy.bits .f32 = 32 ∨ (Rect.block (s := S100000x1024) S4000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1024.size a
  hwx0_3 : ∀ i : grid0.Coords, EltTy.bits .f32 = 32 ∨ (Rect.block (s := S1x1024) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x1024.size a
  hwx0_4 : ∀ i : grid0.Coords, EltTy.bits .f32 = 32 ∨ (Rect.block (s := S1x1024) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x1024.size a
  hwx0_5 : ∀ i : grid0.Coords, EltTy.bits .f32 = 32 ∨ (Rect.block (s := S1x1024) S1x512.size (cc0_transform_5 i) (hinb0_5 i)).WholeWords (EltTy.packing .f32)

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S4000x1_S4000x512_S1x512_0_0_1_1_n_n : DotDims S4000x1 S4000x512 S1x512 where
  lhsContracting := [0]
  rhsContracting := [0]
  lhsNonContracting := [1]
  rhsNonContracting := [1]
  lhsBatch := []
  rhsBatch := []
  wf := dot_S4000x1_S4000x512_S1x512_0_0_1_1_n_n_wf

abbrev win0_0 : Pipeline.Window sig grid0 :=
  Pipeline.Window.ofSpec (Memref.whole main_v92) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v93) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S4000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v94) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v95_0) S1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v95_1) S1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S100000x1 : Shape := ⟨2, ![100000, 1]⟩
abbrev S3200000 : Shape := ⟨1, ![3200000]⟩
abbrev S3x1x1 : Shape := ⟨3, ![3, 1, 1]⟩
abbrev S3x1 : Shape := ⟨2, ![3, 1]⟩
abbrev S100000x1024 : Shape := ⟨2, ![100000, 1024]⟩
abbrev S1024 : Shape := ⟨1, ![1024]⟩
abbrev S_ : Shape := ⟨0, ![]⟩
abbrev S100000 : Shape := ⟨1, ![100000]⟩
abbrev S3200000x1 : Shape := ⟨2, ![3200000, 1]⟩
abbrev S1x1x1 : Shape := ⟨3, ![1, 1, 1]⟩
abbrev S1x1 : Shape := ⟨2, ![1, 1]⟩
abbrev S1 : Shape := ⟨1, ![1]⟩
abbrev S1x100000x1 : Shape := ⟨3, ![1, 100000, 1]⟩
abbrev S3x100000x1 : Shape := ⟨3, ![3, 100000, 1]⟩
abbrev S1x100000 : Shape := ⟨2, ![1, 100000]⟩
abbrev S1x1024 : Shape := ⟨2, ![1, 1024]⟩

abbrev nBuf : Space → Nat
  | .hbm => 234
  | .vmem => 0
  | .smem => 0
  | _ => 0

abbrev hbmTy0_0 (i : Nat) : BufTy := match i % 128 with
  | 0 => ⟨S100000x1, .f32⟩
  | 1 => ⟨S100000x1, .f32⟩
  | 2 => ⟨S3200000, .f32⟩
  | 3 => ⟨S3200000, .i32⟩
  | 4 => ⟨S3200000, .i32⟩
  | 5 => ⟨S3x1x1, .f32⟩
  | 6 => ⟨S3x1, .f32⟩
  | 7 => ⟨S100000x1024, .f32⟩
  | 8 => ⟨S1024, .f32⟩
  | 9 => ⟨S_, .f32⟩
  | 10 => ⟨S3200000, .f32⟩
  | 11 => ⟨S_, .f32⟩
  | 12 => ⟨S100000, .f32⟩
  | 13 => ⟨S3200000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000x1, .f32⟩
  | 31 => ⟨S3200000x1, .f32⟩
  | 32 => ⟨S3200000x1, .f32⟩
  | 33 => ⟨S_, .f32⟩
  | 34 => ⟨S100000x1, .f32⟩
  | 35 => ⟨S3200000x1, .i32⟩
  | 36 => ⟨S100000x1, .f32⟩
  | 37 => ⟨S100000x1, .f32⟩
  | 38 => ⟨S100000x1, .f32⟩
  | 39 => ⟨S1x1x1, .f32⟩
  | 40 => ⟨S1x1, .f32⟩
  | 41 => ⟨S1x1, .f32⟩
  | 42 => ⟨S100000x1, .f32⟩
  | 43 => ⟨S1x1, .f32⟩
  | 44 => ⟨S1, .f32⟩
  | 45 => ⟨S1x1, .f32⟩
  | 46 => ⟨S100000x1, .f32⟩
  | 47 => ⟨S100000x1, .f32⟩
  | 48 => ⟨S_, .f32⟩
  | 49 => ⟨S100000x1, .f32⟩
  | 50 => ⟨S100000x1, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x1, .f32⟩
  | 60 => ⟨S3200000x1, .f32⟩
  | 61 => ⟨S3200000x1, .f32⟩
  | 62 => ⟨S_, .f32⟩
  | 63 => ⟨S100000x1, .f32⟩
  | 64 => ⟨S3200000x1, .i32⟩
  | 65 => ⟨S100000x1, .f32⟩
  | 66 => ⟨S100000x1, .f32⟩
  | 67 => ⟨S100000x1, .f32⟩
  | 68 => ⟨S1x1x1, .f32⟩
  | 69 => ⟨S1x1, .f32⟩
  | 70 => ⟨S1x1, .f32⟩
  | 71 => ⟨S100000x1, .f32⟩
  | 72 => ⟨S1x1, .f32⟩
  | 73 => ⟨S1, .f32⟩
  | 74 => ⟨S1x1, .f32⟩
  | 75 => ⟨S100000x1, .f32⟩
  | 76 => ⟨S100000x1, .f32⟩
  | 77 => ⟨S_, .f32⟩
  | 78 => ⟨S100000x1, .f32⟩
  | 79 => ⟨S100000x1, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000x1, .f32⟩
  | 89 => ⟨S3200000x1, .f32⟩
  | 90 => ⟨S3200000x1, .f32⟩
  | 91 => ⟨S_, .f32⟩
  | 92 => ⟨S100000x1, .f32⟩
  | 93 => ⟨S3200000x1, .i32⟩
  | 94 => ⟨S100000x1, .f32⟩
  | 95 => ⟨S100000x1, .f32⟩
  | 96 => ⟨S100000x1, .f32⟩
  | 97 => ⟨S1x1x1, .f32⟩
  | 98 => ⟨S1x1, .f32⟩
  | 99 => ⟨S1x1, .f32⟩
  | 100 => ⟨S100000x1, .f32⟩
  | 101 => ⟨S1x1, .f32⟩
  | 102 => ⟨S1, .f32⟩
  | 103 => ⟨S1x1, .f32⟩
  | 104 => ⟨S100000x1, .f32⟩
  | 105 => ⟨S100000x1, .f32⟩
  | 106 => ⟨S_, .f32⟩
  | 107 => ⟨S100000x1, .f32⟩
  | 108 => ⟨S100000x1, .f32⟩
  | 109 => ⟨S1x100000x1, .f32⟩
  | 110 => ⟨S1x100000x1, .f32⟩
  | 111 => ⟨S1x100000x1, .f32⟩
  | 112 => ⟨S3x100000x1, .f32⟩
  | 113 => ⟨S_, .f32⟩
  | 114 => ⟨S100000x1, .f32⟩
  | 115 => ⟨S_, .f32⟩
  | 116 => ⟨S100000x1, .f32⟩
  | 117 => ⟨S100000x1, .f32⟩
  | 118 => ⟨S1x100000, .f32⟩
  | 119 => ⟨S1x1024, .f32⟩
  | 120 => ⟨S1x1024, .f32⟩
  | 121 => ⟨S1x1024, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x1, .f32⟩

abbrev hbmTy0_1 (i : Nat) : BufTy := match i % 128 with
  | 0 => ⟨S3200000, .i32⟩
  | 1 => ⟨S3200000x1, .i32⟩
  | 2 => ⟨S3200000x1, .f32⟩
  | 3 => ⟨S3200000x1, .f32⟩
  | 4 => ⟨S3200000x1, .f32⟩
  | 5 => ⟨S_, .f32⟩
  | 6 => ⟨S100000x1, .f32⟩
  | 7 => ⟨S3200000x1, .i32⟩
  | 8 => ⟨S100000x1, .f32⟩
  | 9 => ⟨S100000x1, .f32⟩
  | 10 => ⟨S100000x1, .f32⟩
  | 11 => ⟨S1x1x1, .f32⟩
  | 12 => ⟨S1x1, .f32⟩
  | 13 => ⟨S1x1, .f32⟩
  | 14 => ⟨S100000x1, .f32⟩
  | 15 => ⟨S1x1, .f32⟩
  | 16 => ⟨S1, .f32⟩
  | 17 => ⟨S1x1, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x1, .f32⟩
  | 32 => ⟨S3200000x1, .f32⟩
  | 33 => ⟨S3200000x1, .f32⟩
  | 34 => ⟨S_, .f32⟩
  | 35 => ⟨S100000x1, .f32⟩
  | 36 => ⟨S3200000x1, .i32⟩
  | 37 => ⟨S100000x1, .f32⟩
  | 38 => ⟨S100000x1, .f32⟩
  | 39 => ⟨S100000x1, .f32⟩
  | 40 => ⟨S1x1x1, .f32⟩
  | 41 => ⟨S1x1, .f32⟩
  | 42 => ⟨S1x1, .f32⟩
  | 43 => ⟨S100000x1, .f32⟩
  | 44 => ⟨S1x1, .f32⟩
  | 45 => ⟨S1, .f32⟩
  | 46 => ⟨S1x1, .f32⟩
  | 47 => ⟨S100000x1, .f32⟩
  | 48 => ⟨S100000x1, .f32⟩
  | 49 => ⟨S_, .f32⟩
  | 50 => ⟨S100000x1, .f32⟩
  | 51 => ⟨S100000x1, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x1, .f32⟩
  | 61 => ⟨S3200000x1, .f32⟩
  | 62 => ⟨S3200000x1, .f32⟩
  | 63 => ⟨S_, .f32⟩
  | 64 => ⟨S100000x1, .f32⟩
  | 65 => ⟨S3200000x1, .i32⟩
  | 66 => ⟨S100000x1, .f32⟩
  | 67 => ⟨S100000x1, .f32⟩
  | 68 => ⟨S100000x1, .f32⟩
  | 69 => ⟨S1x1x1, .f32⟩
  | 70 => ⟨S1x1, .f32⟩
  | 71 => ⟨S1x1, .f32⟩
  | 72 => ⟨S100000x1, .f32⟩
  | 73 => ⟨S1x1, .f32⟩
  | 74 => ⟨S1, .f32⟩
  | 75 => ⟨S1x1, .f32⟩
  | 76 => ⟨S100000x1, .f32⟩
  | 77 => ⟨S100000x1, .f32⟩
  | 78 => ⟨S_, .f32⟩
  | 79 => ⟨S100000x1, .f32⟩
  | 80 => ⟨S100000x1, .f32⟩
  | 81 => ⟨S1x100000x1, .f32⟩
  | 82 => ⟨S1x100000x1, .f32⟩
  | 83 => ⟨S1x100000x1, .f32⟩
  | 84 => ⟨S3x100000x1, .f32⟩
  | 85 => ⟨S_, .f32⟩
  | 86 => ⟨S100000x1, .f32⟩
  | 87 => ⟨S_, .f32⟩
  | 88 => ⟨S100000x1, .f32⟩
  | 89 => ⟨S100000x1, .f32⟩
  | 90 => ⟨S1x100000, .f32⟩
  | 91 => ⟨S1x1024, .f32⟩
  | 92 => ⟨S1x1024, .f32⟩
  | 93 => ⟨S1x1024, .f32⟩
  | 94 => ⟨S1x1024, .f32⟩
  | 95 => ⟨S_, .f32⟩
  | 96 => ⟨S1, .f32⟩
  | 97 => ⟨S1x1, .f32⟩
  | 98 => ⟨S1x1, .f32⟩
  | 99 => ⟨S1x1, .f32⟩
  | 100 => ⟨S_, .f32⟩
  | 101 => ⟨S1x1, .f32⟩
  | 102 => ⟨S1x1, .f32⟩
  | 103 => ⟨S_, .f32⟩
  | 104 => ⟨S1x1, .f32⟩
  | 105 => ⟨S1x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call1_cst : Ref sig .tc := ⟨.hbm, 77, rfl⟩
abbrev main_call1_v0 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call2_cst : Ref sig .tc := ⟨.hbm, 106, rfl⟩
abbrev main_call2_v0 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_11 : Ref sig .tc := ⟨.hbm, 113, rfl⟩
abbrev main_v85 : Ref sig .tc := ⟨.hbm, 114, rfl⟩
abbrev main_cst_12 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_13 : Ref sig .tc := ⟨.hbm, 122, rfl⟩
abbrev main_v92 : Ref sig .tc := ⟨.hbm, 123, rfl⟩
abbrev main_v93 : Ref sig .tc := ⟨.hbm, 124, rfl⟩
abbrev main_c_14 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_15 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_call3_cst : Ref sig .tc := ⟨.hbm, 148, rfl⟩
abbrev main_call3_v0 : Ref sig .tc := ⟨.hbm, 149, rfl⟩
abbrev main_v115 : Ref sig .tc := ⟨.hbm, 150, rfl⟩
abbrev main_c_16 : Ref sig .tc := ⟨.hbm, 151, rfl⟩
abbrev main_v116 : Ref sig .tc := ⟨.hbm, 152, rfl⟩
abbrev main_v117 : Ref sig .tc := ⟨.hbm, 153, rfl⟩
abbrev main_c_17 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_18 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_call4_cst : Ref sig .tc := ⟨.hbm, 177, rfl⟩
abbrev main_call4_v0 : Ref sig .tc := ⟨.hbm, 178, rfl⟩
abbrev main_v139 : Ref sig .tc := ⟨.hbm, 179, rfl⟩
abbrev main_c_19 : Ref sig .tc := ⟨.hbm, 180, rfl⟩
abbrev main_v140 : Ref sig .tc := ⟨.hbm, 181, rfl⟩
abbrev main_v141 : Ref sig .tc := ⟨.hbm, 182, rfl⟩
abbrev main_c_20 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_21 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_call5_cst : Ref sig .tc := ⟨.hbm, 206, rfl⟩
abbrev main_call5_v0 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_22 : Ref sig .tc := ⟨.hbm, 213, rfl⟩
abbrev main_v168 : Ref sig .tc := ⟨.hbm, 214, rfl⟩
abbrev main_cst_23 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_24 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_25 : Ref sig .tc := ⟨.hbm, 228, rfl⟩
abbrev main_v180 : Ref sig .tc := ⟨.hbm, 229, rfl⟩
abbrev main_v181 : Ref sig .tc := ⟨.hbm, 230, rfl⟩
abbrev main_cst_26 : Ref sig .tc := ⟨.hbm, 231, rfl⟩
abbrev main_v182 : Ref sig .tc := ⟨.hbm, 232, rfl⟩
abbrev main_v183 : Ref sig .tc := ⟨.hbm, 233, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  slices_S3x1x1_S1x1x1_0_0_0 : S3x1x1.Slices ![0, 0, 0] S1x1x1
  shapeCasts_S1x1x1_S1x1 : S1x1x1.ShapeCasts S1x1
  transposes_S1x1_S1x1_1_0 : S1x1.Transposes [1, 0] S1x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  slices_S3x1x1_S1x1x1_1_0_0 : S3x1x1.Slices ![1, 0, 0] S1x1x1
  slices_S3x1_S1x1_1_0 : S3x1.Slices ![1, 0] S1x1
  slices_S3x1x1_S1x1x1_2_0_0 : S3x1x1.Slices ![2, 0, 0] S1x1x1
  slices_S3x1_S1x1_2_0 : S3x1.Slices ![2, 0] S1x1
  bcast_S100000x1_S1x100000x1_1_2 : S100000x1.BroadcastsInDim S1x100000x1 (![1, 2] : Fin 2 → Fin S1x100000x1.rank)
  concatenates_S1x100000x1_S1x100000x1_S1x100000x1_S3x100000x1_d0 : Shape.Concatenates [S1x100000x1, S1x100000x1, S1x100000x1] S3x100000x1 0
  reducesTo_S3x100000x1_S100000x1_d0 : S3x100000x1.ReducesTo [0] S100000x1
  h_S_ : 0 < S_.numel
  shapeCasts_S100000x1_S1x100000 : S100000x1.ShapeCasts S1x100000
  bcast_S1024_S1x1024_1 : S1024.BroadcastsInDim S1x1024 (![1] : Fin 1 → Fin S1x1024.rank)
  reducesTo_S1x1024_S1_d1 : S1x1024.ReducesTo [1] S1
  bcast_S1_S1x1_0 : S1.BroadcastsInDim S1x1 (![0] : Fin 1 → Fin S1x1.rank)
  bcast_S_S1x1 : S_.BroadcastsInDim S1x1 (![] : Fin 0 → Fin S1x1.rank)
  scatter_S100000_S3200000x1_S3200000_n_0_0_1_wf : ScatterDims.WF S100000 S3200000x1 S3200000 [] [0] [0] 1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x1_S100000x1_1_0_0_1_n_n_wf : DotDims.WF S100000x1 S1x1 S100000x1 [1] [0] [0] [1] [] []
  dot_S1x100000_S100000x1024_S1x1024_1_0_0_1_n_n_wf : DotDims.WF S1x100000 S100000x1024 S1x1024 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x1_S100000x1_1_0_0_1_n_n : DotDims S100000x1 S1x1 S100000x1 where
  lhsContracting := [1]
  rhsContracting := [0]
  lhsNonContracting := [0]
  rhsNonContracting := [1]
  lhsBatch := []
  rhsBatch := []
  wf := dot_S100000x1_S1x1_S100000x1_1_0_0_1_n_n_wf
def dot_S1x100000_S100000x1024_S1x1024_1_0_0_1_n_n : DotDims S1x100000 S100000x1024 S1x1024 where
  lhsContracting := [1]
  rhsContracting := [0]
  lhsNonContracting := [0]
  rhsNonContracting := [1]
  lhsBatch := []
  rhsBatch := []
  wf := dot_S1x100000_S100000x1024_S1x1024_1_0_0_1_n_n_wf

class Facts : Prop extends Facts₀ where

variable [Facts]
-- ==== Proof.HeadEntryBits.lean ====
import proofs.«103645_j80582176407619_2_alg».proof.Proof.Gen.Kernel.Launch
import Idealize.ShloMosaic.Lib.Pipeline.FrameSuffix

/-!
The contents of the TensorCore buffers at the moment the head kernel's region is entered: the argument
memory pushed through the seven stretches of host operations that precede the call (three graph-convolution
layers over both feature columns at once, their mean over the layers, the two column slices and the bias row).
-/

noncomputable section

namespace Cert.Kernel.Head

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- The stretches of host operations before the region, in program order. -/
abbrev prefixOps : List (List (HloOp τ sig (Elt F))) :=
  [hostOps0, hostOps0_1, hostOps0_2, hostOps0_3, hostOps0_4, hostOps0_5, hostOps0_6]

/-- Core `c`'s buffer contents when the region is entered, as a valuation. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

end Cert.Kernel.Head

end
-- ==== Proof.HeadSharedBits.lean ====
import proofs.«103645_j80582176407619_2_alg».proof.Proof.HeadEntryBits
import proofs.«103645_j80582176407619_2_alg».proof.Proof.Gen.Kernel.Skeleton
import proofs.«103645_j80582176407619_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
The head kernel's launch, the parts every case shares: the host program as seven stretches, the region and a closing
stretch; that the closing stretch stays off the windowed arrays; that no host operation writes an argument array; the
windows' blocks read off the region-entry contents and that an input's staging buffer holds its block at every
point; the two conditions of the body in closed form over the fifty grid points (inner coordinate 0: the two
accumulators are reset; inner coordinate 24: the two outputs are stored); where the outputs are idle; and the
memrefs the body is called with.
-/

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- No operation of this stretch allocates. -/
theorem hostOps0_fresh : (hostOps0 : List (HloOp τ sig (Elt F))).Forall fun op => op.fresh = ∅ := by
  simp only [List.Forall]; repeat' constructor
/-- No operation of this stretch allocates. -/
theorem hostOps0_1_fresh : (hostOps0_1 : List (HloOp τ sig (Elt F))).Forall fun op => op.fresh = ∅ := by
  simp only [List.Forall]; repeat' constructor
/-- No operation of this stretch allocates. -/
theorem hostOps0_2_fresh : (hostOps0_2 : List (HloOp τ sig (Elt F))).Forall fun op => op.fresh = ∅ := by
  simp only [List.Forall]; repeat' constructor
/-- No operation of this stretch allocates. -/
theorem hostOps0_3_fresh : (hostOps0_3 : List (HloOp τ sig (Elt F))).Forall fun op => op.fresh = ∅ := by
  simp only [List.Forall]; repeat' constructor
/-- No operation of this stretch allocates. -/
theorem hostOps0_4_fresh : (hostOps0_4 : List (HloOp τ sig (Elt F))).Forall fun op => op.fresh = ∅ := by
  simp only [List.Forall]; repeat' constructor
/-- No operation of this stretch allocates. -/
theorem hostOps0_5_fresh : (hostOps0_5 : List (HloOp τ sig (Elt F))).Forall fun op => op.fresh = ∅ := by
  simp only [List.Forall]; repeat' constructor
/-- No operation of this stretch allocates. -/
theorem hostOps0_6_fresh : (hostOps0_6 : List (HloOp τ sig (Elt F))).Forall fun op => op.fresh = ∅ := by
  simp only [List.Forall]; repeat' constructor
/-- No operation of this stretch allocates. -/
theorem hostOps1_fresh : (hostOps1 : List (HloOp τ sig (Elt F))).Forall fun op => op.fresh = ∅ := by
  simp only [List.Forall]; repeat' constructor

/-- The host program is the seven stretches, the region, and the closing stretch: it reduces to the region continued
    by the closing stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- The closing stretch touches only unscoped TensorCore buffers. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the six windowed arrays (each operation writes its own result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays at the region's entry and after the closing stretch -/

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data over the entry contents whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the block
    index has not moved), for any proof data over the entry contents whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the block
    index has not moved), for any proof data over the entry contents whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the block
    index has not moved), for any proof data over the entry contents whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the launch's post to the frame claim -/

/-- A buffer that is no windowed array and that the closing stretch does not write ends at its entry contents. -/
theorem tail_bypass (dats : (p : Fin 1) → (c : Dev nD) → Dat τ (Elt F) Unit ℕ (UR sig nD τ) ℕ (cfgs p) c) (c : Dev nD) (b : Ref sig .tc)
    (harr : ∀ w, Pipeline.arrRef spec0 w ≠ b)
    (hw : ∀ op ∈ (hostOps1 : List (HloOp τ sig (Elt F))), Proc.devRef .tc b ∉ op.writes) :
    Pipeline.afterTail₀ cfgs dats 0 (V0 m) [hostOps1] c b = V m c b := by
  unfold Pipeline.afterTail₀
  rw [StableHlo.after_of_forall_not_mem _ _ (by simpa only [List.flatten_cons, List.flatten_nil, List.append_nil] using hw)]
  exact Pipeline.withArrays_of_ne spec0 c (V0 m c) _ b harr

/-- Argument 0 bypasses the region and the closing stretch leaves it alone. -/
theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_bypass m dats c main_arg0 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg0 m c)
/-- Argument 1 bypasses the region and the closing stretch leaves it alone. -/
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_bypass m dats c main_arg1 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg1 m c)
/-- Argument 2 bypasses the region and the closing stretch leaves it alone. -/
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_bypass m dats c main_arg2 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg2 m c)
/-- Argument 3 bypasses the region and the closing stretch leaves it alone. -/
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_bypass m dats c main_arg3 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg3 m c)
/-- Argument 4 bypasses the region and the closing stretch leaves it alone. -/
theorem tail_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_bypass m dats c main_arg4 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg4 m c)
/-- Argument 5 bypasses the region and the closing stretch leaves it alone. -/
theorem tail_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_bypass m dats c main_arg5 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg5 m c)
/-- Argument 6 bypasses the region and the closing stretch leaves it alone. -/
theorem tail_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_bypass m dats c main_arg6 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg6 m c)
/-- Argument 8 bypasses the region and the closing stretch leaves it alone. -/
theorem tail_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_bypass m dats c main_arg8 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg8 m c)

/-- THE FRAME from a launch: for any proof data over the entry contents, a run to the launch's post — the staged weight
    array read through the library's `Dat.arrAt_in`, the other eight arguments through the post's clause for the
    buffers that bypass the region — is a run after which all nine argument arrays are as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_arg0 (Pipeline.mem_restRefs_of main_arg0 (by decide) (by decide))).trans (tail_main_arg0 m dats c),
      ((h c).2 main_arg1 (Pipeline.mem_restRefs_of main_arg1 (by decide) (by decide))).trans (tail_main_arg1 m dats c),
      ((h c).2 main_arg2 (Pipeline.mem_restRefs_of main_arg2 (by decide) (by decide))).trans (tail_main_arg2 m dats c),
      ((h c).2 main_arg3 (Pipeline.mem_restRefs_of main_arg3 (by decide) (by decide))).trans (tail_main_arg3 m dats c),
      ((h c).2 main_arg4 (Pipeline.mem_restRefs_of main_arg4 (by decide) (by decide))).trans (tail_main_arg4 m dats c),
      ((h c).2 main_arg5 (Pipeline.mem_restRefs_of main_arg5 (by decide) (by decide))).trans (tail_main_arg5 m dats c),
      ((h c).2 main_arg6 (Pipeline.mem_restRefs_of main_arg6 (by decide) (by decide))).trans (tail_main_arg6 m dats c),
      ((h c).1 2).trans (((dats 0 c).arrAt_in 2 rfl _).trans ((hA c 2).trans (V_main_arg7 m c))),
      ((h c).2 main_arg8 (Pipeline.mem_restRefs_of main_arg8 (by decide) (by decide))).trans (tail_main_arg8 m dats c)⟩) h

/-! ## The body's two conditions, in closed form over the grid -/

/-- The first conditional of the body: the inner grid coordinate is 0 (the accumulators are reset). -/
abbrev atFirst (i : grid0.Coords) : Prop := (Scalar.cmpi .ne (Scalar.extui (Scalar.cmpi .eq (BitVec.ofNat 32 (i 1).val) 0#32)) 0#32) = 1#1
/-- It holds at the points ≡ 0 (mod 25). -/
theorem atFirst_iff : ∀ t : Fin cfg0.N, atFirst (grid0.coords t) ↔ t.val % 25 = 0 :=
  (by decide +kernel : ∀ t : Fin grid0.N, atFirst (grid0.coords t) ↔ t.val % 25 = 0)

/-- The second conditional of the body: the inner grid coordinate is 24 (the outputs are stored). -/
abbrev atLast (i : grid0.Coords) : Prop := k0_cond2 i = 1#1
/-- It holds at the points ≡ 24 (mod 25). -/
theorem atLast_iff : ∀ t : Fin cfg0.N, atLast (grid0.coords t) ↔ t.val % 25 = 24 :=
  (by decide +kernel : ∀ t : Fin grid0.N, atLast (grid0.coords t) ↔ t.val % 25 = 24)

/-! ## Where the windows are idle -/

/-- Input window 0 is never idle. -/
theorem live0 : ∀ t : Fin cfg0.N, cfg0.idle 0 (grid0.coords t) = false := by decide +kernel
/-- Input window 1 is never idle. -/
theorem live1 : ∀ t : Fin cfg0.N, cfg0.idle 1 (grid0.coords t) = false := by decide +kernel
/-- Input window 2 is never idle. -/
theorem live2 : ∀ t : Fin cfg0.N, cfg0.idle 2 (grid0.coords t) = false := by decide +kernel
/-- Input window 3 is never idle. -/
theorem live3 : ∀ t : Fin cfg0.N, cfg0.idle 3 (grid0.coords t) = false := by decide +kernel
/-- Away from the last point of a sweep output window 4 is idle: nothing is stored into it, -/
theorem idle4_of_not_last : ∀ t : Fin cfg0.N, ¬atLast (grid0.coords t) → cfg0.idle 4 (grid0.coords t) = true := by decide +kernel
/-- and its block is not written back there. -/
theorem noFlush4_of_not_last : ∀ t : Fin cfg0.N, ¬atLast (grid0.coords t) → (cfg0.win 4).flush t = false := by decide +kernel
/-- At the last point of a sweep output window 4 is live. -/
theorem live4_of_last : ∀ t : Fin cfg0.N, atLast (grid0.coords t) → cfg0.idle 4 (grid0.coords t) = false := by decide +kernel
/-- Away from the last point of a sweep output window 5 is idle: nothing is stored into it, -/
theorem idle5_of_not_last : ∀ t : Fin cfg0.N, ¬atLast (grid0.coords t) → cfg0.idle 5 (grid0.coords t) = true := by decide +kernel
/-- and its block is not written back there. -/
theorem noFlush5_of_not_last : ∀ t : Fin cfg0.N, ¬atLast (grid0.coords t) → (cfg0.win 5).flush t = false := by decide +kernel
/-- At the last point of a sweep output window 5 is live. -/
theorem live5_of_last : ∀ t : Fin cfg0.N, atLast (grid0.coords t) → cfg0.idle 5 (grid0.coords t) = false := by decide +kernel

/-! ## The memrefs the body is called with -/

/-- Window 0's current staging memref at point `t`, as the pipeline passes it, and its wholeness. -/
abbrev ms0 (t : Fin cfg0.N) : Memref sig .tc .vmem S4000x1 .f32 := win0_0.stage (cfg0.slots t 0)
abbrev hs0 (t : Fin cfg0.N) : (ms0 t).IsWhole := hstage0_0 ((cfg0.slots t 0).cast nbuf0_0)
/-- Window 1's current staging memref at point `t`, as the pipeline passes it, and its wholeness. -/
abbrev ms1 (t : Fin cfg0.N) : Memref sig .tc .vmem S4000x1 .f32 := win0_1.stage (cfg0.slots t 1)
abbrev hs1 (t : Fin cfg0.N) : (ms1 t).IsWhole := hstage0_1 ((cfg0.slots t 1).cast nbuf0_1)
/-- Window 2's current staging memref at point `t`, as the pipeline passes it, and its wholeness. -/
abbrev ms2 (t : Fin cfg0.N) : Memref sig .tc .vmem S4000x512 .f32 := win0_2.stage (cfg0.slots t 2)
abbrev hs2 (t : Fin cfg0.N) : (ms2 t).IsWhole := hstage0_2 ((cfg0.slots t 2).cast nbuf0_2)
/-- Window 3's current staging memref at point `t`, as the pipeline passes it, and its wholeness. -/
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
/-- Window 4's current staging memref at point `t`, as the pipeline passes it, and its wholeness. -/
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
/-- Window 5's current staging memref at point `t`, as the pipeline passes it, and its wholeness. -/
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
/-- One staging buffer of each output window, through which its contents are stated (the choice does not matter). -/
abbrev outV4 : View sig .tc .vmem S1x512 .f32 := (Memref.whole cc0_stg4_0 : Memref sig .tc .vmem S1x512 .f32).view
abbrev outV5 : View sig .tc .vmem S1x512 .f32 := (Memref.whole cc0_stg5_0 : Memref sig .tc .vmem S1x512 .f32).view
/-- The two accumulators: whole scoped buffers of the kernel's own, carried from point to point. -/
abbrev accM1 : Memref sig .tc .vmem S1x512 .f32 := Memref.whole cc0_scratch0
abbrev accM2 : Memref sig .tc .vmem S1x512 .f32 := Memref.whole cc0_scratch1
/-- The accumulators as views: what they hold is stated through these. -/
abbrev accV1 : View sig .tc .vmem S1x512 .f32 := accM1.view
abbrev accV2 : View sig .tc .vmem S1x512 .f32 := accM2.view

/-- The region's class invariant with the two accumulators as memrefs owned at some contents. -/
theorem PhiA_eq (c : Dev nD) :
    (Pipeline.ΦA spec0 c : sProp 𝕄)
      = iprop(iprop((∃ d, owns (c : Thread nD τ) accM1 fullShare d) ∗ (∃ d, owns (c : Thread nD τ) accM2 fullShare d)) ∗ (∃ r, prngReg c r)) := by
  unfold Pipeline.ΦA; rw [scopedRest0_eq]; simp only [accM1, accM2, owns_whole]; try rfl

end Cert.Kernel.Head

end
-- ==== Proof.HeadRunFirstBits.lean ====
import proofs.«103645_j80582176407619_2_alg».proof.Proof.HeadSharedBits

/-!
The body of the head kernel run once at a first point of a sweep (inner coordinate 0, not 24): both accumulators are
overwritten with zeros and then receive the first block's products.
-/

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a first point of a sweep that is not a last one (inner coordinate 0): on whole staging memrefs — the four
    inputs at their blocks, the two idle outputs at contents handed back untouched, the two accumulators at anything —
    it runs to the continuation holding the inputs and outputs as they were and each accumulator with the pieces
    its two stores wrote (the reset to zero, then the first block's product added); the piece lists are found by the run. -/
noncomputable def runFirst (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) :
    Σ' (LS1 : List (View.Piece (Elt F) S1x512 .f32)), { LS2 : List (View.Piece (Elt F) S1x512 .f32) //
      ∀ (xi4 xi5 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9) K } := by
  refine ⟨?_, ?_, fun xi4 xi5 E K => ?run⟩
  case run =>
    simp only [cc0__head_kernel_eq_skeleton]; unfold cc0__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS1]; · iexists _; iexact HS1
    iexists _; iexact HS2

end Cert.Kernel.Head

end
-- ==== Proof.HeadRunMidBits.lean ====
import proofs.«103645_j80582176407619_2_alg».proof.Proof.HeadRunFirstBits

/-!
The body of the head kernel run once at a middle point of a sweep (inner coordinate neither 0 nor 24): each
accumulator receives its block's product on top of what the point before left.
-/

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point that is neither first nor last in its sweep: the inputs at their blocks, the idle outputs handed
    back untouched, the accumulators at what the point before left (`xs1`, `xs2`); each accumulator ends with the piece
    its one store wrote (the block's product added to what it held). -/
noncomputable def runMid (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) :
    Σ' (LS1 : List (View.Piece (Elt F) S1x512 .f32)), { LS2 : List (View.Piece (Elt F) S1x512 .f32) //
      ∀ (xi4 xi5 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9) K } := by
  refine ⟨?_, ?_, fun xi4 xi5 E K => ?run⟩
  case run =>
    simp only [cc0__head_kernel_eq_skeleton]; unfold cc0__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS1]; · iexists _; iexact HS1
    iexists _; iexact HS2

end Cert.Kernel.Head

end
-- ==== Proof.HeadRunLastBits.lean ====
import proofs.«103645_j80582176407619_2_alg».proof.Proof.HeadRunMidBits

/-!
The body of the head kernel run once at the last point of a sweep (inner coordinate 24): each accumulator receives its
block's product, and each output block is stored as the finished accumulator plus the bias block.
-/

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the last point of a sweep (inner coordinate 24): the inputs at their blocks, the outputs' buffers at
    anything, the accumulators at what the point before left; each accumulator ends with the piece its store wrote and
    each output with the piece its store wrote (the finished accumulator plus the bias block). -/
noncomputable def runLast (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) :
    Σ' (L4 : List (View.Piece (Elt F) S1x512 .f32)) (L5 : List (View.Piece (Elt F) S1x512 .f32)) (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9) K } := by
  refine ⟨?_, ?_, ?_, ?_, fun E K => ?run⟩
  case run =>
    simp only [cc0__head_kernel_eq_skeleton]; unfold cc0__head_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS1]; · iexists _; iexact HS1
    iexists _; iexact HS2

end Cert.Kernel.Head

end
-- ==== Proof.HeadFrameBits.lean ====
import proofs.«103645_j80582176407619_2_alg».proof.Proof.HeadRunLastBits

/-!
The frame of the head kernel. What each case leaves in the accumulators and the outputs, as the pieces its stores
wrote read back; these contents point by point along the grid (`outsAt`); the proof data of the pipeline with the
invariant that carries the two accumulators from point to point; the body obligation at every point by cases on the
closed forms of the two conditions; the launch of the whole host program; and the frame claim: the program runs to
completion without a fault and its nine argument arrays end unchanged.
-/

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first point of a sweep the pieces written into the first accumulator tile it, so they cover it. -/
theorem cover_first_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) (y : S1x512.Idx) :
    ∃ pc ∈ (runFirst c i arg2 harg2 arg3 harg3 arg4 harg4 arg5 harg5 arg6 harg6 arg7 harg7 arg8 harg8 arg9 harg9 hc0 hc1 x0 x1 x2 x3).1, y ∈ pc.1.set :=
  View.cover_of_tiledL (runFirst c i arg2 harg2 arg3 harg3 arg4 harg4 arg5 harg5 arg6 harg6 arg7 harg7 arg8 harg8 arg9 harg9 hc0 hc1 x0 x1 x2 x3).1 S1x512.size (by sl_kernel_rfl) y

/-- What a first point of a sweep leaves in the first accumulator: its pieces read back. -/
def first_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) : Vec F S1x512 .f32 :=
  accV1.read (Elt F) (accV1.writes (Elt F) accV1.junk (runFirst c i arg2 harg2 arg3 harg3 arg4 harg4 arg5 harg5 arg6 harg6 arg7 harg7 arg8 harg8 arg9 harg9 hc0 hc1 x0 x1 x2 x3).1)

/-- At a first point of a sweep the pieces written into the second accumulator tile it, so they cover it. -/
theorem cover_first_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) (y : S1x512.Idx) :
    ∃ pc ∈ (runFirst c i arg2 harg2 arg3 harg3 arg4 harg4 arg5 harg5 arg6 harg6 arg7 harg7 arg8 harg8 arg9 harg9 hc0 hc1 x0 x1 x2 x3).2.1, y ∈ pc.1.set :=
  View.cover_of_tiledL (runFirst c i arg2 harg2 arg3 harg3 arg4 harg4 arg5 harg5 arg6 harg6 arg7 harg7 arg8 harg8 arg9 harg9 hc0 hc1 x0 x1 x2 x3).2.1 S1x512.size (by sl_kernel_rfl) y

/-- What a first point of a sweep leaves in the second accumulator: its pieces read back. -/
def first_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) : Vec F S1x512 .f32 :=
  accV2.read (Elt F) (accV2.writes (Elt F) accV2.junk (runFirst c i arg2 harg2 arg3 harg3 arg4 harg4 arg5 harg5 arg6 harg6 arg7 harg7 arg8 harg8 arg9 harg9 hc0 hc1 x0 x1 x2 x3).2.1)

/-- At a middle point of a sweep the pieces written into the first accumulator tile it, so they cover it. -/
theorem cover_mid_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runMid c i arg2 harg2 arg3 harg3 arg4 harg4 arg5 harg5 arg6 harg6 arg7 harg7 arg8 harg8 arg9 harg9 hc0 hc1 x0 x1 x2 x3 xs1 xs2).1, y ∈ pc.1.set :=
  View.cover_of_tiledL (runMid c i arg2 harg2 arg3 harg3 arg4 harg4 arg5 harg5 arg6 harg6 arg7 harg7 arg8 harg8 arg9 harg9 hc0 hc1 x0 x1 x2 x3 xs1 xs2).1 S1x512.size (by sl_kernel_rfl) y

/-- What a middle point of a sweep leaves in the first accumulator: its pieces read back. -/
def mid_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) : Vec F S1x512 .f32 :=
  accV1.read (Elt F) (accV1.writes (Elt F) accV1.junk (runMid c i arg2 harg2 arg3 harg3 arg4 harg4 arg5 harg5 arg6 harg6 arg7 harg7 arg8 harg8 arg9 harg9 hc0 hc1 x0 x1 x2 x3 xs1 xs2).1)

/-- At a middle point of a sweep the pieces written into the second accumulator tile it, so they cover it. -/
theorem cover_mid_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runMid c i arg2 harg2 arg3 harg3 arg4 harg4 arg5 harg5 arg6 harg6 arg7 harg7 arg8 harg8 arg9 harg9 hc0 hc1 x0 x1 x2 x3 xs1 xs2).2.1, y ∈ pc.1.set :=
  View.cover_of_tiledL (runMid c i arg2 harg2 arg3 harg3 arg4 harg4 arg5 harg5 arg6 harg6 arg7 harg7 arg8 harg8 arg9 harg9 hc0 hc1 x0 x1 x2 x3 xs1 xs2).2.1 S1x512.size (by sl_kernel_rfl) y

/-- What a middle point of a sweep leaves in the second accumulator: its pieces read back. -/
def mid_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) : Vec F S1x512 .f32 :=
  accV2.read (Elt F) (accV2.writes (Elt F) accV2.junk (runMid c i arg2 harg2 arg3 harg3 arg4 harg4 arg5 harg5 arg6 harg6 arg7 harg7 arg8 harg8 arg9 harg9 hc0 hc1 x0 x1 x2 x3 xs1 xs2).2.1)

/-- At the last point of a sweep the pieces written into the first output's staging buffer tile it, so they cover it. -/
theorem cover_last_out4 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runLast c i arg2 harg2 arg3 harg3 arg4 harg4 arg5 harg5 arg6 harg6 arg7 harg7 arg8 harg8 arg9 harg9 hc0 hc1 x0 x1 x2 x3 xs1 xs2).1, y ∈ pc.1.set :=
  View.cover_of_tiledL (runLast c i arg2 harg2 arg3 harg3 arg4 harg4 arg5 harg5 arg6 harg6 arg7 harg7 arg8 harg8 arg9 harg9 hc0 hc1 x0 x1 x2 x3 xs1 xs2).1 S1x512.size (by sl_kernel_rfl) y

/-- What the last point of a sweep leaves in the first output's staging buffer: its pieces read back. -/
def last_out4 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) : Vec F S1x512 .f32 :=
  outV4.read (Elt F) (outV4.writes (Elt F) outV4.junk (runLast c i arg2 harg2 arg3 harg3 arg4 harg4 arg5 harg5 arg6 harg6 arg7 harg7 arg8 harg8 arg9 harg9 hc0 hc1 x0 x1 x2 x3 xs1 xs2).1)

/-- At the last point of a sweep the pieces written into the second output's staging buffer tile it, so they cover it. -/
theorem cover_last_out5 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runLast c i arg2 harg2 arg3 harg3 arg4 harg4 arg5 harg5 arg6 harg6 arg7 harg7 arg8 harg8 arg9 harg9 hc0 hc1 x0 x1 x2 x3 xs1 xs2).2.1, y ∈ pc.1.set :=
  View.cover_of_tiledL (runLast c i arg2 harg2 arg3 harg3 arg4 harg4 arg5 harg5 arg6 harg6 arg7 harg7 arg8 harg8 arg9 harg9 hc0 hc1 x0 x1 x2 x3 xs1 xs2).2.1 S1x512.size (by sl_kernel_rfl) y

/-- What the last point of a sweep leaves in the second output's staging buffer: its pieces read back. -/
def last_out5 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) : Vec F S1x512 .f32 :=
  outV5.read (Elt F) (outV5.writes (Elt F) outV5.junk (runLast c i arg2 harg2 arg3 harg3 arg4 harg4 arg5 harg5 arg6 harg6 arg7 harg7 arg8 harg8 arg9 harg9 hc0 hc1 x0 x1 x2 x3 xs1 xs2).2.1)

/-- At the last point of a sweep the pieces written into the first accumulator tile it, so they cover it. -/
theorem cover_last_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runLast c i arg2 harg2 arg3 harg3 arg4 harg4 arg5 harg5 arg6 harg6 arg7 harg7 arg8 harg8 arg9 harg9 hc0 hc1 x0 x1 x2 x3 xs1 xs2).2.2.1, y ∈ pc.1.set :=
  View.cover_of_tiledL (runLast c i arg2 harg2 arg3 harg3 arg4 harg4 arg5 harg5 arg6 harg6 arg7 harg7 arg8 harg8 arg9 harg9 hc0 hc1 x0 x1 x2 x3 xs1 xs2).2.2.1 S1x512.size (by sl_kernel_rfl) y

/-- What the last point of a sweep leaves in the first accumulator: its pieces read back. -/
def last_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) : Vec F S1x512 .f32 :=
  accV1.read (Elt F) (accV1.writes (Elt F) accV1.junk (runLast c i arg2 harg2 arg3 harg3 arg4 harg4 arg5 harg5 arg6 harg6 arg7 harg7 arg8 harg8 arg9 harg9 hc0 hc1 x0 x1 x2 x3 xs1 xs2).2.2.1)

/-- At the last point of a sweep the pieces written into the second accumulator tile it, so they cover it. -/
theorem cover_last_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runLast c i arg2 harg2 arg3 harg3 arg4 harg4 arg5 harg5 arg6 harg6 arg7 harg7 arg8 harg8 arg9 harg9 hc0 hc1 x0 x1 x2 x3 xs1 xs2).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 xs1 xs2).2.2.2.1 S1x512.size (by sl_kernel_rfl) y

/-- What the last point of a sweep leaves in the second accumulator: its pieces read back. -/
def last_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) : Vec F S1x512 .f32 :=
  accV2.read (Elt F) (accV2.writes (Elt F) accV2.junk (runLast c i arg2 harg2 arg3 harg3 arg4 harg4 arg5 harg5 arg6 harg6 arg7 harg7 arg8 harg8 arg9 harg9 hc0 hc1 x0 x1 x2 x3 xs1 xs2).2.2.2.1)

/-! ## What the outputs and the accumulators hold after each point -/

/-- What an output's staging buffer is said to hold after a point that stores nothing into it: nothing reads this
    (the window is idle there, neither written back nor handed on). -/
def idleOut : Vec F S1x512 .f32 := outV4.read (Elt F) outV4.junk

/-- THE ACCUMULATION. After the body at position `n`: the two outputs' staging buffers, then the two accumulators.
    A first point of a sweep resets the accumulators and adds its block's products; a later point adds to what the
    point before left; the last point of a sweep also stores each finished accumulator plus the bias block. -/
def outsAt (c : Dev nD) : (n : ℕ) → n < cfg0.N → Vec F S1x512 .f32 × Vec F S1x512 .f32 × Vec F S1x512 .f32 × Vec F S1x512 .f32
  | 0, hn => (idleOut, idleOut, first_acc1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM1 (Memref.isWhole_whole _) accM2 (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩) (iblk m c 2 ⟨0, hn⟩) (iblk m c 3 ⟨0, hn⟩), first_acc2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM1 (Memref.isWhole_whole _) accM2 (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 25 = 0 then
      if h1 : (n + 1) % 25 = 24 then
        False.elim (by omega)
      else
        (idleOut, idleOut, first_acc1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) ((atFirst_iff ⟨n + 1, hn⟩).mpr h0) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩), first_acc2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) ((atFirst_iff ⟨n + 1, hn⟩).mpr h0) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 25 = 24 then
        (last_out4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2, last_out5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2, last_acc1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2, last_acc2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2)
      else
        (idleOut, idleOut, mid_acc1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2, mid_acc2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2)

/-- `outsAt` at a first point of a sweep. -/
theorem outsAt_first (c : Dev nD) (t : Fin cfg0.N) (h0 : t.val % 25 = 0) (h1 : ¬t.val % 25 = 24) :
    outsAt m c t.val t.isLt = (idleOut, idleOut, first_acc1 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) ((atFirst_iff t).mpr h0) (fun h => h1 ((atLast_iff t).mp h)) (iblk m c 0 t) (iblk m c 1 t) (iblk m c 2 t) (iblk m c 3 t), first_acc2 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) ((atFirst_iff t).mpr h0) (fun h => h1 ((atLast_iff t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt` at a middle point of a sweep: over what the point before left. -/
theorem outsAt_mid (c : Dev nD) (t : Fin cfg0.N) (h0 : ¬t.val % 25 = 0) (h1 : ¬t.val % 25 = 24) :
    outsAt m c t.val t.isLt = (idleOut, idleOut, mid_acc1 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) (fun h => h1 ((atLast_iff t).mp h)) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2, mid_acc2 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) (fun h => h1 ((atLast_iff t).mp h)) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at the last point of a sweep: over what the point before left. -/
theorem outsAt_last (c : Dev nD) (t : Fin cfg0.N) (h0 : ¬t.val % 25 = 0) (h1 : t.val % 25 = 24) :
    outsAt m c t.val t.isLt = (last_out4 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2, last_out5 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2, last_acc1 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2, last_acc2 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (each accumulator at anything);
    afterwards each accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) accM1 fullShare ((outsAt m c n hn).2.2.1) ∗ owns (c : Thread nD τ) accM2 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM1 fullShare ((outsAt m c n hn).2.2.1) ∗ owns (c : Thread nD τ) accM2 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) accM1 fullShare ((outsAt m c (n - 1) (by omega)).2.2.1) ∗ owns (c : Thread nD τ) accM2 fullShare ((outsAt m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the outputs' at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point. The inputs' memrefs hold their blocks; the closed forms of the two conditions say which of
    the three cases the point is in; that case's run applies, the invariant handing it the accumulators at what the
    point before left (at anything before the first point, and a first point of a sweep overwrites them whatever they
    hold) and taking them back at this point's contents, which the covering pieces determine. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 25 = 0
  · by_cases h1 : t.val % 25 = 24
    · exfalso; omega
    · have hl : ¬atLast (grid0.coords t) := fun h => h1 ((atLast_iff t).mp h)
      rw [Dat.leavesExact_idle (dats m 0 c) 4 t (idle4_of_not_last t hl) (noFlush4_of_not_last t hl)]
      rw [Dat.leavesExact_idle (dats m 0 c) 5 t (idle5_of_not_last t hl) (noFlush5_of_not_last t hl)]
      rw [outsAt_first m c t h0 h1]
      unfold first_acc1 first_acc2; (try dsimp only)
      by_cases hz : t.val = 0
      · rw [PhiS_castSucc m c t, PhiS_zero m c _ _ hz, PhiA_eq]
        iintro ⟨⟨⟨HS1, HS2⟩, Hg⟩, Ho, ⟨%d0, H0⟩, ⟨%d1, H1⟩, ⟨%d2, H2⟩, ⟨%d3, H3⟩, ⟨%d4, H4⟩, ⟨%d5, H5⟩⟩
        iapply ((runFirst c (grid0.coords t) _ _ _ _ _ _ _ _ _ _ _ _ _ _ _ _ ((atFirst_iff t).mpr h0) (fun h => h1 ((atLast_iff t).mp h)) (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS1]; · iexact HS1
        isplitl [HS2]; · iexact HS2
        iintro ⟨H0, H1, H2, H3, H4, H5, ⟨%es1, HS1⟩, ⟨%es2, HS2⟩⟩
        isplitl [HS1 HS2 Hg]
        · isplitl [HS1 HS2]
          · isplitl [HS1]
            · unfold owns; iexists _; isplitr
              swap; · iexact HS1
              ipureintro; exact View.read_writes_of_cover _ _ _ _ _ (cover_first_acc1 c _ _ _ _ _ _ _ _ _ _ _ _ _ _ _ _ _ _ _ _ _ _ _)
            · unfold owns; iexists _; isplitr
              swap; · iexact HS2
              ipureintro; exact View.read_writes_of_cover _ _ _ _ _ (cover_first_acc2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨⟨HS1, HS2⟩, Hg⟩, Ho, ⟨%d0, H0⟩, ⟨%d1, H1⟩, ⟨%d2, H2⟩, ⟨%d3, H3⟩, ⟨%d4, H4⟩, ⟨%d5, H5⟩⟩
        iapply ((runFirst c (grid0.coords t) _ _ _ _ _ _ _ _ _ _ _ _ _ _ _ _ ((atFirst_iff t).mpr h0) (fun h => h1 ((atLast_iff t).mp h)) (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS1]; · iexists _; iexact HS1
        isplitl [HS2]; · iexists _; iexact HS2
        iintro ⟨H0, H1, H2, H3, H4, H5, ⟨%es1, HS1⟩, ⟨%es2, HS2⟩⟩
        isplitl [HS1 HS2 Hg]
        · isplitl [HS1 HS2]
          · isplitl [HS1]
            · unfold owns; iexists _; isplitr
              swap; · iexact HS1
              ipureintro; exact View.read_writes_of_cover _ _ _ _ _ (cover_first_acc1 c _ _ _ _ _ _ _ _ _ _ _ _ _ _ _ _ _ _ _ _ _ _ _)
            · unfold owns; iexists _; isplitr
              swap; · iexact HS2
              ipureintro; exact View.read_writes_of_cover _ _ _ _ _ (cover_first_acc2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    by_cases h1 : t.val % 25 = 24
    · have hl : atLast (grid0.coords t) := (atLast_iff t).mpr h1
      rw [show (dats m 0 c).leavesExact 4 t = owns (c : Thread nD τ) (ms4 t) fullShare ((dats m 0 c).after 4 t) from by
        unfold Dat.leavesExact; rw [live4_of_last t hl], after4]
      rw [show (dats m 0 c).leavesExact 5 t = owns (c : Thread nD τ) (ms5 t) fullShare ((dats m 0 c).after 5 t) from by
        unfold Dat.leavesExact; rw [live5_of_last t hl], after5]
      rw [outsAt_last m c t h0 h1]
      unfold last_out4 last_out5 last_acc1 last_acc2; (try dsimp only)
      rw [PhiS_castSucc m c t, PhiS_pos m c _ _ hz]
      iintro ⟨⟨⟨HS1, HS2⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ (fun h => h0 ((atFirst_iff t).mp h)) ((atLast_iff t).mpr h1) (iblk m c 0 t) (iblk m c 1 t) (iblk m c 2 t) (iblk m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS1]; · iexact HS1
      isplitl [HS2]; · iexact HS2
      iintro ⟨H0, H1, H2, H3, ⟨%e4, H4⟩, ⟨%e5, H5⟩, ⟨%es1, HS1⟩, ⟨%es2, HS2⟩⟩
      isplitl [HS1 HS2 Hg]
      · isplitl [HS1 HS2]
        · isplitl [HS1]
          · unfold owns; iexists _; isplitr
            swap; · iexact HS1
            ipureintro; exact View.read_writes_of_cover _ _ _ _ _ (cover_last_acc1 c _ _ _ _ _ _ _ _ _ _ _ _ _ _ _ _ _ _ _ _ _ _ _ _ _)
          · unfold owns; iexists _; isplitr
            swap; · iexact HS2
            ipureintro; exact View.read_writes_of_cover _ _ _ _ _ (cover_last_acc2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_last_out4 c _ _ _ _ _ _ _ _ _ _ _ _ _ _ _ _ _ _ _ _ _ _ _ _ _)
      unfold owns; iexists _; isplitr
      swap; · iexact H5
      ipureintro; exact View.read_writes_of_cover _ _ _ _ _ (cover_last_out5 c _ _ _ _ _ _ _ _ _ _ _ _ _ _ _ _ _ _ _ _ _ _ _ _ _)
    · have hl : ¬atLast (grid0.coords t) := fun h => h1 ((atLast_iff t).mp h)
      rw [Dat.leavesExact_idle (dats m 0 c) 4 t (idle4_of_not_last t hl) (noFlush4_of_not_last t hl)]
      rw [Dat.leavesExact_idle (dats m 0 c) 5 t (idle5_of_not_last t hl) (noFlush5_of_not_last t hl)]
      rw [outsAt_mid m c t h0 h1]
      unfold mid_acc1 mid_acc2; (try dsimp only)
      rw [PhiS_castSucc m c t, PhiS_pos m c _ _ hz]
      iintro ⟨⟨⟨HS1, HS2⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ (fun h => h0 ((atFirst_iff t).mp h)) (fun h => h1 ((atLast_iff t).mp h)) (iblk m c 0 t) (iblk m c 1 t) (iblk m c 2 t) (iblk m c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS1]; · iexact HS1
      isplitl [HS2]; · iexact HS2
      iintro ⟨H0, H1, H2, H3, H4, H5, ⟨%es1, HS1⟩, ⟨%es2, HS2⟩⟩
      isplitl [HS1 HS2 Hg]
      · isplitl [HS1 HS2]
        · isplitl [HS1]
          · unfold owns; iexists _; isplitr
            swap; · iexact HS1
            ipureintro; exact View.read_writes_of_cover _ _ _ _ _ (cover_mid_acc1 c _ _ _ _ _ _ _ _ _ _ _ _ _ _ _ _ _ _ _ _ _ _ _ _ _)
          · unfold owns; iexists _; isplitr
            swap; · iexact HS2
            ipureintro; exact View.read_writes_of_cover _ _ _ _ _ (cover_mid_acc2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS1, HS2⟩, Hg⟩
  isplitl [HS1 HS2]
  · isplitl [HS1]
    · iexists _; iexact HS1
    · iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- From any memory with zero counters every weakly fair execution of the host program on the TensorCores terminates,
    and every final state has each windowed array at what the library computes from the proof data and every other
    unscoped buffer as the closing stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- THE FRAME: the host program runs to completion without a fault and all nine argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Head

end
-- ==== Proof.HeadEntry.lean ====
import proofs.«103645_j80582176407619_2_alg».proof.Proof.Gen.KernelIdeal.Launch
import Idealize.ShloMosaic.Lib.Pipeline.FrameSuffix

/-!
The contents of the TensorCore buffers at the moment the head kernel's region is entered: the argument
memory pushed through the seven stretches of host operations that precede the call (three graph-convolution
layers over both feature columns at once, their mean over the layers, the two column slices and the bias row).
-/

noncomputable section

namespace Cert.KernelIdeal.Head

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- The stretches of host operations before the region, in program order. -/
abbrev prefixOps : List (List (HloOp τ sig (Elt F))) :=
  [hostOps0, hostOps0_1, hostOps0_2, hostOps0_3, hostOps0_4, hostOps0_5, hostOps0_6]

/-- Core `c`'s buffer contents when the region is entered, as a valuation. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

end Cert.KernelIdeal.Head

end
-- ==== Proof.HeadShared.lean ====
import proofs.«103645_j80582176407619_2_alg».proof.Proof.HeadEntry
import proofs.«103645_j80582176407619_2_alg».proof.Proof.Gen.KernelIdeal.Skeleton
import proofs.«103645_j80582176407619_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
The head kernel's launch, the parts every case shares: the host program as seven stretches, the region and a closing
stretch; that the closing stretch stays off the windowed arrays; that no host operation writes an argument array; the
windows' blocks read off the region-entry contents and that an input's staging buffer holds its block at every
point; the two conditions of the body in closed form over the fifty grid points (inner coordinate 0: the two
accumulators are reset; inner coordinate 24: the two outputs are stored); where the outputs are idle; and the
memrefs the body is called with.
-/

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- No operation of this stretch allocates. -/
theorem hostOps0_fresh : (hostOps0 : List (HloOp τ sig (Elt F))).Forall fun op => op.fresh = ∅ := by
  simp only [List.Forall]; repeat' constructor
/-- No operation of this stretch allocates. -/
theorem hostOps0_1_fresh : (hostOps0_1 : List (HloOp τ sig (Elt F))).Forall fun op => op.fresh = ∅ := by
  simp only [List.Forall]; repeat' constructor
/-- No operation of this stretch allocates. -/
theorem hostOps0_2_fresh : (hostOps0_2 : List (HloOp τ sig (Elt F))).Forall fun op => op.fresh = ∅ := by
  simp only [List.Forall]; repeat' constructor
/-- No operation of this stretch allocates. -/
theorem hostOps0_3_fresh : (hostOps0_3 : List (HloOp τ sig (Elt F))).Forall fun op => op.fresh = ∅ := by
  simp only [List.Forall]; repeat' constructor
/-- No operation of this stretch allocates. -/
theorem hostOps0_4_fresh : (hostOps0_4 : List (HloOp τ sig (Elt F))).Forall fun op => op.fresh = ∅ := by
  simp only [List.Forall]; repeat' constructor
/-- No operation of this stretch allocates. -/
theorem hostOps0_5_fresh : (hostOps0_5 : List (HloOp τ sig (Elt F))).Forall fun op => op.fresh = ∅ := by
  simp only [List.Forall]; repeat' constructor
/-- No operation of this stretch allocates. -/
theorem hostOps0_6_fresh : (hostOps0_6 : List (HloOp τ sig (Elt F))).Forall fun op => op.fresh = ∅ := by
  simp only [List.Forall]; repeat' constructor
/-- No operation of this stretch allocates. -/
theorem hostOps1_fresh : (hostOps1 : List (HloOp τ sig (Elt F))).Forall fun op => op.fresh = ∅ := by
  simp only [List.Forall]; repeat' constructor

/-- The host program is the seven stretches, the region, and the closing stretch: it reduces to the region continued
    by the closing stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- The closing stretch touches only unscoped TensorCore buffers. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the six windowed arrays (each operation writes its own result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays at the region's entry and after the closing stretch -/

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data over the entry contents whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the block
    index has not moved), for any proof data over the entry contents whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the block
    index has not moved), for any proof data over the entry contents whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the block
    index has not moved), for any proof data over the entry contents whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the launch's post to the frame claim -/

/-- A buffer that is no windowed array and that the closing stretch does not write ends at its entry contents. -/
theorem tail_bypass (dats : (p : Fin 1) → (c : Dev nD) → Dat τ (Elt F) Unit ℕ (UR sig nD τ) ℕ (cfgs p) c) (c : Dev nD) (b : Ref sig .tc)
    (harr : ∀ w, Pipeline.arrRef spec0 w ≠ b)
    (hw : ∀ op ∈ (hostOps1 : List (HloOp τ sig (Elt F))), Proc.devRef .tc b ∉ op.writes) :
    Pipeline.afterTail₀ cfgs dats 0 (V0 m) [hostOps1] c b = V m c b := by
  unfold Pipeline.afterTail₀
  rw [StableHlo.after_of_forall_not_mem _ _ (by simpa only [List.flatten_cons, List.flatten_nil, List.append_nil] using hw)]
  exact Pipeline.withArrays_of_ne spec0 c (V0 m c) _ b harr

/-- Argument 0 bypasses the region and the closing stretch leaves it alone. -/
theorem tail_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_bypass m dats c main_arg0 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg0 m c)
/-- Argument 1 bypasses the region and the closing stretch leaves it alone. -/
theorem tail_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_bypass m dats c main_arg1 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg1 m c)
/-- Argument 2 bypasses the region and the closing stretch leaves it alone. -/
theorem tail_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_bypass m dats c main_arg2 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg2 m c)
/-- Argument 3 bypasses the region and the closing stretch leaves it alone. -/
theorem tail_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_bypass m dats c main_arg3 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg3 m c)
/-- Argument 4 bypasses the region and the closing stretch leaves it alone. -/
theorem tail_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_bypass m dats c main_arg4 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg4 m c)
/-- Argument 5 bypasses the region and the closing stretch leaves it alone. -/
theorem tail_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_bypass m dats c main_arg5 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg5 m c)
/-- Argument 6 bypasses the region and the closing stretch leaves it alone. -/
theorem tail_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_bypass m dats c main_arg6 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg6 m c)
/-- Argument 8 bypasses the region and the closing stretch leaves it alone. -/
theorem tail_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_bypass m dats c main_arg8 (by decide) (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))).trans (V_main_arg8 m c)

/-- THE FRAME from a launch: for any proof data over the entry contents, a run to the launch's post — the staged weight
    array read through the library's `Dat.arrAt_in`, the other eight arguments through the post's clause for the
    buffers that bypass the region — is a run after which all nine argument arrays are as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_arg0 (Pipeline.mem_restRefs_of main_arg0 (by decide) (by decide))).trans (tail_main_arg0 m dats c),
      ((h c).2 main_arg1 (Pipeline.mem_restRefs_of main_arg1 (by decide) (by decide))).trans (tail_main_arg1 m dats c),
      ((h c).2 main_arg2 (Pipeline.mem_restRefs_of main_arg2 (by decide) (by decide))).trans (tail_main_arg2 m dats c),
      ((h c).2 main_arg3 (Pipeline.mem_restRefs_of main_arg3 (by decide) (by decide))).trans (tail_main_arg3 m dats c),
      ((h c).2 main_arg4 (Pipeline.mem_restRefs_of main_arg4 (by decide) (by decide))).trans (tail_main_arg4 m dats c),
      ((h c).2 main_arg5 (Pipeline.mem_restRefs_of main_arg5 (by decide) (by decide))).trans (tail_main_arg5 m dats c),
      ((h c).2 main_arg6 (Pipeline.mem_restRefs_of main_arg6 (by decide) (by decide))).trans (tail_main_arg6 m dats c),
      ((h c).1 2).trans (((dats 0 c).arrAt_in 2 rfl _).trans ((hA c 2).trans (V_main_arg7 m c))),
      ((h c).2 main_arg8 (Pipeline.mem_restRefs_of main_arg8 (by decide) (by decide))).trans (tail_main_arg8 m dats c)⟩) h

/-! ## The body's two conditions, in closed form over the grid -/

/-- The first conditional of the body: the inner grid coordinate is 0 (the accumulators are reset). -/
abbrev atFirst (i : grid0.Coords) : Prop := (Scalar.cmpi .ne (Scalar.extui (Scalar.cmpi .eq (BitVec.ofNat 32 (i 1).val) 0#32)) 0#32) = 1#1
/-- It holds at the points ≡ 0 (mod 25). -/
theorem atFirst_iff : ∀ t : Fin cfg0.N, atFirst (grid0.coords t) ↔ t.val % 25 = 0 :=
  (by decide +kernel : ∀ t : Fin grid0.N, atFirst (grid0.coords t) ↔ t.val % 25 = 0)

/-- The second conditional of the body: the inner grid coordinate is 24 (the outputs are stored). -/
abbrev atLast (i : grid0.Coords) : Prop := k0_cond2 i = 1#1
/-- It holds at the points ≡ 24 (mod 25). -/
theorem atLast_iff : ∀ t : Fin cfg0.N, atLast (grid0.coords t) ↔ t.val % 25 = 24 :=
  (by decide +kernel : ∀ t : Fin grid0.N, atLast (grid0.coords t) ↔ t.val % 25 = 24)

/-! ## Where the windows are idle -/

/-- Input window 0 is never idle. -/
theorem live0 : ∀ t : Fin cfg0.N, cfg0.idle 0 (grid0.coords t) = false := by decide +kernel
/-- Input window 1 is never idle. -/
theorem live1 : ∀ t : Fin cfg0.N, cfg0.idle 1 (grid0.coords t) = false := by decide +kernel
/-- Input window 2 is never idle. -/
theorem live2 : ∀ t : Fin cfg0.N, cfg0.idle 2 (grid0.coords t) = false := by decide +kernel
/-- Input window 3 is never idle. -/
theorem live3 : ∀ t : Fin cfg0.N, cfg0.idle 3 (grid0.coords t) = false := by decide +kernel
/-- Away from the last point of a sweep output window 4 is idle: nothing is stored into it, -/
theorem idle4_of_not_last : ∀ t : Fin cfg0.N, ¬atLast (grid0.coords t) → cfg0.idle 4 (grid0.coords t) = true := by decide +kernel
/-- and its block is not written back there. -/
theorem noFlush4_of_not_last : ∀ t : Fin cfg0.N, ¬atLast (grid0.coords t) → (cfg0.win 4).flush t = false := by decide +kernel
/-- At the last point of a sweep output window 4 is live. -/
theorem live4_of_last : ∀ t : Fin cfg0.N, atLast (grid0.coords t) → cfg0.idle 4 (grid0.coords t) = false := by decide +kernel
/-- Away from the last point of a sweep output window 5 is idle: nothing is stored into it, -/
theorem idle5_of_not_last : ∀ t : Fin cfg0.N, ¬atLast (grid0.coords t) → cfg0.idle 5 (grid0.coords t) = true := by decide +kernel
/-- and its block is not written back there. -/
theorem noFlush5_of_not_last : ∀ t : Fin cfg0.N, ¬atLast (grid0.coords t) → (cfg0.win 5).flush t = false := by decide +kernel
/-- At the last point of a sweep output window 5 is live. -/
theorem live5_of_last : ∀ t : Fin cfg0.N, atLast (grid0.coords t) → cfg0.idle 5 (grid0.coords t) = false := by decide +kernel

/-! ## The memrefs the body is called with -/

/-- Window 0's current staging memref at point `t`, as the pipeline passes it, and its wholeness. -/
abbrev ms0 (t : Fin cfg0.N) : Memref sig .tc .vmem S4000x1 .f32 := win0_0.stage (cfg0.slots t 0)
abbrev hs0 (t : Fin cfg0.N) : (ms0 t).IsWhole := hstage0_0 ((cfg0.slots t 0).cast nbuf0_0)
/-- Window 1's current staging memref at point `t`, as the pipeline passes it, and its wholeness. -/
abbrev ms1 (t : Fin cfg0.N) : Memref sig .tc .vmem S4000x1 .f32 := win0_1.stage (cfg0.slots t 1)
abbrev hs1 (t : Fin cfg0.N) : (ms1 t).IsWhole := hstage0_1 ((cfg0.slots t 1).cast nbuf0_1)
/-- Window 2's current staging memref at point `t`, as the pipeline passes it, and its wholeness. -/
abbrev ms2 (t : Fin cfg0.N) : Memref sig .tc .vmem S4000x512 .f32 := win0_2.stage (cfg0.slots t 2)
abbrev hs2 (t : Fin cfg0.N) : (ms2 t).IsWhole := hstage0_2 ((cfg0.slots t 2).cast nbuf0_2)
/-- Window 3's current staging memref at point `t`, as the pipeline passes it, and its wholeness. -/
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
/-- Window 4's current staging memref at point `t`, as the pipeline passes it, and its wholeness. -/
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
/-- Window 5's current staging memref at point `t`, as the pipeline passes it, and its wholeness. -/
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
/-- One staging buffer of each output window, through which its contents are stated (the choice does not matter). -/
abbrev outV4 : View sig .tc .vmem S1x512 .f32 := (Memref.whole cc0_stg4_0 : Memref sig .tc .vmem S1x512 .f32).view
abbrev outV5 : View sig .tc .vmem S1x512 .f32 := (Memref.whole cc0_stg5_0 : Memref sig .tc .vmem S1x512 .f32).view
/-- The two accumulators: whole scoped buffers of the kernel's own, carried from point to point. -/
abbrev accM1 : Memref sig .tc .vmem S1x512 .f32 := Memref.whole cc0_scratch0
abbrev accM2 : Memref sig .tc .vmem S1x512 .f32 := Memref.whole cc0_scratch1
/-- The accumulators as views: what they hold is stated through these. -/
abbrev accV1 : View sig .tc .vmem S1x512 .f32 := accM1.view
abbrev accV2 : View sig .tc .vmem S1x512 .f32 := accM2.view

/-- The region's class invariant with the two accumulators as memrefs owned at some contents. -/
theorem PhiA_eq (c : Dev nD) :
    (Pipeline.ΦA spec0 c : sProp 𝕄)
      = iprop(iprop((∃ d, owns (c : Thread nD τ) accM1 fullShare d) ∗ (∃ d, owns (c : Thread nD τ) accM2 fullShare d)) ∗ (∃ r, prngReg c r)) := by
  unfold Pipeline.ΦA; rw [scopedRest0_eq]; simp only [accM1, accM2, owns_whole]; try rfl

end Cert.KernelIdeal.Head

end
-- ==== Proof.HeadRunFirst.lean ====
import proofs.«103645_j80582176407619_2_alg».proof.Proof.HeadShared

/-!
The body of the head kernel run once at a first point of a sweep (inner coordinate 0, not 24): both accumulators are
overwritten with zeros and then receive the first block's products.
-/

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a first point of a sweep that is not a last one (inner coordinate 0): on whole staging memrefs — the four
    inputs at their blocks, the two idle outputs at contents handed back untouched, the two accumulators at anything —
    it runs to the continuation holding the inputs and outputs as they were and each accumulator with the pieces
    its two stores wrote (the reset to zero, then the first block's product added); the piece lists are found by the run. -/
noncomputable def runFirst (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) :
    Σ' (LS1 : List (View.Piece (Elt F) S1x512 .f32)), { LS2 : List (View.Piece (Elt F) S1x512 .f32) //
      ∀ (xi4 xi5 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9) K } := by
  refine ⟨?_, ?_, fun xi4 xi5 E K => ?run⟩
  case run =>
    simp only [cc0__head_kernel_eq_skeleton]; unfold cc0__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS1]; · iexists _; iexact HS1
    iexists _; iexact HS2

end Cert.KernelIdeal.Head

end
-- ==== Proof.HeadRunMid.lean ====
import proofs.«103645_j80582176407619_2_alg».proof.Proof.HeadRunFirst

/-!
The body of the head kernel run once at a middle point of a sweep (inner coordinate neither 0 nor 24): each
accumulator receives its block's product on top of what the point before left.
-/

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point that is neither first nor last in its sweep: the inputs at their blocks, the idle outputs handed
    back untouched, the accumulators at what the point before left (`xs1`, `xs2`); each accumulator ends with the piece
    its one store wrote (the block's product added to what it held). -/
noncomputable def runMid (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) :
    Σ' (LS1 : List (View.Piece (Elt F) S1x512 .f32)), { LS2 : List (View.Piece (Elt F) S1x512 .f32) //
      ∀ (xi4 xi5 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9) K } := by
  refine ⟨?_, ?_, fun xi4 xi5 E K => ?run⟩
  case run =>
    simp only [cc0__head_kernel_eq_skeleton]; unfold cc0__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS1]; · iexists _; iexact HS1
    iexists _; iexact HS2

end Cert.KernelIdeal.Head

end
-- ==== Proof.HeadRunLast.lean ====
import proofs.«103645_j80582176407619_2_alg».proof.Proof.HeadRunMid

/-!
The body of the head kernel run once at the last point of a sweep (inner coordinate 24): each accumulator receives its
block's product, and each output block is stored as the finished accumulator plus the bias block.
-/

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the last point of a sweep (inner coordinate 24): the inputs at their blocks, the outputs' buffers at
    anything, the accumulators at what the point before left; each accumulator ends with the piece its store wrote and
    each output with the piece its store wrote (the finished accumulator plus the bias block). -/
noncomputable def runLast (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) :
    Σ' (L4 : List (View.Piece (Elt F) S1x512 .f32)) (L5 : List (View.Piece (Elt F) S1x512 .f32)) (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__head_kernel i arg2 harg2 arg3 harg3 arg4 harg4 arg5 harg5 arg6 harg6 arg7 harg7 arg8 harg8 arg9 harg9) K } := by
  refine ⟨?_, ?_, ?_, ?_, fun E K => ?run⟩
  case run =>
    simp only [cc0__head_kernel_eq_skeleton]; unfold cc0__head_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS1]; · iexists _; iexact HS1
    iexists _; iexact HS2

end Cert.KernelIdeal.Head

end
-- ==== Proof.HeadFrame.lean ====
import proofs.«103645_j80582176407619_2_alg».proof.Proof.HeadRunLast

/-!
The frame of the head kernel. What each case leaves in the accumulators and the outputs, as the pieces its stores
wrote read back; these contents point by point along the grid (`outsAt`); the proof data of the pipeline with the
invariant that carries the two accumulators from point to point; the body obligation at every point by cases on the
closed forms of the two conditions; the launch of the whole host program; and the frame claim: the program runs to
completion without a fault and its nine argument arrays end unchanged.
-/

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first point of a sweep the pieces written into the first accumulator tile it, so they cover it. -/
theorem cover_first_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) (y : S1x512.Idx) :
    ∃ pc ∈ (runFirst c i arg2 harg2 arg3 harg3 arg4 harg4 arg5 harg5 arg6 harg6 arg7 harg7 arg8 harg8 arg9 harg9 hc0 hc1 x0 x1 x2 x3).1, y ∈ pc.1.set :=
  View.cover_of_tiledL (runFirst c i arg2 harg2 arg3 harg3 arg4 harg4 arg5 harg5 arg6 harg6 arg7 harg7 arg8 harg8 arg9 harg9 hc0 hc1 x0 x1 x2 x3).1 S1x512.size (by sl_kernel_rfl) y

/-- What a first point of a sweep leaves in the first accumulator: its pieces read back. -/
def first_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) : Vec F S1x512 .f32 :=
  accV1.read (Elt F) (accV1.writes (Elt F) accV1.junk (runFirst c i arg2 harg2 arg3 harg3 arg4 harg4 arg5 harg5 arg6 harg6 arg7 harg7 arg8 harg8 arg9 harg9 hc0 hc1 x0 x1 x2 x3).1)

/-- At a first point of a sweep the pieces written into the second accumulator tile it, so they cover it. -/
theorem cover_first_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) (y : S1x512.Idx) :
    ∃ pc ∈ (runFirst c i arg2 harg2 arg3 harg3 arg4 harg4 arg5 harg5 arg6 harg6 arg7 harg7 arg8 harg8 arg9 harg9 hc0 hc1 x0 x1 x2 x3).2.1, y ∈ pc.1.set :=
  View.cover_of_tiledL (runFirst c i arg2 harg2 arg3 harg3 arg4 harg4 arg5 harg5 arg6 harg6 arg7 harg7 arg8 harg8 arg9 harg9 hc0 hc1 x0 x1 x2 x3).2.1 S1x512.size (by sl_kernel_rfl) y

/-- What a first point of a sweep leaves in the second accumulator: its pieces read back. -/
def first_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) : Vec F S1x512 .f32 :=
  accV2.read (Elt F) (accV2.writes (Elt F) accV2.junk (runFirst c i arg2 harg2 arg3 harg3 arg4 harg4 arg5 harg5 arg6 harg6 arg7 harg7 arg8 harg8 arg9 harg9 hc0 hc1 x0 x1 x2 x3).2.1)

/-- At a middle point of a sweep the pieces written into the first accumulator tile it, so they cover it. -/
theorem cover_mid_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runMid c i arg2 harg2 arg3 harg3 arg4 harg4 arg5 harg5 arg6 harg6 arg7 harg7 arg8 harg8 arg9 harg9 hc0 hc1 x0 x1 x2 x3 xs1 xs2).1, y ∈ pc.1.set :=
  View.cover_of_tiledL (runMid c i arg2 harg2 arg3 harg3 arg4 harg4 arg5 harg5 arg6 harg6 arg7 harg7 arg8 harg8 arg9 harg9 hc0 hc1 x0 x1 x2 x3 xs1 xs2).1 S1x512.size (by sl_kernel_rfl) y

/-- What a middle point of a sweep leaves in the first accumulator: its pieces read back. -/
def mid_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) : Vec F S1x512 .f32 :=
  accV1.read (Elt F) (accV1.writes (Elt F) accV1.junk (runMid c i arg2 harg2 arg3 harg3 arg4 harg4 arg5 harg5 arg6 harg6 arg7 harg7 arg8 harg8 arg9 harg9 hc0 hc1 x0 x1 x2 x3 xs1 xs2).1)

/-- At a middle point of a sweep the pieces written into the second accumulator tile it, so they cover it. -/
theorem cover_mid_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runMid c i arg2 harg2 arg3 harg3 arg4 harg4 arg5 harg5 arg6 harg6 arg7 harg7 arg8 harg8 arg9 harg9 hc0 hc1 x0 x1 x2 x3 xs1 xs2).2.1, y ∈ pc.1.set :=
  View.cover_of_tiledL (runMid c i arg2 harg2 arg3 harg3 arg4 harg4 arg5 harg5 arg6 harg6 arg7 harg7 arg8 harg8 arg9 harg9 hc0 hc1 x0 x1 x2 x3 xs1 xs2).2.1 S1x512.size (by sl_kernel_rfl) y

/-- What a middle point of a sweep leaves in the second accumulator: its pieces read back. -/
def mid_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) : Vec F S1x512 .f32 :=
  accV2.read (Elt F) (accV2.writes (Elt F) accV2.junk (runMid c i arg2 harg2 arg3 harg3 arg4 harg4 arg5 harg5 arg6 harg6 arg7 harg7 arg8 harg8 arg9 harg9 hc0 hc1 x0 x1 x2 x3 xs1 xs2).2.1)

/-- At the last point of a sweep the pieces written into the first output's staging buffer tile it, so they cover it. -/
theorem cover_last_out4 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runLast c i arg2 harg2 arg3 harg3 arg4 harg4 arg5 harg5 arg6 harg6 arg7 harg7 arg8 harg8 arg9 harg9 hc0 hc1 x0 x1 x2 x3 xs1 xs2).1, y ∈ pc.1.set :=
  View.cover_of_tiledL (runLast c i arg2 harg2 arg3 harg3 arg4 harg4 arg5 harg5 arg6 harg6 arg7 harg7 arg8 harg8 arg9 harg9 hc0 hc1 x0 x1 x2 x3 xs1 xs2).1 S1x512.size (by sl_kernel_rfl) y

/-- What the last point of a sweep leaves in the first output's staging buffer: its pieces read back. -/
def last_out4 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) : Vec F S1x512 .f32 :=
  outV4.read (Elt F) (outV4.writes (Elt F) outV4.junk (runLast c i arg2 harg2 arg3 harg3 arg4 harg4 arg5 harg5 arg6 harg6 arg7 harg7 arg8 harg8 arg9 harg9 hc0 hc1 x0 x1 x2 x3 xs1 xs2).1)

/-- At the last point of a sweep the pieces written into the second output's staging buffer tile it, so they cover it. -/
theorem cover_last_out5 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runLast c i arg2 harg2 arg3 harg3 arg4 harg4 arg5 harg5 arg6 harg6 arg7 harg7 arg8 harg8 arg9 harg9 hc0 hc1 x0 x1 x2 x3 xs1 xs2).2.1, y ∈ pc.1.set :=
  View.cover_of_tiledL (runLast c i arg2 harg2 arg3 harg3 arg4 harg4 arg5 harg5 arg6 harg6 arg7 harg7 arg8 harg8 arg9 harg9 hc0 hc1 x0 x1 x2 x3 xs1 xs2).2.1 S1x512.size (by sl_kernel_rfl) y

/-- What the last point of a sweep leaves in the second output's staging buffer: its pieces read back. -/
def last_out5 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) : Vec F S1x512 .f32 :=
  outV5.read (Elt F) (outV5.writes (Elt F) outV5.junk (runLast c i arg2 harg2 arg3 harg3 arg4 harg4 arg5 harg5 arg6 harg6 arg7 harg7 arg8 harg8 arg9 harg9 hc0 hc1 x0 x1 x2 x3 xs1 xs2).2.1)

/-- At the last point of a sweep the pieces written into the first accumulator tile it, so they cover it. -/
theorem cover_last_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runLast c i arg2 harg2 arg3 harg3 arg4 harg4 arg5 harg5 arg6 harg6 arg7 harg7 arg8 harg8 arg9 harg9 hc0 hc1 x0 x1 x2 x3 xs1 xs2).2.2.1, y ∈ pc.1.set :=
  View.cover_of_tiledL (runLast c i arg2 harg2 arg3 harg3 arg4 harg4 arg5 harg5 arg6 harg6 arg7 harg7 arg8 harg8 arg9 harg9 hc0 hc1 x0 x1 x2 x3 xs1 xs2).2.2.1 S1x512.size (by sl_kernel_rfl) y

/-- What the last point of a sweep leaves in the first accumulator: its pieces read back. -/
def last_acc1 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) : Vec F S1x512 .f32 :=
  accV1.read (Elt F) (accV1.writes (Elt F) accV1.junk (runLast c i arg2 harg2 arg3 harg3 arg4 harg4 arg5 harg5 arg6 harg6 arg7 harg7 arg8 harg8 arg9 harg9 hc0 hc1 x0 x1 x2 x3 xs1 xs2).2.2.1)

/-- At the last point of a sweep the pieces written into the second accumulator tile it, so they cover it. -/
theorem cover_last_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) (y : S1x512.Idx) :
    ∃ pc ∈ (runLast c i arg2 harg2 arg3 harg3 arg4 harg4 arg5 harg5 arg6 harg6 arg7 harg7 arg8 harg8 arg9 harg9 hc0 hc1 x0 x1 x2 x3 xs1 xs2).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 xs1 xs2).2.2.2.1 S1x512.size (by sl_kernel_rfl) y

/-- What the last point of a sweep leaves in the second accumulator: its pieces read back. -/
def last_acc2 (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) : Vec F S1x512 .f32 :=
  accV2.read (Elt F) (accV2.writes (Elt F) accV2.junk (runLast c i arg2 harg2 arg3 harg3 arg4 harg4 arg5 harg5 arg6 harg6 arg7 harg7 arg8 harg8 arg9 harg9 hc0 hc1 x0 x1 x2 x3 xs1 xs2).2.2.2.1)

/-! ## What the outputs and the accumulators hold after each point -/

/-- What an output's staging buffer is said to hold after a point that stores nothing into it: nothing reads this
    (the window is idle there, neither written back nor handed on). -/
def idleOut : Vec F S1x512 .f32 := outV4.read (Elt F) outV4.junk

/-- THE ACCUMULATION. After the body at position `n`: the two outputs' staging buffers, then the two accumulators.
    A first point of a sweep resets the accumulators and adds its block's products; a later point adds to what the
    point before left; the last point of a sweep also stores each finished accumulator plus the bias block. -/
def outsAt (c : Dev nD) : (n : ℕ) → n < cfg0.N → Vec F S1x512 .f32 × Vec F S1x512 .f32 × Vec F S1x512 .f32 × Vec F S1x512 .f32
  | 0, hn => (idleOut, idleOut, first_acc1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM1 (Memref.isWhole_whole _) accM2 (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩) (iblk m c 2 ⟨0, hn⟩) (iblk m c 3 ⟨0, hn⟩), first_acc2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM1 (Memref.isWhole_whole _) accM2 (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 25 = 0 then
      if h1 : (n + 1) % 25 = 24 then
        False.elim (by omega)
      else
        (idleOut, idleOut, first_acc1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) ((atFirst_iff ⟨n + 1, hn⟩).mpr h0) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩), first_acc2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) ((atFirst_iff ⟨n + 1, hn⟩).mpr h0) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 25 = 24 then
        (last_out4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2, last_out5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2, last_acc1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2, last_acc2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2)
      else
        (idleOut, idleOut, mid_acc1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2, mid_acc2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM1 (Memref.isWhole_whole _) accM2 (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2.1 (outsAt c n (Nat.lt_of_succ_lt hn)).2.2.2)

/-- `outsAt` at a first point of a sweep. -/
theorem outsAt_first (c : Dev nD) (t : Fin cfg0.N) (h0 : t.val % 25 = 0) (h1 : ¬t.val % 25 = 24) :
    outsAt m c t.val t.isLt = (idleOut, idleOut, first_acc1 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) ((atFirst_iff t).mpr h0) (fun h => h1 ((atLast_iff t).mp h)) (iblk m c 0 t) (iblk m c 1 t) (iblk m c 2 t) (iblk m c 3 t), first_acc2 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) ((atFirst_iff t).mpr h0) (fun h => h1 ((atLast_iff t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt` at a middle point of a sweep: over what the point before left. -/
theorem outsAt_mid (c : Dev nD) (t : Fin cfg0.N) (h0 : ¬t.val % 25 = 0) (h1 : ¬t.val % 25 = 24) :
    outsAt m c t.val t.isLt = (idleOut, idleOut, mid_acc1 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) (fun h => h1 ((atLast_iff t).mp h)) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2, mid_acc2 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) (fun h => h1 ((atLast_iff t).mp h)) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at the last point of a sweep: over what the point before left. -/
theorem outsAt_last (c : Dev nD) (t : Fin cfg0.N) (h0 : ¬t.val % 25 = 0) (h1 : t.val % 25 = 24) :
    outsAt m c t.val t.isLt = (last_out4 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2, last_out5 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2, last_acc1 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2, last_acc2 c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (each accumulator at anything);
    afterwards each accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) accM1 fullShare ((outsAt m c n hn).2.2.1) ∗ owns (c : Thread nD τ) accM2 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM1 fullShare ((outsAt m c n hn).2.2.1) ∗ owns (c : Thread nD τ) accM2 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) accM1 fullShare ((outsAt m c (n - 1) (by omega)).2.2.1) ∗ owns (c : Thread nD τ) accM2 fullShare ((outsAt m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the outputs' at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2.1 := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point. The inputs' memrefs hold their blocks; the closed forms of the two conditions say which of
    the three cases the point is in; that case's run applies, the invariant handing it the accumulators at what the
    point before left (at anything before the first point, and a first point of a sweep overwrites them whatever they
    hold) and taking them back at this point's contents, which the covering pieces determine. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 25 = 0
  · by_cases h1 : t.val % 25 = 24
    · exfalso; omega
    · have hl : ¬atLast (grid0.coords t) := fun h => h1 ((atLast_iff t).mp h)
      rw [Dat.leavesExact_idle (dats m 0 c) 4 t (idle4_of_not_last t hl) (noFlush4_of_not_last t hl)]
      rw [Dat.leavesExact_idle (dats m 0 c) 5 t (idle5_of_not_last t hl) (noFlush5_of_not_last t hl)]
      rw [outsAt_first m c t h0 h1]
      unfold first_acc1 first_acc2; (try dsimp only)
      by_cases hz : t.val = 0
      · rw [PhiS_castSucc m c t, PhiS_zero m c _ _ hz, PhiA_eq]
        iintro ⟨⟨⟨HS1, HS2⟩, Hg⟩, Ho, ⟨%d0, H0⟩, ⟨%d1, H1⟩, ⟨%d2, H2⟩, ⟨%d3, H3⟩, ⟨%d4, H4⟩, ⟨%d5, H5⟩⟩
        iapply ((runFirst c (grid0.coords t) _ _ _ _ _ _ _ _ _ _ _ _ _ _ _ _ ((atFirst_iff t).mpr h0) (fun h => h1 ((atLast_iff t).mp h)) (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS1]; · iexact HS1
        isplitl [HS2]; · iexact HS2
        iintro ⟨H0, H1, H2, H3, H4, H5, ⟨%es1, HS1⟩, ⟨%es2, HS2⟩⟩
        isplitl [HS1 HS2 Hg]
        · isplitl [HS1 HS2]
          · isplitl [HS1]
            · unfold owns; iexists _; isplitr
              swap; · iexact HS1
              ipureintro; exact View.read_writes_of_cover _ _ _ _ _ (cover_first_acc1 c _ _ _ _ _ _ _ _ _ _ _ _ _ _ _ _ _ _ _ _ _ _ _)
            · unfold owns; iexists _; isplitr
              swap; · iexact HS2
              ipureintro; exact View.read_writes_of_cover _ _ _ _ _ (cover_first_acc2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨⟨HS1, HS2⟩, Hg⟩, Ho, ⟨%d0, H0⟩, ⟨%d1, H1⟩, ⟨%d2, H2⟩, ⟨%d3, H3⟩, ⟨%d4, H4⟩, ⟨%d5, H5⟩⟩
        iapply ((runFirst c (grid0.coords t) _ _ _ _ _ _ _ _ _ _ _ _ _ _ _ _ ((atFirst_iff t).mpr h0) (fun h => h1 ((atLast_iff t).mp h)) (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS1]; · iexists _; iexact HS1
        isplitl [HS2]; · iexists _; iexact HS2
        iintro ⟨H0, H1, H2, H3, H4, H5, ⟨%es1, HS1⟩, ⟨%es2, HS2⟩⟩
        isplitl [HS1 HS2 Hg]
        · isplitl [HS1 HS2]
          · isplitl [HS1]
            · unfold owns; iexists _; isplitr
              swap; · iexact HS1
              ipureintro; exact View.read_writes_of_cover _ _ _ _ _ (cover_first_acc1 c _ _ _ _ _ _ _ _ _ _ _ _ _ _ _ _ _ _ _ _ _ _ _)
            · unfold owns; iexists _; isplitr
              swap; · iexact HS2
              ipureintro; exact View.read_writes_of_cover _ _ _ _ _ (cover_first_acc2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    by_cases h1 : t.val % 25 = 24
    · have hl : atLast (grid0.coords t) := (atLast_iff t).mpr h1
      rw [show (dats m 0 c).leavesExact 4 t = owns (c : Thread nD τ) (ms4 t) fullShare ((dats m 0 c).after 4 t) from by
        unfold Dat.leavesExact; rw [live4_of_last t hl], after4]
      rw [show (dats m 0 c).leavesExact 5 t = owns (c : Thread nD τ) (ms5 t) fullShare ((dats m 0 c).after 5 t) from by
        unfold Dat.leavesExact; rw [live5_of_last t hl], after5]
      rw [outsAt_last m c t h0 h1]
      unfold last_out4 last_out5 last_acc1 last_acc2; (try dsimp only)
      rw [PhiS_castSucc m c t, PhiS_pos m c _ _ hz]
      iintro ⟨⟨⟨HS1, HS2⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ (fun h => h0 ((atFirst_iff t).mp h)) ((atLast_iff t).mpr h1) (iblk m c 0 t) (iblk m c 1 t) (iblk m c 2 t) (iblk m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS1]; · iexact HS1
      isplitl [HS2]; · iexact HS2
      iintro ⟨H0, H1, H2, H3, ⟨%e4, H4⟩, ⟨%e5, H5⟩, ⟨%es1, HS1⟩, ⟨%es2, HS2⟩⟩
      isplitl [HS1 HS2 Hg]
      · isplitl [HS1 HS2]
        · isplitl [HS1]
          · unfold owns; iexists _; isplitr
            swap; · iexact HS1
            ipureintro; exact View.read_writes_of_cover _ _ _ _ _ (cover_last_acc1 c _ _ _ _ _ _ _ _ _ _ _ _ _ _ _ _ _ _ _ _ _ _ _ _ _)
          · unfold owns; iexists _; isplitr
            swap; · iexact HS2
            ipureintro; exact View.read_writes_of_cover _ _ _ _ _ (cover_last_acc2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_last_out4 c _ _ _ _ _ _ _ _ _ _ _ _ _ _ _ _ _ _ _ _ _ _ _ _ _)
      unfold owns; iexists _; isplitr
      swap; · iexact H5
      ipureintro; exact View.read_writes_of_cover _ _ _ _ _ (cover_last_out5 c _ _ _ _ _ _ _ _ _ _ _ _ _ _ _ _ _ _ _ _ _ _ _ _ _)
    · have hl : ¬atLast (grid0.coords t) := fun h => h1 ((atLast_iff t).mp h)
      rw [Dat.leavesExact_idle (dats m 0 c) 4 t (idle4_of_not_last t hl) (noFlush4_of_not_last t hl)]
      rw [Dat.leavesExact_idle (dats m 0 c) 5 t (idle5_of_not_last t hl) (noFlush5_of_not_last t hl)]
      rw [outsAt_mid m c t h0 h1]
      unfold mid_acc1 mid_acc2; (try dsimp only)
      rw [PhiS_castSucc m c t, PhiS_pos m c _ _ hz]
      iintro ⟨⟨⟨HS1, HS2⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ (fun h => h0 ((atFirst_iff t).mp h)) (fun h => h1 ((atLast_iff t).mp h)) (iblk m c 0 t) (iblk m c 1 t) (iblk m c 2 t) (iblk m c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS1]; · iexact HS1
      isplitl [HS2]; · iexact HS2
      iintro ⟨H0, H1, H2, H3, H4, H5, ⟨%es1, HS1⟩, ⟨%es2, HS2⟩⟩
      isplitl [HS1 HS2 Hg]
      · isplitl [HS1 HS2]
        · isplitl [HS1]
          · unfold owns; iexists _; isplitr
            swap; · iexact HS1
            ipureintro; exact View.read_writes_of_cover _ _ _ _ _ (cover_mid_acc1 c _ _ _ _ _ _ _ _ _ _ _ _ _ _ _ _ _ _ _ _ _ _ _ _ _)
          · unfold owns; iexists _; isplitr
            swap; · iexact HS2
            ipureintro; exact View.read_writes_of_cover _ _ _ _ _ (cover_mid_acc2 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS1, HS2⟩, Hg⟩
  isplitl [HS1 HS2]
  · isplitl [HS1]
    · iexists _; iexact HS1
    · iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- From any memory with zero counters every weakly fair execution of the host program on the TensorCores terminates,
    and every final state has each windowed array at what the library computes from the proof data and every other
    unscoped buffer as the closing stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- THE FRAME: the host program runs to completion without a fault and all nine argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Head

end
-- ==== Proof.HeadAcc.lean ====
import proofs.«103645_j80582176407619_2_alg».proof.Proof.HeadFrame
import Idealize.ShloMosaic.Lib.Pipeline.Value

/-!
The contents the frame's proof data name, in closed form over the body's payloads: at a first point of a sweep each
accumulator is the block's product added to the zero block; at every other point it is the block's product added
to what the point before left; at the last point of a sweep each output block is the finished accumulator plus the
bias block.
-/

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of every load and store of the body are zero. -/
theorem hz : (![0, 0] : Fin 2 → Nat) = fun _ => 0 := funext fun a => by fin_cases a <;> rfl

/-! ## The pieces each case finds, read back as the body's payloads

Every load of the body reads a whole staging buffer and every store covers one, so what a case leaves in a buffer is
the payload of the last store into it, over the contents the loads before it read. -/

/-- At a first point of a sweep, the first accumulator ends at its last store's payload. -/
theorem first_acc1_eq (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) :
    first_acc1 (F := F) c i arg2 harg2 arg3 harg3 arg4 harg4 arg5 harg5 arg6 harg6 arg7 harg7 arg8 harg8 arg9 harg9 hc0 hc1 x0 x1 x2 x3 = k0_pay4 x0 x2 k0_pay1 := by
  unfold first_acc1
  rw [View.read_writes_eq_canon _ _ _ (cover_first_acc1 c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S1x512) hz]
  simp only [View.readAt_eq_ld, View.readCov_unit_zero (S := S1x512) _ hz, harg2.read_unread, harg3.read_unread, harg4.read_unread, harg5.read_unread, harg8.read_unread, harg9.read_unread, View.ld_unit_zero (S := S4000x1) hz, View.ld_unit_zero (S := S4000x512) hz, View.ld_unit_zero (S := S1x512) hz]

/-- At a first point of a sweep, the second accumulator ends at its last store's payload. -/
theorem first_acc2_eq (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : atFirst i) (hc1 : ¬atLast i)
    (x0 : Vec F S4000x1 .f32) (x1 : Vec F S4000x1 .f32) (x2 : Vec F S4000x512 .f32) (x3 : Vec F S1x512 .f32) :
    first_acc2 (F := F) c i arg2 harg2 arg3 harg3 arg4 harg4 arg5 harg5 arg6 harg6 arg7 harg7 arg8 harg8 arg9 harg9 hc0 hc1 x0 x1 x2 x3 = k0_pay5 x1 x2 k0_pay2 := by
  unfold first_acc2
  rw [View.read_writes_eq_canon _ _ _ (cover_first_acc2 c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S1x512) hz]
  simp only [View.readAt_eq_ld, View.readCov_unit_zero (S := S1x512) _ hz, harg2.read_unread, harg3.read_unread, harg4.read_unread, harg5.read_unread, harg8.read_unread, harg9.read_unread, View.ld_unit_zero (S := S4000x1) hz, View.ld_unit_zero (S := S4000x512) hz, View.ld_unit_zero (S := S1x512) hz]

/-- At a middle point of a sweep, the first accumulator ends at its last store's payload. -/
theorem mid_acc1_eq (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) :
    mid_acc1 (F := F) c i arg2 harg2 arg3 harg3 arg4 harg4 arg5 harg5 arg6 harg6 arg7 harg7 arg8 harg8 arg9 harg9 hc0 hc1 x0 x1 x2 x3 xs1 xs2 = k0_pay4 x0 x2 xs1 := by
  unfold mid_acc1
  rw [View.read_writes_eq_canon _ _ _ (cover_mid_acc1 c i arg2 harg2 arg3 harg3 arg4 harg4 arg5 harg5 arg6 harg6 arg7 harg7 arg8 harg8 arg9 harg9 hc0 hc1 x0 x1 x2 x3 xs1 xs2)]
  unfold runMid
  dsimp only
  sl_unfold_words
  rw [View.canon_cons_unit_zero (S := S1x512) hz]
  simp only [View.readAt_eq_ld, View.readCov_unit_zero (S := S1x512) _ hz, harg2.read_unread, harg3.read_unread, harg4.read_unread, harg5.read_unread, harg8.read_unread, harg9.read_unread, View.ld_unit_zero (S := S4000x1) hz, View.ld_unit_zero (S := S4000x512) hz, View.ld_unit_zero (S := S1x512) hz]

/-- At a middle point of a sweep, the second accumulator ends at its last store's payload. -/
theorem mid_acc2_eq (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : ¬atLast i)
    (x0 : Vec F S4000x1 .f32) (x1 : Vec F S4000x1 .f32) (x2 : Vec F S4000x512 .f32) (x3 : Vec F S1x512 .f32) (xs1 xs2 : Vec F S1x512 .f32) :
    mid_acc2 (F := F) c i arg2 harg2 arg3 harg3 arg4 harg4 arg5 harg5 arg6 harg6 arg7 harg7 arg8 harg8 arg9 harg9 hc0 hc1 x0 x1 x2 x3 xs1 xs2 = k0_pay5 x1 x2 xs2 := by
  unfold mid_acc2
  rw [View.read_writes_eq_canon _ _ _ (cover_mid_acc2 c i arg2 harg2 arg3 harg3 arg4 harg4 arg5 harg5 arg6 harg6 arg7 harg7 arg8 harg8 arg9 harg9 hc0 hc1 x0 x1 x2 x3 xs1 xs2)]
  unfold runMid
  dsimp only
  sl_unfold_words
  rw [View.canon_cons_unit_zero (S := S1x512) hz]
  simp only [View.readAt_eq_ld, View.readCov_unit_zero (S := S1x512) _ hz, harg2.read_unread, harg3.read_unread, harg4.read_unread, harg5.read_unread, harg8.read_unread, harg9.read_unread, View.ld_unit_zero (S := S4000x1) hz, View.ld_unit_zero (S := S4000x512) hz, View.ld_unit_zero (S := S1x512) hz]

/-- At the last point of a sweep, the first accumulator ends at its last store's payload. -/
theorem last_acc1_eq (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) :
    last_acc1 (F := F) c i arg2 harg2 arg3 harg3 arg4 harg4 arg5 harg5 arg6 harg6 arg7 harg7 arg8 harg8 arg9 harg9 hc0 hc1 x0 x1 x2 x3 xs1 xs2 = k0_pay4 x0 x2 xs1 := by
  unfold last_acc1
  rw [View.read_writes_eq_canon _ _ _ (cover_last_acc1 c i arg2 harg2 arg3 harg3 arg4 harg4 arg5 harg5 arg6 harg6 arg7 harg7 arg8 harg8 arg9 harg9 hc0 hc1 x0 x1 x2 x3 xs1 xs2)]
  unfold runLast
  dsimp only
  sl_unfold_words
  rw [View.canon_cons_unit_zero (S := S1x512) hz]
  simp only [View.readAt_eq_ld, View.readCov_unit_zero (S := S1x512) _ hz, harg2.read_unread, harg3.read_unread, harg4.read_unread, harg5.read_unread, harg8.read_unread, harg9.read_unread, View.ld_unit_zero (S := S4000x1) hz, View.ld_unit_zero (S := S4000x512) hz, View.ld_unit_zero (S := S1x512) hz]

/-- At the last point of a sweep, the second accumulator ends at its last store's payload. -/
theorem last_acc2_eq (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) :
    last_acc2 (F := F) c i arg2 harg2 arg3 harg3 arg4 harg4 arg5 harg5 arg6 harg6 arg7 harg7 arg8 harg8 arg9 harg9 hc0 hc1 x0 x1 x2 x3 xs1 xs2 = k0_pay5 x1 x2 xs2 := by
  unfold last_acc2
  rw [View.read_writes_eq_canon _ _ _ (cover_last_acc2 c i arg2 harg2 arg3 harg3 arg4 harg4 arg5 harg5 arg6 harg6 arg7 harg7 arg8 harg8 arg9 harg9 hc0 hc1 x0 x1 x2 x3 xs1 xs2)]
  unfold runLast
  dsimp only
  sl_unfold_words
  rw [View.canon_cons_unit_zero (S := S1x512) hz]
  simp only [View.readAt_eq_ld, View.readCov_unit_zero (S := S1x512) _ hz, harg2.read_unread, harg3.read_unread, harg4.read_unread, harg5.read_unread, harg8.read_unread, harg9.read_unread, View.ld_unit_zero (S := S4000x1) hz, View.ld_unit_zero (S := S4000x512) hz, View.ld_unit_zero (S := S1x512) hz]

/-- At the last point of a sweep, the first output ends at its last store's payload. -/
theorem last_out4_eq (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) :
    last_out4 (F := F) c i arg2 harg2 arg3 harg3 arg4 harg4 arg5 harg5 arg6 harg6 arg7 harg7 arg8 harg8 arg9 harg9 hc0 hc1 x0 x1 x2 x3 xs1 xs2 = k0_pay6 (k0_pay4 x0 x2 xs1) x3 := by
  unfold last_out4
  rw [View.read_writes_eq_canon _ _ _ (cover_last_out4 c i arg2 harg2 arg3 harg3 arg4 harg4 arg5 harg5 arg6 harg6 arg7 harg7 arg8 harg8 arg9 harg9 hc0 hc1 x0 x1 x2 x3 xs1 xs2)]
  unfold runLast
  dsimp only
  sl_unfold_words
  rw [View.canon_cons_unit_zero (S := S1x512) hz]
  simp only [View.readAt_eq_ld, View.readCov_unit_zero (S := S1x512) _ hz, harg2.read_unread, harg3.read_unread, harg4.read_unread, harg5.read_unread, harg8.read_unread, harg9.read_unread, View.ld_unit_zero (S := S4000x1) hz, View.ld_unit_zero (S := S4000x512) hz, View.ld_unit_zero (S := S1x512) hz]

/-- At the last point of a sweep, the second output ends at its last store's payload. -/
theorem last_out5_eq (c : Dev nD) (i : grid0.Coords) (arg2 : Memref sig .tc .vmem S4000x1 .f32) (harg2 : arg2.IsWhole) (arg3 : Memref sig .tc .vmem S4000x1 .f32) (harg3 : arg3.IsWhole) (arg4 : Memref sig .tc .vmem S4000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬atFirst i) (hc1 : atLast i)
    (x0 : Vec F S4000x1 .f32) (x1 : Vec F S4000x1 .f32) (x2 : Vec F S4000x512 .f32) (x3 : Vec F S1x512 .f32) (xs1 xs2 : Vec F S1x512 .f32) :
    last_out5 (F := F) c i arg2 harg2 arg3 harg3 arg4 harg4 arg5 harg5 arg6 harg6 arg7 harg7 arg8 harg8 arg9 harg9 hc0 hc1 x0 x1 x2 x3 xs1 xs2 = k0_pay7 (k0_pay5 x1 x2 xs2) x3 := by
  unfold last_out5
  rw [View.read_writes_eq_canon _ _ _ (cover_last_out5 c i arg2 harg2 arg3 harg3 arg4 harg4 arg5 harg5 arg6 harg6 arg7 harg7 arg8 harg8 arg9 harg9 hc0 hc1 x0 x1 x2 x3 xs1 xs2)]
  unfold runLast
  dsimp only
  sl_unfold_words
  rw [View.canon_cons_unit_zero (S := S1x512) hz]
  simp only [View.readAt_eq_ld, View.readCov_unit_zero (S := S1x512) _ hz, harg2.read_unread, harg3.read_unread, harg4.read_unread, harg5.read_unread, harg8.read_unread, harg9.read_unread, View.ld_unit_zero (S := S4000x1) hz, View.ld_unit_zero (S := S4000x512) hz, View.ld_unit_zero (S := S1x512) hz]

/-! ## The accumulators and the outputs in closed form -/

/-- The accumulator pair after the body at position `n`. -/
def accAt (c : Dev nD) (n : ℕ) (hn : n < cfg0.N) : Vec F S1x512 .f32 × Vec F S1x512 .f32 :=
  ((outsAt m c n hn).2.2.1, (outsAt m c n hn).2.2.2)

/-- At a first point of a sweep each accumulator is its block's product added to the zero block. -/
theorem accAt_first (c : Dev nD) (t : Fin cfg0.N) (h0 : t.val % 25 = 0) :
    accAt m c t.val t.isLt
      = (k0_pay4 (iblk m c 0 t) (iblk m c 2 t) k0_pay1, k0_pay5 (iblk m c 1 t) (iblk m c 2 t) k0_pay2) := by
  have h1 : ¬t.val % 25 = 24 := fun h => absurd (h0.symm.trans h) (by decide)
  unfold accAt
  rw [outsAt_first m c t h0 h1]
  dsimp only
  exact congrArg₂ Prod.mk (first_acc1_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) ((atFirst_iff t).mpr h0) (fun h => h1 ((atLast_iff t).mp h)) (iblk m c 0 t) (iblk m c 1 t) (iblk m c 2 t) (iblk m c 3 t))
    (first_acc2_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) ((atFirst_iff t).mpr h0) (fun h => h1 ((atLast_iff t).mp h)) (iblk m c 0 t) (iblk m c 1 t) (iblk m c 2 t) (iblk m c 3 t))

/-- At any other point each accumulator is its block's product added to what the point before left. -/
theorem accAt_step (c : Dev nD) (t : Fin cfg0.N) (h0 : ¬t.val % 25 = 0) :
    accAt m c t.val t.isLt
      = (k0_pay4 (iblk m c 0 t) (iblk m c 2 t) (accAt m c (t.val - 1) (Nat.lt_of_le_of_lt (Nat.sub_le _ _) t.isLt)).1,
         k0_pay5 (iblk m c 1 t) (iblk m c 2 t) (accAt m c (t.val - 1) (Nat.lt_of_le_of_lt (Nat.sub_le _ _) t.isLt)).2) := by
  unfold accAt
  by_cases h1 : t.val % 25 = 24
  · rw [outsAt_last m c t h0 h1]
    dsimp only
    exact congrArg₂ Prod.mk (last_acc1_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2)
      (last_acc2_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2)
  · rw [outsAt_mid m c t h0 h1]
    dsimp only
    exact congrArg₂ Prod.mk (mid_acc1_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) (fun h => h1 ((atLast_iff t).mp h)) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2)
      (mid_acc2_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) (fun h => h1 ((atLast_iff t).mp h)) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2)

/-- At the last point of a sweep the first output's staging buffer ends at the finished first accumulator plus the
    bias block, -/
theorem after4_last (c : Dev nD) (t : Fin cfg0.N) (h1 : t.val % 25 = 24) :
    (dats m 0 c).after 4 t = k0_pay6 (accAt m c t.val t.isLt).1 (iblk m c 3 t) := by
  have h0 : ¬t.val % 25 = 0 := fun h => absurd (h.symm.trans h1) (by decide)
  rw [after4]
  unfold accAt
  rw [outsAt_last m c t h0 h1]
  dsimp only
  exact (last_out4_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2).trans
    (congrArg (fun a => k0_pay6 a (iblk m c 3 t)) (last_acc1_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2).symm)

/-- and the second output's at the finished second accumulator plus the bias block. -/
theorem after5_last (c : Dev nD) (t : Fin cfg0.N) (h1 : t.val % 25 = 24) :
    (dats m 0 c).after 5 t = k0_pay7 (accAt m c t.val t.isLt).2 (iblk m c 3 t) := by
  have h0 : ¬t.val % 25 = 0 := fun h => absurd (h.symm.trans h1) (by decide)
  rw [after5]
  unfold accAt
  rw [outsAt_last m c t h0 h1]
  dsimp only
  exact (last_out5_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2).trans
    (congrArg (fun a => k0_pay7 a (iblk m c 3 t)) (last_acc2_eq (F := F) c (grid0.coords t) (ms0 t) (hs0 t) (ms1 t) (hs1 t) (ms2 t) (hs2 t) (ms3 t) (hs3 t) (ms4 t) (hs4 t) (ms5 t) (hs5 t) accM1 (Memref.isWhole_whole _) accM2 (Memref.isWhole_whole _) (fun h => h0 ((atFirst_iff t).mp h)) ((atLast_iff t).mpr h1) (iblk m c 0 t) (iblk m c 1 t) (iblk m c 2 t) (iblk m c 3 t) (outsAt m c (t.val - 1) (Nat.lt_of_le_of_lt (Nat.sub_le _ _) t.isLt)).2.2.1 (outsAt m c (t.val - 1) (Nat.lt_of_le_of_lt (Nat.sub_le _ _) t.isLt)).2.2.2).symm)

end Cert.KernelIdeal.Head

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.HeadSum.lean ====
/-
  A running sum that starts from zero and a sum cut into equal blocks.

  The head of the network is a row vector times a matrix: entry j is the sum over all rows r of h r * W (r, j).
  A kernel that streams the rows in consecutive blocks of equal length keeps an accumulator: it is set to zero
  before the first block and after block x it holds what it held before plus the block's own partial sum. In a
  commutative additive monoid (the extended reals are one, infinities included) the accumulator after the last
  block is the whole sum, whatever the values: only associativity, commutativity and 0 + a = a are used.
-/
import proofs.«103645_j80582176407619_2_alg».proof.Proof.LibSumBlocks

namespace Cert.HeadSum

open Finset

/-- The accumulator after block `k`: zero plus the first block's partial sum, then one more partial sum per block. -/
def running {M : Type*} [AddCommMonoid M] (d : ℕ → M) : ℕ → M
  | 0 => 0 + d 0
  | k + 1 => running d k + d (k + 1)

/-- It is the sum of the partial sums so far. -/
theorem running_eq_sum {M : Type*} [AddCommMonoid M] (d : ℕ → M) (k : ℕ) :
    running d k = ∑ x ∈ Finset.range (k + 1), d x := by
  induction k with
  | zero => simp [running]
  | succ k ih => rw [running, ih, Finset.sum_range_succ _ (k + 1)]

/-- After the last of `a` blocks of length `b`, the accumulator is the sum over all `a * b` rows. -/
theorem running_last {M : Type*} [AddCommMonoid M] {N : ℕ} (a b : ℕ) (h : N = (a + 1) * b) (f : Fin N → M)
    (d : ℕ → M) (hd : ∀ x : Fin (a + 1), d x.val = ∑ y : Fin b, f ⟨x.val * b + y.val, h ▸ Cert.SumBlocks.block_lt x y⟩) :
    running d a = ∑ i : Fin N, f i := by
  rw [running_eq_sum, Cert.SumBlocks.sum_fin_blocks (a + 1) b h f]
  exact Cert.SumBlocks.sum_range_eq_sum_fin (a + 1) d _ hd

end Cert.HeadSum
-- ==== Proof.HeadPay.lean ====
/-
  What the body of the head kernel computes at one grid point, read entry by entry on the extended reals.

  At a grid point the body holds a block `h` of 4000 rows of one feature column, a block `w` of the same 4000 rows
  and 512 columns of the weight matrix, and an accumulator row `a` of 512 entries. It replaces the accumulator by
  `a + hᵀ·w`, the product contracting the ROW axis of both operands: entry j of `hᵀ·w` is the sum over the block's
  rows r of `h (r, 0) * w (r, j)`. Narrowing to bf16 before the product is the identity on extended reals, the
  product starts from a row of zeros, and a reshape to the same shape changes nothing. At the first point of a sweep
  the accumulator is first set to zeros; at the last point the output row is the accumulator plus the bias row.
-/
import proofs.«103645_j80582176407619_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.HeadPay

open Cert.KernelIdeal Cert.KernelIdeal.Gen Idealize.ShloMosaic Idealize.ShloMosaic.ValueIdx

local notation "D" => dot_S4000x1_S4000x512_S1x512_0_0_1_1_n_n

/-- The left operand is read at the contraction index's row … -/
theorem lhs_row (j : S1x512.Idx) (q : (D).contr.Idx) : ((D).lhsIdx j q 0).val = (q ⟨0, by decide⟩).val :=
  (D).lhsIdx_val_of_single rfl j q

/-- … and at its only column. -/
theorem lhs_col (j : S1x512.Idx) (q : (D).contr.Idx) : ((D).lhsIdx j q 1).val = 0 :=
  Nat.lt_one_iff.mp (show ((D).lhsIdx j q 1).val < 1 from ((D).lhsIdx j q 1).isLt)

/-- The right operand is read at the contraction index's row … -/
theorem rhs_row (j : S1x512.Idx) (q : (D).contr.Idx) : ((D).rhsIdx j q 0).val = (q ⟨0, by decide⟩).val :=
  (D).rhsIdx_val_of_single rfl j q

/-- … and at the output's column. -/
theorem rhs_col (j : S1x512.Idx) (q : (D).contr.Idx) : ((D).rhsIdx j q 1).val = (j 1).val := by
  unfold DotDims.rhsIdx
  rw [dif_neg (show ¬(1 : Fin S4000x512.rank) ∈ (D).rhsBatch by decide),
    dif_pos (show (1 : Fin S4000x512.rank) ∈ (D).rhsNonContracting by decide)]
  rfl

/-- The row-contracting product of a 4000-row column block with a 4000 x 512 block, started from zeros, at
    output column `j`: the sum over the rows of the products. -/
theorem colProduct_apply (h : FVec Ideal S4000x1 .bf16) (w : FVec Ideal S4000x512 .bf16) (j : S1x512.Idx) :
    matmul D none h w (constant (F := Ideal) S1x512 .f32 0x00000000#32) j
      = ∑ r : Fin 4000, h (ix2 r (0 : Fin 1)) * w (ix2 r (j 1)) := by
  simp only [matmul]
  rw [Ideal.matmul_constant_zero_apply, ← Equiv.sum_comp (ValueIdx.contrEquiv1 D 4000 rfl rfl).symm]
  refine Finset.sum_congr rfl fun k _ => ?_
  have hk := ValueIdx.contrEquiv1_symm_val D 4000 rfl rfl k
  have el : (D).lhsIdx j ((ValueIdx.contrEquiv1 D 4000 rfl rfl).symm k) = ix2 k (0 : Fin 1) :=
    funext fun a => Fin.ext (by
      match a with
      | ⟨0, _⟩ => exact (lhs_row j _).trans hk
      | ⟨1, _⟩ => exact lhs_col j _)
  have er : (D).rhsIdx j ((ValueIdx.contrEquiv1 D 4000 rfl rfl).symm k) = ix2 k (j 1) :=
    funext fun a => Fin.ext (by
      match a with
      | ⟨0, _⟩ => exact (rhs_row j _).trans hk
      | ⟨1, _⟩ => exact rhs_col j _)
  exact congrArg₂ (· * ·) (congrArg h el) (congrArg w er)

/-- The accumulator update for the first feature column, at column `j`. -/
theorem pay4_apply (h : Vec Ideal S4000x1 .f32) (w : Vec Ideal S4000x512 .f32) (a : Vec Ideal S1x512 .f32) (j : S1x512.Idx) :
    k0_pay4 (F := Ideal) h w a j = a j + ∑ r : Fin 4000, h (ix2 r (0 : Fin 1)) * w (ix2 r (j 1)) := by
  unfold k0_pay4 k0_pay3
  simp only [shapeCast_self]
  rw [addf_apply, colProduct_apply]
  rfl

/-- The accumulator update for the second feature column, at column `j`. -/
theorem pay5_apply (h : Vec Ideal S4000x1 .f32) (w : Vec Ideal S4000x512 .f32) (a : Vec Ideal S1x512 .f32) (j : S1x512.Idx) :
    k0_pay5 (F := Ideal) h w a j = a j + ∑ r : Fin 4000, h (ix2 r (0 : Fin 1)) * w (ix2 r (j 1)) := by
  unfold k0_pay5 k0_pay3
  simp only [shapeCast_self]
  rw [addf_apply, colProduct_apply]
  rfl

/-- The accumulators' reset value is the zero row. -/
theorem pay1_apply (j : S1x512.Idx) : k0_pay1 (F := Ideal) j = 0 := by
  unfold k0_pay1
  simp only [shapeCast_self]
  exact Ideal.ofBits_zero_f32

theorem pay2_apply (j : S1x512.Idx) : k0_pay2 (F := Ideal) j = 0 := by
  unfold k0_pay2
  simp only [shapeCast_self]
  exact Ideal.ofBits_zero_f32

/-- The output row: accumulator plus bias, entry by entry. -/
theorem pay6_apply (a b : Vec Ideal S1x512 .f32) (j : S1x512.Idx) : k0_pay6 (F := Ideal) a b j = a j + b j := by
  unfold k0_pay6
  simp only [shapeCast_self]
  rfl

theorem pay7_apply (a b : Vec Ideal S1x512 .f32) (j : S1x512.Idx) : k0_pay7 (F := Ideal) a b j = a j + b j := by
  unfold k0_pay7
  simp only [shapeCast_self]
  rfl

end Cert.KernelIdeal.HeadPay

end
-- ==== Proof.HeadBlocks.lean ====
/-
  Where the head kernel's blocks sit in their arrays.

  The grid has 50 points t = 25 * c + k: c in {0, 1} picks a half of the 1024 output columns, k in 0..24 a block of
  4000 of the 100000 rows. At point t the two feature columns are read at rows 4000 k .. 4000 k + 3999, the weight
  matrix at those rows and columns 512 c .. 512 c + 511, the bias row and both output rows at those columns. An
  output row is written back only at the last row block of a half (k = 24), so the two points t = 24 and t = 49
  together cover all 1024 columns.
-/
import proofs.«103645_j80582176407619_2_alg».proof.Proof.Gen.KernelIdeal.Points
import proofs.«103645_j80582176407619_2_alg».proof.Proof.Gen.KernelIdeal.Launch
import Idealize.ShloMosaic.Lib.Pipeline.Value
import Idealize.ShloMosaic.Lib.ValueIdx

noncomputable section

namespace Cert.KernelIdeal.HeadBlocks

open Cert.KernelIdeal Cert.KernelIdeal.Gen Idealize.ShloMosaic Idealize.ShloMosaic.TcCoe Idealize.ShloMosaic.ValueIdx Idealize.SL.Sem

variable {F : FTy → Type} [FloatOps F]

/-- The block indices of the six windows at point `t`: the row block is `t % 25`, the column half `t / 25`. -/
theorem index_facts : ∀ t : Fin cfg0.N,
    win0_0.index t (0 : Fin 2) = t.val % 25 ∧ win0_0.index t (1 : Fin 2) = 0
    ∧ win0_1.index t (0 : Fin 2) = t.val % 25 ∧ win0_1.index t (1 : Fin 2) = 0
    ∧ win0_2.index t (0 : Fin 2) = t.val % 25 ∧ win0_2.index t (1 : Fin 2) = t.val / 25
    ∧ win0_3.index t (0 : Fin 2) = 0 ∧ win0_3.index t (1 : Fin 2) = t.val / 25
    ∧ win0_4.index t (0 : Fin 2) = 0 ∧ win0_4.index t (1 : Fin 2) = t.val / 25
    ∧ win0_5.index t (0 : Fin 2) = 0 ∧ win0_5.index t (1 : Fin 2) = t.val / 25 :=
  (by decide +kernel : ∀ t : Fin grid0.N, _)

theorem point_lt (t : Fin cfg0.N) : t.val < 50 := lt_of_lt_of_eq t.isLt (show cfg0.N = 50 from N_0)

/-- Row `y` of the first feature column's block at point `t` is row `4000 (t % 25) + y` of the column. -/
theorem feat1_block (A : S100000x1.Idx → Elt F .f32) (t : Fin cfg0.N)
    (y : S4000x1.Idx) :
    ((cfg0.win 0).blk t).view.read (Elt F) A y
      = A (ix2 ⟨t.val % 25 * 4000 + (y 0).val, by have h0 : (y 0).val < 4000 := (y 0).isLt; have := point_lt t; show _ < 100000; omega⟩ (0 : Fin 1)) := by
  show A (((cfg0.win 0).blk t).view.emb y) = A _
  refine congrArg A (funext fun a => Fin.ext ?_)
  obtain ⟨e0, e1, -⟩ := index_facts t
  match a with
  | ⟨0, _⟩ => show win0_0.index t (0 : Fin 2) * 4000 + 1 * (y 0).val = t.val % 25 * 4000 + (y 0).val; rw [e0]; omega
  | ⟨1, _⟩ => show win0_0.index t (1 : Fin 2) * 1 + 1 * (y 1).val = 0; have h1 : (y 1).val < 1 := (y 1).isLt; rw [e1]; omega

/-- The same for the second feature column. -/
theorem feat2_block (A : S100000x1.Idx → Elt F .f32) (t : Fin cfg0.N)
    (y : S4000x1.Idx) :
    ((cfg0.win 1).blk t).view.read (Elt F) A y
      = A (ix2 ⟨t.val % 25 * 4000 + (y 0).val, by have h0 : (y 0).val < 4000 := (y 0).isLt; have := point_lt t; show _ < 100000; omega⟩ (0 : Fin 1)) := by
  show A (((cfg0.win 1).blk t).view.emb y) = A _
  refine congrArg A (funext fun a => Fin.ext ?_)
  obtain ⟨-, -, e0, e1, -⟩ := index_facts t
  match a with
  | ⟨0, _⟩ => show win0_1.index t (0 : Fin 2) * 4000 + 1 * (y 0).val = t.val % 25 * 4000 + (y 0).val; rw [e0]; omega
  | ⟨1, _⟩ => show win0_1.index t (1 : Fin 2) * 1 + 1 * (y 1).val = 0; have h1 : (y 1).val < 1 := (y 1).isLt; rw [e1]; omega

/-- Entry `y` of the weight block at point `t` is the matrix at row `4000 (t % 25) + y 0`, column `512 (t / 25) + y 1`. -/
theorem weight_block (A : S100000x1024.Idx → Elt F .f32) (t : Fin cfg0.N)
    (y : S4000x512.Idx) :
    ((cfg0.win 2).blk t).view.read (Elt F) A y
      = A (ix2 ⟨t.val % 25 * 4000 + (y 0).val, by have h0 : (y 0).val < 4000 := (y 0).isLt; have := point_lt t; show _ < 100000; omega⟩
            ⟨t.val / 25 * 512 + (y 1).val, by have h1 : (y 1).val < 512 := (y 1).isLt; have := point_lt t; show _ < 1024; omega⟩) := by
  show A (((cfg0.win 2).blk t).view.emb y) = A _
  refine congrArg A (funext fun a => Fin.ext ?_)
  obtain ⟨-, -, -, -, e0, e1, -⟩ := index_facts t
  match a with
  | ⟨0, _⟩ => show win0_2.index t (0 : Fin 2) * 4000 + 1 * (y 0).val = t.val % 25 * 4000 + (y 0).val; rw [e0]; omega
  | ⟨1, _⟩ => show win0_2.index t (1 : Fin 2) * 512 + 1 * (y 1).val = t.val / 25 * 512 + (y 1).val; rw [e1]; omega

/-- Entry `y` of the bias block at point `t` is the bias row at column `512 (t / 25) + y 1`. -/
theorem bias_block (A : S1x1024.Idx → Elt F .f32) (t : Fin cfg0.N)
    (y : S1x512.Idx) :
    ((cfg0.win 3).blk t).view.read (Elt F) A y
      = A (ix2 (0 : Fin 1) ⟨t.val / 25 * 512 + (y 1).val, by have h1 : (y 1).val < 512 := (y 1).isLt; have := point_lt t; show _ < 1024; omega⟩) := by
  show A (((cfg0.win 3).blk t).view.emb y) = A _
  refine congrArg A (funext fun a => Fin.ext ?_)
  obtain ⟨-, -, -, -, -, -, e0, e1, -⟩ := index_facts t
  match a with
  | ⟨0, _⟩ => show win0_3.index t (0 : Fin 2) * 1 + 1 * (y 0).val = 0; have h0 : (y 0).val < 1 := (y 0).isLt; rw [e0]; omega
  | ⟨1, _⟩ => show win0_3.index t (1 : Fin 2) * 512 + 1 * (y 1).val = t.val / 25 * 512 + (y 1).val; rw [e1]; omega

/-- Entry `y` of a block of the first output row sits at column `512 (t / 25) + y 1`. -/
theorem out1_block (A : S1x1024.Idx → Elt F .f32) (t : Fin cfg0.N)
    (y : S1x512.Idx) :
    ((cfg0.win 4).blk t).view.read (Elt F) A y
      = A (ix2 (0 : Fin 1) ⟨t.val / 25 * 512 + (y 1).val, by have h1 : (y 1).val < 512 := (y 1).isLt; have := point_lt t; show _ < 1024; omega⟩) := by
  show A (((cfg0.win 4).blk t).view.emb y) = A _
  refine congrArg A (funext fun a => Fin.ext ?_)
  obtain ⟨-, -, -, -, -, -, -, -, e0, e1, -⟩ := index_facts t
  match a with
  | ⟨0, _⟩ => show win0_4.index t (0 : Fin 2) * 1 + 1 * (y 0).val = 0; have h0 : (y 0).val < 1 := (y 0).isLt; rw [e0]; omega
  | ⟨1, _⟩ => show win0_4.index t (1 : Fin 2) * 512 + 1 * (y 1).val = t.val / 25 * 512 + (y 1).val; rw [e1]; omega

/-- The same for the second output row. -/
theorem out2_block (A : S1x1024.Idx → Elt F .f32) (t : Fin cfg0.N)
    (y : S1x512.Idx) :
    ((cfg0.win 5).blk t).view.read (Elt F) A y
      = A (ix2 (0 : Fin 1) ⟨t.val / 25 * 512 + (y 1).val, by have h1 : (y 1).val < 512 := (y 1).isLt; have := point_lt t; show _ < 1024; omega⟩) := by
  show A (((cfg0.win 5).blk t).view.emb y) = A _
  refine congrArg A (funext fun a => Fin.ext ?_)
  obtain ⟨-, -, -, -, -, -, -, -, -, -, e0, e1⟩ := index_facts t
  match a with
  | ⟨0, _⟩ => show win0_5.index t (0 : Fin 2) * 1 + 1 * (y 0).val = 0; have h0 : (y 0).val < 1 := (y 0).isLt; rw [e0]; omega
  | ⟨1, _⟩ => show win0_5.index t (1 : Fin 2) * 512 + 1 * (y 1).val = t.val / 25 * 512 + (y 1).val; rw [e1]; omega

/-- A column of the first output row lies in point `t`'s block iff it is one of the 512 columns of `t`'s half. -/
theorem mem_out1 (t : Fin cfg0.N) (i : S1x1024.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v95_0).slice (win0_4.rect t)).set ↔ _
  rw [View.set_slice_whole, Rect.mem_set_unit]
  exact Iff.rfl

theorem mem_out2 (t : Fin cfg0.N) (i : S1x1024.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v95_1).slice (win0_5.rect t)).set ↔ _
  rw [View.set_slice_whole, Rect.mem_set_unit]
  exact Iff.rfl

/-- The point that writes column `i 1` back: the last row block of that column's half. -/
def lastOf (i : S1x1024.Idx) : Fin cfg0.N :=
  ⟨25 * ((i 1).val / 512) + 24, by have h1 : (i 1).val < 1024 := (i 1).isLt; rw [show cfg0.N = 50 from N_0]; omega⟩

/-- Every column of the first output row is written back by some point. -/
theorem cover_out1 (i : S1x1024.Idx) : ∃ t : Fin cfg0.N, (cfg0.win 4).flush t = true ∧ i ∈ ((cfg0.win 4).blk t).view.set := by
  have h1 : (i 1).val < 1024 := (i 1).isLt
  have h0 : (i 0).val < 1 := (i 0).isLt
  refine ⟨lastOf i, (flush0_4 _).mpr (by show (25 * ((i 1).val / 512) + 24) % 25 = 24; omega), ?_⟩
  rw [mem_out1]
  obtain ⟨-, -, -, -, -, -, -, -, e0, e1, -⟩ := index_facts (lastOf i)
  have hq : (lastOf i).val / 25 = (i 1).val / 512 := by show (25 * ((i 1).val / 512) + 24) / 25 = _; omega
  intro a
  match a with
  | ⟨0, _⟩ => show win0_4.index (lastOf i) (0 : Fin 2) * 1 ≤ (i 0).val ∧ (i 0).val < win0_4.index (lastOf i) (0 : Fin 2) * 1 + 1; rw [e0]; omega
  | ⟨1, _⟩ => show win0_4.index (lastOf i) (1 : Fin 2) * 512 ≤ (i 1).val ∧ (i 1).val < win0_4.index (lastOf i) (1 : Fin 2) * 512 + 512; rw [e1, hq]; omega

theorem cover_out2 (i : S1x1024.Idx) : ∃ t : Fin cfg0.N, (cfg0.win 5).flush t = true ∧ i ∈ ((cfg0.win 5).blk t).view.set := by
  have h1 : (i 1).val < 1024 := (i 1).isLt
  have h0 : (i 0).val < 1 := (i 0).isLt
  refine ⟨lastOf i, (flush0_5 _).mpr (by show (25 * ((i 1).val / 512) + 24) % 25 = 24; omega), ?_⟩
  rw [mem_out2]
  obtain ⟨-, -, -, -, -, -, -, -, -, -, e0, e1⟩ := index_facts (lastOf i)
  have hq : (lastOf i).val / 25 = (i 1).val / 512 := by show (25 * ((i 1).val / 512) + 24) / 25 = _; omega
  intro a
  match a with
  | ⟨0, _⟩ => show win0_5.index (lastOf i) (0 : Fin 2) * 1 ≤ (i 0).val ∧ (i 0).val < win0_5.index (lastOf i) (0 : Fin 2) * 1 + 1; rw [e0]; omega
  | ⟨1, _⟩ => show win0_5.index (lastOf i) (1 : Fin 2) * 512 ≤ (i 1).val ∧ (i 1).val < win0_5.index (lastOf i) (1 : Fin 2) * 512 + 512; rw [e1, hq]; omega

end Cert.KernelIdeal.HeadBlocks

end
-- ==== Proof.HeadValue.lean ====
/-
  What the two output rows of the head kernel hold after the run.

  Fix a half c of the output columns. Over the 25 row blocks k = 0 .. 24 of that half the accumulator row is reset
  to zero before block 0 and then gains, at block k, the partial sums over rows 4000 k .. 4000 k + 3999 of
  feature r * W (r, j). After block 24 it therefore holds, at column j, the sum over ALL 100000 rows (a running sum
  from zero over consecutive equal blocks is the whole sum: commutativity and associativity of addition on the
  extended reals, no finiteness), and the block written back is that sum plus the bias at column j. The two points
  that write back (one per half) cover the 1024 columns, so the whole output row is
      column j  ↦  (∑ r, feature r * W (r, j)) + bias j.
  This is proved for ANY proof data of the pipeline whose accumulators obey the reset / update equations and whose
  output blocks are "accumulator plus bias block" at the points that write back.
-/
import proofs.«103645_j80582176407619_2_alg».proof.Proof.HeadSum
import proofs.«103645_j80582176407619_2_alg».proof.Proof.HeadPay
import proofs.«103645_j80582176407619_2_alg».proof.Proof.HeadBlocks

noncomputable section

namespace Cert.KernelIdeal.HeadValue

open Cert.KernelIdeal Cert.KernelIdeal.Gen Idealize.ShloMosaic Idealize.ShloMosaic.TcCoe Idealize.ShloMosaic.ValueIdx
open Idealize.SL.Sem Cert.KernelIdeal.HeadBlocks Cert.KernelIdeal.HeadPay

/-- The head row of a feature column `H` against weights `W` and bias row `B`. -/
def headRow (H : S100000x1.Idx → EReal) (W : S100000x1024.Idx → EReal) (B : S1x1024.Idx → EReal) : S1x1024.Idx → EReal :=
  fun i => (∑ k : Fin 100000, H (ix2 k (0 : Fin 1)) * W (ix2 k (i 1))) + B (ix2 (0 : Fin 1) (i 1))

/-- A feature column read at a natural-number row (zero past the end). -/
def rowAt (H : S100000x1.Idx → EReal) (i : ℕ) : EReal := if h : i < 100000 then H (ix2 ⟨i, h⟩ (0 : Fin 1)) else 0
/-- The weight matrix read at natural-number coordinates (zero outside). -/
def entryAt (W : S100000x1024.Idx → EReal) (i j : ℕ) : EReal :=
  if h : i < 100000 ∧ j < 1024 then W (ix2 ⟨i, h.1⟩ ⟨j, h.2⟩) else 0

/-- The partial sum of row block `x` at column `col`. -/
def blockSum (H : S100000x1.Idx → EReal) (W : S100000x1024.Idx → EReal) (col : ℕ) (x : ℕ) : EReal :=
  ∑ r : Fin 4000, rowAt H (x * 4000 + r.val) * entryAt W (x * 4000 + r.val) col

/-- The running sum over all 25 row blocks is the sum over all rows. -/
theorem running_blocks (H : S100000x1.Idx → EReal) (W : S100000x1024.Idx → EReal) (col : Fin 1024) :
    Cert.HeadSum.running (blockSum H W col.val) 24 = ∑ k : Fin 100000, H (ix2 k (0 : Fin 1)) * W (ix2 k col) := by
  rw [Cert.HeadSum.running_last 24 4000 (by norm_num : (100000 : ℕ) = (24 + 1) * 4000)
    (fun i : Fin 100000 => rowAt H i.val * entryAt W i.val col.val) (blockSum H W col.val) (fun x => rfl)]
  refine Finset.sum_congr rfl fun k _ => ?_
  unfold rowAt entryAt
  rw [dif_pos k.isLt, dif_pos ⟨k.isLt, col.isLt⟩]

section Data

variable (A0 A1 : S100000x1.Idx → EReal) (A2 : S100000x1024.Idx → EReal) (A3 : S1x1024.Idx → EReal)

/-- Window `w`'s block at point `t`, read off its array. -/
abbrev blk0 (t : Fin cfg0.N) : Vec Ideal S4000x1 .f32 := ((cfg0.win 0).blk t).view.read (Elt Ideal) A0
abbrev blk1 (t : Fin cfg0.N) : Vec Ideal S4000x1 .f32 := ((cfg0.win 1).blk t).view.read (Elt Ideal) A1
abbrev blk2 (t : Fin cfg0.N) : Vec Ideal S4000x512 .f32 := ((cfg0.win 2).blk t).view.read (Elt Ideal) A2
abbrev blk3 (t : Fin cfg0.N) : Vec Ideal S1x512 .f32 := ((cfg0.win 3).blk t).view.read (Elt Ideal) A3

/-- A row of a feature block, in natural-number coordinates. -/
theorem feat1_row (A : S100000x1.Idx → EReal) (t : Fin cfg0.N) (r : Fin 4000) :
    blk0 A t (ix2 r (0 : Fin 1)) = rowAt A (t.val % 25 * 4000 + r.val) := by
  have ht := point_lt t
  have hr := r.isLt
  refine (feat1_block (F := Ideal) A t (ix2 r (0 : Fin 1))).trans ?_
  unfold rowAt
  rw [dif_pos (show t.val % 25 * 4000 + r.val < 100000 by omega)]

theorem feat2_row (A : S100000x1.Idx → EReal) (t : Fin cfg0.N) (r : Fin 4000) :
    blk1 A t (ix2 r (0 : Fin 1)) = rowAt A (t.val % 25 * 4000 + r.val) := by
  have ht := point_lt t
  have hr := r.isLt
  refine (feat2_block (F := Ideal) A t (ix2 r (0 : Fin 1))).trans ?_
  unfold rowAt
  rw [dif_pos (show t.val % 25 * 4000 + r.val < 100000 by omega)]

/-- An entry of a weight block, in natural-number coordinates. -/
theorem weight_entry (t : Fin cfg0.N) (r : Fin 4000) (j : Fin 512) :
    blk2 A2 t (ix2 r j) = entryAt A2 (t.val % 25 * 4000 + r.val) (t.val / 25 * 512 + j.val) := by
  have ht := point_lt t
  have hr := r.isLt
  have hj := j.isLt
  refine (weight_block (F := Ideal) A2 t (ix2 r j)).trans ?_
  unfold entryAt
  rw [dif_pos (show t.val % 25 * 4000 + r.val < 100000 ∧ t.val / 25 * 512 + j.val < 1024 from ⟨by omega, by omega⟩)]

/-- One accumulator update, at column `y`: what was there plus the block's partial sum. -/
theorem update_apply (t : Fin cfg0.N) (a : Vec Ideal S1x512 .f32) (y : S1x512.Idx) :
    k0_pay4 (F := Ideal) (blk0 A0 t) (blk2 A2 t) a y
      = a y + blockSum A0 A2 (t.val / 25 * 512 + (y 1).val) (t.val % 25) := by
  rw [pay4_apply]
  refine congrArg (a y + ·) (Finset.sum_congr rfl fun r _ => ?_)
  exact congrArg₂ (· * ·) (feat1_row A0 t r) (weight_entry A2 t r (y 1))

theorem update_apply' (t : Fin cfg0.N) (a : Vec Ideal S1x512 .f32) (y : S1x512.Idx) :
    k0_pay5 (F := Ideal) (blk1 A1 t) (blk2 A2 t) a y
      = a y + blockSum A1 A2 (t.val / 25 * 512 + (y 1).val) (t.val % 25) := by
  rw [pay5_apply]
  refine congrArg (a y + ·) (Finset.sum_congr rfl fun r _ => ?_)
  exact congrArg₂ (· * ·) (feat2_row A1 t r) (weight_entry A2 t r (y 1))

variable (acc : (n : ℕ) → n < cfg0.N → Vec Ideal S1x512 .f32 × Vec Ideal S1x512 .f32)

/-- The accumulator family does not depend on how its point's bound is proved. -/
theorem acc_congr {n n' : ℕ} (h : n = n') (hn : n < cfg0.N) (hn' : n' < cfg0.N) : acc n hn = acc n' hn' := by
  subst h; rfl

variable
  (hfirst : ∀ t : Fin cfg0.N, t.val % 25 = 0 → acc t.val t.isLt
      = (k0_pay4 (F := Ideal) (blk0 A0 t) (blk2 A2 t) (k0_pay1 (F := Ideal)), k0_pay5 (F := Ideal) (blk1 A1 t) (blk2 A2 t) (k0_pay2 (F := Ideal))))
  (hnext : ∀ t : Fin cfg0.N, t.val % 25 ≠ 0 → acc t.val t.isLt
      = (k0_pay4 (F := Ideal) (blk0 A0 t) (blk2 A2 t) (acc (t.val - 1) (Nat.lt_of_le_of_lt (Nat.sub_le _ _) t.isLt)).1,
         k0_pay5 (F := Ideal) (blk1 A1 t) (blk2 A2 t) (acc (t.val - 1) (Nat.lt_of_le_of_lt (Nat.sub_le _ _) t.isLt)).2))

include hfirst hnext in
/-- Inside half `q`, after row block `k` both accumulators hold the running sums of their feature column. -/
theorem acc_running (q k : ℕ) (hk : k < 25) (hlt : 25 * q + k < cfg0.N) (y : S1x512.Idx) :
    (acc (25 * q + k) hlt).1 y = Cert.HeadSum.running (blockSum A0 A2 (q * 512 + (y 1).val)) k
    ∧ (acc (25 * q + k) hlt).2 y = Cert.HeadSum.running (blockSum A1 A2 (q * 512 + (y 1).val)) k := by
  induction k with
  | zero =>
    have e : acc (25 * q + 0) hlt = _ := hfirst ⟨25 * q + 0, hlt⟩ (by show (25 * q + 0) % 25 = 0; omega)
    have e1 : (25 * q + 0) / 25 = q := by omega
    have e2 : (25 * q + 0) % 25 = 0 := by omega
    rw [e]
    constructor
    · refine (update_apply A0 A2 ⟨25 * q + 0, hlt⟩ _ y).trans ?_
      rw [pay1_apply]
      show 0 + blockSum A0 A2 ((25 * q + 0) / 25 * 512 + (y 1).val) ((25 * q + 0) % 25) = _
      rw [e1, e2]; rfl
    · refine (update_apply' A1 A2 ⟨25 * q + 0, hlt⟩ _ y).trans ?_
      rw [pay2_apply]
      show 0 + blockSum A1 A2 ((25 * q + 0) / 25 * 512 + (y 1).val) ((25 * q + 0) % 25) = _
      rw [e1, e2]; rfl
  | succ k ih =>
    have hlt' : 25 * q + k < cfg0.N := by omega
    obtain ⟨ih1, ih2⟩ := ih (by omega) hlt'
    have e : acc (25 * q + (k + 1)) hlt = _ := hnext ⟨25 * q + (k + 1), hlt⟩ (by show (25 * q + (k + 1)) % 25 ≠ 0; omega)
    have e1 : (25 * q + (k + 1)) / 25 = q := by omega
    have e2 : (25 * q + (k + 1)) % 25 = k + 1 := by omega
    have eprev : acc ((⟨25 * q + (k + 1), hlt⟩ : Fin cfg0.N).val - 1) (Nat.lt_of_le_of_lt (Nat.sub_le _ _) hlt) = acc (25 * q + k) hlt' :=
      acc_congr acc (by show 25 * q + (k + 1) - 1 = _; omega) _ _
    rw [e]
    constructor
    · refine (update_apply A0 A2 ⟨25 * q + (k + 1), hlt⟩ _ y).trans ?_
      rw [eprev, ih1]
      show _ + blockSum A0 A2 ((25 * q + (k + 1)) / 25 * 512 + (y 1).val) ((25 * q + (k + 1)) % 25) = _
      rw [e1, e2]; rfl
    · refine (update_apply' A1 A2 ⟨25 * q + (k + 1), hlt⟩ _ y).trans ?_
      rw [eprev, ih2]
      show _ + blockSum A1 A2 ((25 * q + (k + 1)) / 25 * 512 + (y 1).val) ((25 * q + (k + 1)) % 25) = _
      rw [e1, e2]; rfl

/-- The column of the output row that entry `y` of point `t`'s block is. -/
def colOf (t : Fin cfg0.N) (y : S1x512.Idx) : Fin 1024 :=
  ⟨t.val / 25 * 512 + (y 1).val, by have h1 : (y 1).val < 512 := (y 1).isLt; have := point_lt t; omega⟩

include hfirst hnext in
/-- At a point that writes back (`t % 25 = 24`) both accumulators hold the sums over all rows. -/
theorem acc_last (t : Fin cfg0.N) (ht : t.val % 25 = 24) (y : S1x512.Idx) :
    (acc t.val t.isLt).1 y = ∑ k : Fin 100000, A0 (ix2 k (0 : Fin 1)) * A2 (ix2 k (colOf t y))
    ∧ (acc t.val t.isLt).2 y = ∑ k : Fin 100000, A1 (ix2 k (0 : Fin 1)) * A2 (ix2 k (colOf t y)) := by
  have hN := point_lt t
  have et : t.val = 25 * (t.val / 25) + 24 := by omega
  have hlt : 25 * (t.val / 25) + 24 < cfg0.N := by have := t.isLt; omega
  have eacc : acc t.val t.isLt = acc (25 * (t.val / 25) + 24) hlt := acc_congr acc et _ _
  obtain ⟨h1, h2⟩ := acc_running A0 A1 A2 acc hfirst hnext (t.val / 25) 24 (by omega) hlt y
  rw [eacc, h1, h2]
  exact ⟨running_blocks A0 A2 (colOf t y), running_blocks A1 A2 (colOf t y)⟩

/-- The bias block's entry, at the output column. -/
theorem bias_entry (t : Fin cfg0.N) (y : S1x512.Idx) : blk3 A3 t y = A3 (ix2 (0 : Fin 1) (colOf t y)) :=
  bias_block (F := Ideal) A3 t y

end Data

end Cert.KernelIdeal.HeadValue

end
-- ==== Proof.HeadRef.lean ====
/-
  The reference's linear head, entry by entry on the extended reals.

  The reference flattens a feature column of 100000 rows into a row vector, multiplies it by the 100000 x 1024
  weight matrix in one product and adds the bias: entry (0, j) is the sum over all rows k of feature k times
  W (k, j), plus bias j. The two feature columns give two such rows; the result is the logistic function of their
  dot product, which both programs compute with the same closing operations (`tail` below).
-/
import proofs.«103645_j80582176407619_2_alg».proof.Proof.Gen.ReferenceIdeal.Read

noncomputable section

namespace Cert.ReferenceIdeal.HeadRef

open Cert.ReferenceIdeal Cert.ReferenceIdeal.Gen Cert.ReferenceIdeal.Read Idealize.ShloMosaic Idealize.ShloMosaic.ValueIdx

/-- The flattened row at column `k` is the column at row `k`. -/
theorem flat_idx (i : S1x1024.Idx) (k : Fin 100000) : idx_main_v88 (lidx_main_v89 i k) = ix2 k (0 : Fin 1) :=
  funext fun a => match a with
    | ⟨0, _⟩ => Fin.ext (by
        have h0 : (i 0).val < 1 := (i 0).isLt
        show ((i 0).val * 100000 + k.val) / 1 = k.val
        omega)
    | ⟨1, _⟩ => rfl

theorem w_idx (i : S1x1024.Idx) (k : Fin 100000) : ridx_main_v89 i k = ix2 k (i 1) :=
  funext fun a => match a with
    | ⟨0, _⟩ => rfl
    | ⟨1, _⟩ => rfl

theorem bias_idx (i : S1x1024.Idx) : idx_main_v90 i = ix1 (i 1) :=
  funext fun a => match a with
    | ⟨0, _⟩ => rfl

/-- The first feature column's head row. -/
theorem head1_apply (x0 : (⟨S100000x1, .f32⟩ : BufTy).Contents (Elt Ideal)) (x2 : (⟨S3200000, .f32⟩ : BufTy).Contents (Elt Ideal)) (x3 x4 : (⟨S3200000, .i32⟩ : BufTy).Contents (Elt Ideal)) (x5 : (⟨S3x1x1, .f32⟩ : BufTy).Contents (Elt Ideal)) (x6 : (⟨S3x1, .f32⟩ : BufTy).Contents (Elt Ideal)) (x7 : (⟨S100000x1024, .f32⟩ : BufTy).Contents (Elt Ideal)) (x8 : (⟨S1024, .f32⟩ : BufTy).Contents (Elt Ideal)) (i : S1x1024.Idx) :
    val_main_v91 (F := Ideal) x0 x2 x3 x4 x5 x6 x7 x8 i
      = (∑ k : Fin 100000, val_main_v87 (F := Ideal) x0 x2 x3 x4 x5 x6 (ix2 k (0 : Fin 1)) * x7 (ix2 k (i 1))) + x8 (ix1 (i 1)) := by
  rw [val_main_v91_apply, val_main_v89_apply, val_main_v90_apply, bias_idx]
  refine congrArg (· + x8 (ix1 (i 1))) (Finset.sum_congr rfl fun k _ => ?_)
  rw [val_main_v88_apply, flat_idx, w_idx]
  rfl

theorem flat_idx' (i : S1x1024.Idx) (k : Fin 100000) : idx_main_v171 (lidx_main_v172 i k) = ix2 k (0 : Fin 1) :=
  funext fun a => match a with
    | ⟨0, _⟩ => Fin.ext (by
        have h0 : (i 0).val < 1 := (i 0).isLt
        show ((i 0).val * 100000 + k.val) / 1 = k.val
        omega)
    | ⟨1, _⟩ => rfl

theorem w_idx' (i : S1x1024.Idx) (k : Fin 100000) : ridx_main_v172 i k = ix2 k (i 1) :=
  funext fun a => match a with
    | ⟨0, _⟩ => rfl
    | ⟨1, _⟩ => rfl

theorem bias_idx' (i : S1x1024.Idx) : idx_main_v173 i = ix1 (i 1) :=
  funext fun a => match a with
    | ⟨0, _⟩ => rfl

/-- The second feature column's head row. -/
theorem head2_apply (x1 : (⟨S100000x1, .f32⟩ : BufTy).Contents (Elt Ideal)) (x2 : (⟨S3200000, .f32⟩ : BufTy).Contents (Elt Ideal)) (x3 x4 : (⟨S3200000, .i32⟩ : BufTy).Contents (Elt Ideal)) (x5 : (⟨S3x1x1, .f32⟩ : BufTy).Contents (Elt Ideal)) (x6 : (⟨S3x1, .f32⟩ : BufTy).Contents (Elt Ideal)) (x7 : (⟨S100000x1024, .f32⟩ : BufTy).Contents (Elt Ideal)) (x8 : (⟨S1024, .f32⟩ : BufTy).Contents (Elt Ideal)) (i : S1x1024.Idx) :
    val_main_v174 (F := Ideal) x1 x2 x3 x4 x5 x6 x7 x8 i
      = (∑ k : Fin 100000, val_main_v170 (F := Ideal) x1 x2 x3 x4 x5 x6 (ix2 k (0 : Fin 1)) * x7 (ix2 k (i 1))) + x8 (ix1 (i 1)) := by
  rw [val_main_v174_apply, val_main_v172_apply, val_main_v173_apply, bias_idx']
  refine congrArg (· + x8 (ix1 (i 1))) (Finset.sum_congr rfl fun k _ => ?_)
  rw [val_main_v171_apply, flat_idx', w_idx']
  rfl

/-- What both programs do with the two head rows `p` and `q`: multiply them entry by entry, sum the 1024 products
    from zero, and apply 1 / (1 + exp (-x)) to the sum. -/
def tail (p q : (⟨S1x1024, .f32⟩ : BufTy).Contents (Elt Ideal)) : (⟨S1x1, .f32⟩ : BufTy).Contents (Elt Ideal) :=
  Host.divf (broadcastInDim S1x1 ![] bcast_S_S1x1 (constant (F := Ideal) S_ .f32 0x3F800000#32))
    (addf (broadcastInDim S1x1 ![] bcast_S_S1x1 (constant (F := Ideal) S_ .f32 0x3F800000#32))
      (Host.exp (Host.negf (broadcastInDim S1x1 ![0] bcast_S1_S1x1_0
        (Host.reduceAdd (mulf p q) (constant (F := Ideal) S_ .f32 0x00000000#32) reducesTo_S1x1024_S1_d1 h_S_)))))

/-- The reference's result is `tail` of its two head rows. -/
theorem result_eq_tail (x0 x1 : (⟨S100000x1, .f32⟩ : BufTy).Contents (Elt Ideal)) (x2 : (⟨S3200000, .f32⟩ : BufTy).Contents (Elt Ideal)) (x3 x4 : (⟨S3200000, .i32⟩ : BufTy).Contents (Elt Ideal)) (x5 : (⟨S3x1x1, .f32⟩ : BufTy).Contents (Elt Ideal)) (x6 : (⟨S3x1, .f32⟩ : BufTy).Contents (Elt Ideal)) (x7 : (⟨S100000x1024, .f32⟩ : BufTy).Contents (Elt Ideal)) (x8 : (⟨S1024, .f32⟩ : BufTy).Contents (Elt Ideal)) :
    val_main_v183 (F := Ideal) x0 x1 x2 x3 x4 x5 x6 x7 x8
      = tail (val_main_v91 (F := Ideal) x0 x2 x3 x4 x5 x6 x7 x8) (val_main_v174 (F := Ideal) x1 x2 x3 x4 x5 x6 x7 x8) := rfl

end Cert.ReferenceIdeal.HeadRef

end
-- ==== Proof.HeadResult.lean ====
/-
  The head kernel's two output rows, and its result, as functions of what the region finds.

  With the accumulators in closed form, the block an output window writes back at the last row block of a half is
  "sum over all rows, plus bias" at that half's columns; the two halves cover the row. The closing host operations
  then apply the common tail (product of the two rows, sum, logistic) to the two rows.
-/
import proofs.«103645_j80582176407619_2_alg».proof.Proof.HeadAcc
import proofs.«103645_j80582176407619_2_alg».proof.Proof.HeadValue
import proofs.«103645_j80582176407619_2_alg».proof.Proof.HeadRef
import Idealize.ShloMosaic.Lib.StableHlo.Run

noncomputable section

namespace Cert.KernelIdeal.HeadResult

open Cert.KernelIdeal Cert.KernelIdeal.Gen Cert.KernelIdeal.Head Cert.KernelIdeal.HeadValue Cert.KernelIdeal.HeadBlocks
open Cert.KernelIdeal.HeadPay
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The two feature columns, the weight matrix and the bias row as the region finds them. -/
abbrev feats1 (c : Dev nD) : S100000x1.Idx → EReal := V m c main_v92
abbrev feats2 (c : Dev nD) : S100000x1.Idx → EReal := V m c main_v93
abbrev weights (c : Dev nD) : S100000x1024.Idx → EReal := V m c main_arg7
abbrev biasRow (c : Dev nD) : S1x1024.Idx → EReal := V m c main_v94

/-- The accumulators of the proof data obey the reset / update equations over the blocks of those arrays. -/
theorem acc_first (c : Dev nD) (t : Fin cfg0.N) (h0 : t.val % 25 = 0) :
    accAt m c t.val t.isLt
      = (k0_pay4 (F := Ideal) (blk0 (feats1 m c) t) (blk2 (weights m c) t) (k0_pay1 (F := Ideal)),
         k0_pay5 (F := Ideal) (blk1 (feats2 m c) t) (blk2 (weights m c) t) (k0_pay2 (F := Ideal))) :=
  accAt_first m c t h0

theorem acc_next (c : Dev nD) (t : Fin cfg0.N) (h0 : t.val % 25 ≠ 0) :
    accAt m c t.val t.isLt
      = (k0_pay4 (F := Ideal) (blk0 (feats1 m c) t) (blk2 (weights m c) t) (accAt m c (t.val - 1) (Nat.lt_of_le_of_lt (Nat.sub_le _ _) t.isLt)).1,
         k0_pay5 (F := Ideal) (blk1 (feats2 m c) t) (blk2 (weights m c) t) (accAt m c (t.val - 1) (Nat.lt_of_le_of_lt (Nat.sub_le _ _) t.isLt)).2) :=
  accAt_step m c t h0

/-- What a point that writes back hands to the first output row: its block of the head row. -/
theorem flushed_out1 (c : Dev nD) (t : Fin cfg0.N) (hf : (cfg0.win 4).flush t = true) :
    (dats m 0 c).flushed 4 t
      = ((cfg0.win 4).blk t).view.read (Elt Ideal) (headRow (feats1 m c) (weights m c) (biasRow m c)) := by
  have ht : t.val % 25 = 24 := (flush0_4 t).mp hf
  show (cfg0.win 4).cut (grid0.coords t) ((dats m 0 c).after 4 t) = _
  rw [after4_last m c t ht]
  funext y
  refine Eq.trans ?_ (out1_block (F := Ideal) (headRow (feats1 m c) (weights m c) (biasRow m c)) t y).symm
  show k0_pay6 (F := Ideal) (accAt m c t.val t.isLt).1 (blk3 (biasRow m c) t) y = _
  rw [pay6_apply, (acc_last (feats1 m c) (feats2 m c) (weights m c) (accAt m c) (acc_first m c) (acc_next m c) t ht y).1,
    bias_entry (biasRow m c) t y]
  rfl

/-- The same for the second output row. -/
theorem flushed_out2 (c : Dev nD) (t : Fin cfg0.N) (hf : (cfg0.win 5).flush t = true) :
    (dats m 0 c).flushed 5 t
      = ((cfg0.win 5).blk t).view.read (Elt Ideal) (headRow (feats2 m c) (weights m c) (biasRow m c)) := by
  have ht : t.val % 25 = 24 := (flush0_5 t).mp hf
  show (cfg0.win 5).cut (grid0.coords t) ((dats m 0 c).after 5 t) = _
  rw [after5_last m c t ht]
  funext y
  refine Eq.trans ?_ (out2_block (F := Ideal) (headRow (feats2 m c) (weights m c) (biasRow m c)) t y).symm
  show k0_pay7 (F := Ideal) (accAt m c t.val t.isLt).2 (blk3 (biasRow m c) t) y = _
  rw [pay7_apply, (acc_last (feats1 m c) (feats2 m c) (weights m c) (accAt m c) (acc_first m c) (acc_next m c) t ht y).2,
    bias_entry (biasRow m c) t y]
  rfl

/-- After the run the first output array is the first feature column's head row, -/
theorem final_out1 (c : Dev nD) :
    (dats m 0 c).arrAt 4 cfg0.N = headRow (feats1 m c) (weights m c) (biasRow m c) :=
  (dats m 0 c).arrAt_eq_of_cover 4 _ (fun t hf => flushed_out1 m c t hf) cover_out1

/-- and the second the second's. -/
theorem final_out2 (c : Dev nD) :
    (dats m 0 c).arrAt 5 cfg0.N = headRow (feats2 m c) (weights m c) (biasRow m c) :=
  (dats m 0 c).arrAt_eq_of_cover 5 _ (fun t hf => flushed_out2 m c t hf) cover_out2

/-- The closing host operations leave, in the result buffer, the common tail of the two output arrays. -/
theorem result_tail (c : Dev nD) :
    Pipeline.afterTail₀ cfgs (dats m) 0 (V0 m) [hostOps1] c main_v104
      = Cert.ReferenceIdeal.HeadRef.tail ((dats m 0 c).arrAt 4 cfg0.N) ((dats m 0 c).arrAt 5 cfg0.N) := by
  unfold Pipeline.afterTail₀
  show StableHlo.after hostOps1 _ (Proc.devRef .tc main_v104) = _
  after_results
  unfold Cert.ReferenceIdeal.HeadRef.tail
  refine congrArg (Host.divf _) (congrArg (addf _) (congrArg Host.exp (congrArg Host.negf (congrArg (broadcastInDim _ _ _) ?_))))
  refine congrArg (fun z => Host.reduceAdd z _ _ _) (congrArg₂ mulf ?_ ?_)
  · exact Pipeline.withArrays_arr spec0 launch0.win.arr_inj c _ _ 4
  · exact Pipeline.withArrays_arr spec0 launch0.win.arr_inj c _ _ 5

end Cert.KernelIdeal.HeadResult

end
-- ==== Proof.KernelValue.lean ====
/-
  The idealized kernel's whole run: every weakly fair execution terminates with the result buffer at
      logistic ( ∑ j, row₁ j * row₂ j ),   row_i j = (∑ r, feature_i r * W (r, j)) + bias j
  (the common tail of the two head rows of the feature columns the region finds) and the nine argument arrays
  unchanged.
-/
import proofs.«103645_j80582176407619_2_alg».proof.Proof.HeadResult

noncomputable section

namespace Cert.KernelIdeal.KernelValue

open Cert.KernelIdeal Cert.KernelIdeal.Gen Cert.KernelIdeal.Head Cert.KernelIdeal.HeadValue Cert.KernelIdeal.HeadResult
open Idealize.ShloMosaic Idealize.ShloMosaic.TcCoe Idealize.SL.Sem

variable (m : (ℓ : Loc nD τ sig) → Buf (Elt Ideal) ℓ) (ρ : Dev nD → PrngReg)

/-- The result as a function of the arrays the region finds. -/
def result (c : Dev nD) : (⟨S1x1, .f32⟩ : BufTy).Contents (Elt Ideal) :=
  Cert.ReferenceIdeal.HeadRef.tail (headRow (feats1 m c) (weights m c) (biasRow m c)) (headRow (feats2 m c) (weights m c) (biasRow m c))

theorem run : θ_run defs (onTc (τ := τ) (main (F := Ideal))) ⟨m, fun _ => 0, ρ⟩ (fun r => ∀ c : Dev nD,
      r.2.mem ((c.tc : Thread nD τ).loc main_v104) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v104 (Pipeline.mem_restRefs_of main_v104 (by decide) (by decide))).trans
        ((result_tail m c).trans (by rw [final_out1, final_out2]; rfl)),
      ((h c).2 main_arg0 (Pipeline.mem_restRefs_of main_arg0 (by decide) (by decide))).trans (tail_main_arg0 m (dats m) c),
      ((h c).2 main_arg1 (Pipeline.mem_restRefs_of main_arg1 (by decide) (by decide))).trans (tail_main_arg1 m (dats m) c),
      ((h c).2 main_arg2 (Pipeline.mem_restRefs_of main_arg2 (by decide) (by decide))).trans (tail_main_arg2 m (dats m) c),
      ((h c).2 main_arg3 (Pipeline.mem_restRefs_of main_arg3 (by decide) (by decide))).trans (tail_main_arg3 m (dats m) c),
      ((h c).2 main_arg4 (Pipeline.mem_restRefs_of main_arg4 (by decide) (by decide))).trans (tail_main_arg4 m (dats m) c),
      ((h c).2 main_arg5 (Pipeline.mem_restRefs_of main_arg5 (by decide) (by decide))).trans (tail_main_arg5 m (dats m) c),
      ((h c).2 main_arg6 (Pipeline.mem_restRefs_of main_arg6 (by decide) (by decide))).trans (tail_main_arg6 m (dats m) c),
      ((h c).1 2).trans (((dats m 0 c).arrAt_in 2 rfl _).trans ((A_eq m c 2).trans (V_main_arg7 m c))),
      ((h c).2 main_arg8 (Pipeline.mem_restRefs_of main_arg8 (by decide) (by decide))).trans (tail_main_arg8 m (dats m) c)⟩)
    (run_main m ρ)

end Cert.KernelIdeal.KernelValue

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.ColumnStages.lean ====
import proofs.«103645_j80582176407619_2_alg».proof.Proof.Gen.KernelIdeal
import proofs.«103645_j80582176407619_2_alg».proof.Proof.Gen.ReferenceIdeal
import proofs.«103645_j80582176407619_2_alg».proof.Proof.LibRows
import Idealize.ShloMosaic.Lib.Pipeline.Value
import Idealize.ShloMosaic.Lib.ValueIdx
import Idealize.ShloMosaic.PureOps.Ideal.Laws

/-!
Three rounds of message passing over a graph with `N = 100000` nodes and `E = 3200000` edges, written twice.

One round, for a node feature `x`: every edge `e` reads the feature of its source node (the row number `src e`,
a negative number first moved up by `N`, then clamped into `[0, N-1]` by the row read itself), scales it by
`norm e`, and the scaled values of the edges whose destination `dst e` is a row of the table are summed into that
row (an edge whose destination is no row is dropped); the sum is divided by the in-degree of the row — the number of
such edges — but by at least one; then `(x + that) * w + b`, and the next round starts from the positive part of it.
The result is the mean, over the three rounds, of the values BEFORE the positive part is taken.

The first program carries the two feature columns side by side in one `[N, 2]` table (and, in the first round, a
third column of ones through the same sum, which gives the in-degree); the second does one `[N, 1]` column at a time,
counts the in-degree by a sum of ones into a flat `[N]` table, and writes `· * w` as a product of an `[N, 1]` by a
`[1, 1]` matrix, a sum of one term. This file names the stages of both and shows that column `j` of the first
is the second run on column `j`, stage by stage. Every step is a rewriting of one sum as the same sum or the
cancellation of a one-term sum; none needs the values to be finite.
-/

noncomputable section

open Idealize.ShloMosaic

/-- The contents of an array of shape `S` and element type `e`. -/
abbrev Cert.Arr (F : FTy → Type) (S : Shape) (e : EltTy) : Type := (⟨S, e⟩ : BufTy).Contents (Elt F)

/-! ## One column at a time -/

namespace Cert.ReferenceIdeal.Column

open Cert Cert.ReferenceIdeal Cert.ReferenceIdeal.Gen

variable {F : FTy → Type} [FloatOps F]

/-- The row each edge reads, as a column: `src`, a negative entry moved up by `N`. -/
def srcCol (x3 : Arr F S3200000 .i32) : Arr F S3200000x1 .i32 :=
  broadcastInDim S3200000x1 ![0] bcast_S3200000_S3200000x1_0
    (select (cmpi .slt x3 (broadcastInDim S3200000 ![] bcast_S_S3200000 (constantI S_ 32 0#32)))
      (addi x3 (broadcastInDim S3200000 ![] bcast_S_S3200000 (constantI S_ 32 100000#32))) x3)

/-- The row each edge adds into, as a column. -/
def dstCol (x4 : Arr F S3200000 .i32) : Arr F S3200000x1 .i32 :=
  broadcastInDim S3200000x1 ![0] bcast_S3200000_S3200000x1_0 x4

/-- The edge weights, as a column. -/
def normCol (x2 : Arr F S3200000 .f32) : Arr F S3200000x1 .f32 :=
  broadcastInDim S3200000x1 ![0] bcast_S3200000_S3200000x1_0 x2

/-- The in-degree of every row: ones summed into a flat table of zeros at the destinations. -/
def degree (x4 : Arr F S3200000 .i32) : Arr F S100000 .f32 :=
  Host.scatterAdd scatter_S100000_S3200000x1_S3200000_n_0_0_1
    (broadcastInDim S100000 ![] bcast_S_S100000 (constant S_ .f32 0x00000000#32)) (dstCol x4)
    (broadcastInDim S3200000 ![] bcast_S_S3200000 (constant S_ .f32 0x3F800000#32))

/-- One over the in-degree, the in-degree taken to be at least one; as a column. -/
def degInv (x4 : Arr F S3200000 .i32) : Arr F S100000x1 .f32 :=
  broadcastInDim S100000x1 ![0] bcast_S100000_S100000x1_0
    (Host.divf (broadcastInDim S100000 ![] bcast_S_S100000 (constant S_ .f32 0x3F800000#32))
      (maximumf (degree x4) (broadcastInDim S100000 ![] bcast_S_S100000 (constant S_ .f32 0x3F800000#32))))

/-- What each edge carries: the feature of its source row, times its weight. -/
def msg (x : Arr F S100000x1 .f32) (x2 : Arr F S3200000 .f32) (x3 : Arr F S3200000 .i32) : Arr F S3200000x1 .f32 :=
  mulf (Host.gather gather_S100000x1_S3200000x1_S3200000x1_1_0_n_n_0_1_11 x (srcCol x3)) (normCol x2)

/-- The messages summed into their destination rows. -/
def agg (x : Arr F S100000x1 .f32) (x2 : Arr F S3200000 .f32) (x3 x4 : Arr F S3200000 .i32) : Arr F S100000x1 .f32 :=
  Host.scatterAdd scatter_S100000x1_S3200000x1_S3200000x1_1_0_0_1
    (broadcastInDim S100000x1 ![] bcast_S_S100000x1 (constant S_ .f32 0x00000000#32)) (dstCol x4) (msg x x2 x3)

/-- The feature plus the mean of the incoming messages. -/
def mixed (x : Arr F S100000x1 .f32) (x2 : Arr F S3200000 .f32) (x3 x4 : Arr F S3200000 .i32) : Arr F S100000x1 .f32 :=
  addf x (mulf (agg x x2 x3 x4) (degInv x4))

/-- The round's linear map: a product with a one-by-one matrix, plus the bias. -/
def lin (y : Arr F S100000x1 .f32) (w : Arr F S1x1 .f32) (b : Arr F S100000x1 .f32) : Arr F S100000x1 .f32 :=
  addf (Host.dotGeneral dot_S100000x1_S1x1_S100000x1_1_0_0_1_n_n none y w) b

/-- The positive part. -/
def relu (y : Arr F S100000x1 .f32) : Arr F S100000x1 .f32 :=
  maximumf y (broadcastInDim S100000x1 ![] bcast_S_S100000x1 (constant S_ .f32 0x00000000#32))

/-- The three rounds' one-by-one weight matrices. -/
def weight0 (x5 : Arr F S3x1x1 .f32) : Arr F S1x1 .f32 :=
  transpose S1x1 [1, 0] (shapeCast S1x1 (extractStridedSlice S1x1x1 ![0, 0, 0] x5 slices_S3x1x1_S1x1x1_0_0_0) shapeCasts_S1x1x1_S1x1) transposes_S1x1_S1x1_1_0
def weight1 (x5 : Arr F S3x1x1 .f32) : Arr F S1x1 .f32 :=
  transpose S1x1 [1, 0] (shapeCast S1x1 (extractStridedSlice S1x1x1 ![1, 0, 0] x5 slices_S3x1x1_S1x1x1_1_0_0) shapeCasts_S1x1x1_S1x1) transposes_S1x1_S1x1_1_0
def weight2 (x5 : Arr F S3x1x1 .f32) : Arr F S1x1 .f32 :=
  transpose S1x1 [1, 0] (shapeCast S1x1 (extractStridedSlice S1x1x1 ![2, 0, 0] x5 slices_S3x1x1_S1x1x1_2_0_0) shapeCasts_S1x1x1_S1x1) transposes_S1x1_S1x1_1_0

/-- The three rounds' biases, spread down the column. -/
def bias0 (x6 : Arr F S3x1 .f32) : Arr F S100000x1 .f32 :=
  broadcastInDim S100000x1 ![0, 1] bcast_S1x1_S100000x1_0_1 (broadcastInDim S1x1 ![1] bcast_S1_S1x1_1
    (shapeCast S1 (extractStridedSlice S1x1 ![0, 0] x6 slices_S3x1_S1x1_0_0) shapeCasts_S1x1_S1))
def bias1 (x6 : Arr F S3x1 .f32) : Arr F S100000x1 .f32 :=
  broadcastInDim S100000x1 ![0, 1] bcast_S1x1_S100000x1_0_1 (broadcastInDim S1x1 ![1] bcast_S1_S1x1_1
    (shapeCast S1 (extractStridedSlice S1x1 ![1, 0] x6 slices_S3x1_S1x1_1_0) shapeCasts_S1x1_S1))
def bias2 (x6 : Arr F S3x1 .f32) : Arr F S100000x1 .f32 :=
  broadcastInDim S100000x1 ![0, 1] bcast_S1x1_S100000x1_0_1 (broadcastInDim S1x1 ![1] bcast_S1_S1x1_1
    (shapeCast S1 (extractStridedSlice S1x1 ![2, 0] x6 slices_S3x1_S1x1_2_0) shapeCasts_S1x1_S1))

/-- The mean of three columns: stacked, summed over the stack, divided by three. -/
def mean3 (p0 p1 p2 : Arr F S100000x1 .f32) : Arr F S100000x1 .f32 :=
  Host.divf
    (Host.reduceAdd
      (concatenate S3x100000x1 0
        [⟨S1x100000x1, broadcastInDim S1x100000x1 ![1, 2] bcast_S100000x1_S1x100000x1_1_2 p0⟩,
         ⟨S1x100000x1, broadcastInDim S1x100000x1 ![1, 2] bcast_S100000x1_S1x100000x1_1_2 p1⟩,
         ⟨S1x100000x1, broadcastInDim S1x100000x1 ![1, 2] bcast_S100000x1_S1x100000x1_1_2 p2⟩]
        concatenates_S1x100000x1_S1x100000x1_S1x100000x1_S3x100000x1_d0)
      (constant S_ .f32 0x00000000#32) reducesTo_S3x100000x1_S100000x1_d0 h_S_)
    (broadcastInDim S100000x1 ![] bcast_S_S100000x1 (constant S_ .f32 0x40400000#32))

section
variable (x : Arr F S100000x1 .f32) (x2 : Arr F S3200000 .f32) (x3 x4 : Arr F S3200000 .i32)
  (x5 : Arr F S3x1x1 .f32) (x6 : Arr F S3x1 .f32)

/-- The three rounds' values before the positive part. -/
def pre0 : Arr F S100000x1 .f32 := lin (mixed x x2 x3 x4) (weight0 x5) (bias0 x6)
def pre1 : Arr F S100000x1 .f32 := lin (mixed (relu (pre0 x x2 x3 x4 x5 x6)) x2 x3 x4) (weight1 x5) (bias1 x6)
def pre2 : Arr F S100000x1 .f32 := lin (mixed (relu (pre1 x x2 x3 x4 x5 x6)) x2 x3 x4) (weight2 x5) (bias2 x6)

/-- The feature column the head reads: the mean of the three rounds. -/
def feat : Arr F S100000x1 .f32 := mean3 (pre0 x x2 x3 x4 x5 x6) (pre1 x x2 x3 x4 x5 x6) (pre2 x x2 x3 x4 x5 x6)
end

end Cert.ReferenceIdeal.Column

/-! ## Both columns side by side -/

namespace Cert.KernelIdeal.Prelude

open Cert Cert.KernelIdeal Cert.KernelIdeal.Gen

variable {F : FTy → Type} [FloatOps F]

/-- The two feature columns side by side. -/
def feats2 (a0 a1 : Arr F S100000x1 .f32) : Arr F S100000x2 .f32 :=
  concatenate S100000x2 1 [⟨S100000x1, a0⟩, ⟨S100000x1, a1⟩] concatenates_S100000x1_S100000x1_S100000x2_d1

/-- The row each edge reads, as a column: `src`, a negative entry moved up by `N`. -/
def srcCol (a3 : Arr F S3200000 .i32) : Arr F S3200000x1 .i32 :=
  broadcastInDim S3200000x1 ![0] bcast_S3200000_S3200000x1_0
    (select (cmpi .slt a3 (broadcastInDim S3200000 ![] bcast_S_S3200000 (constantI S_ 32 0#32)))
      (addi a3 (broadcastInDim S3200000 ![] bcast_S_S3200000 (constantI S_ 32 100000#32))) a3)

/-- The row each edge adds into, as a column. -/
def dstCol (a4 : Arr F S3200000 .i32) : Arr F S3200000x1 .i32 :=
  broadcastInDim S3200000x1 ![0] bcast_S3200000_S3200000x1_0 a4

/-- The edge weights, repeated for both columns. -/
def norm2 (a2 : Arr F S3200000 .f32) : Arr F S3200000x2 .f32 :=
  broadcastInDim S3200000x2 ![0, 1] bcast_S3200000x1_S3200000x2_0_1
    (broadcastInDim S3200000x1 ![0] bcast_S3200000_S3200000x1_0 a2)

/-- What each edge carries, for both columns: the features of its source row, times its weight. -/
def msg (x : Arr F S100000x2 .f32) (a2 : Arr F S3200000 .f32) (a3 : Arr F S3200000 .i32) : Arr F S3200000x2 .f32 :=
  mulf (Host.gather gather_S100000x2_S3200000x1_S3200000x2_1_0_n_n_0_1_12 x (srcCol a3)) (norm2 a2)

/-- The first round's sum into destination rows, three columns wide: the two message columns and a column of ones. -/
def agg3 (x : Arr F S100000x2 .f32) (a2 : Arr F S3200000 .f32) (a3 a4 : Arr F S3200000 .i32) : Arr F S100000x3 .f32 :=
  Host.scatterAdd scatter_S100000x3_S3200000x1_S3200000x3_1_0_0_1
    (broadcastInDim S100000x3 ![] bcast_S_S100000x3 (constant S_ .f32 0x00000000#32)) (dstCol a4)
    (concatenate S3200000x3 1
      [⟨S3200000x2, msg x a2 a3⟩,
       ⟨S3200000x1, broadcastInDim S3200000x1 ![] bcast_S_S3200000x1 (constant S_ .f32 0x3F800000#32)⟩]
      concatenates_S3200000x2_S3200000x1_S3200000x3_d1)

/-- One over the in-degree (the third column of the first round's sum), the in-degree taken to be at least one. -/
def degInv (g : Arr F S100000x3 .f32) : Arr F S100000x1 .f32 :=
  Host.divf (broadcastInDim S100000x1 ![] bcast_S_S100000x1 (constant S_ .f32 0x3F800000#32))
    (maximumf (extractStridedSlice S100000x1 ![0, 2] g slices_S100000x3_S100000x1_0_2)
      (broadcastInDim S100000x1 ![] bcast_S_S100000x1 (constant S_ .f32 0x3F800000#32)))

/-- The same, repeated for both columns. -/
def degInv2 (g : Arr F S100000x3 .f32) : Arr F S100000x2 .f32 :=
  broadcastInDim S100000x2 ![0, 1] bcast_S100000x1_S100000x2_0_1 (degInv g)

/-- The first round: the features plus the mean of the incoming messages (the first two columns of the sum). -/
def mixed0 (x : Arr F S100000x2 .f32) (g : Arr F S100000x3 .f32) : Arr F S100000x2 .f32 :=
  addf x (mulf (extractStridedSlice S100000x2 ![0, 0] g slices_S100000x3_S100000x2_0_0) (degInv2 g))

/-- A later round's sum into destination rows, two columns wide. -/
def agg2 (x : Arr F S100000x2 .f32) (a2 : Arr F S3200000 .f32) (a3 a4 : Arr F S3200000 .i32) : Arr F S100000x2 .f32 :=
  Host.scatterAdd scatter_S100000x2_S3200000x1_S3200000x2_1_0_0_1
    (broadcastInDim S100000x2 ![] bcast_S_S100000x2 (constant S_ .f32 0x00000000#32)) (dstCol a4) (msg x a2 a3)

/-- A later round: the features plus the mean of the incoming messages, with the first round's in-degree. -/
def mixed (x : Arr F S100000x2 .f32) (g : Arr F S100000x3 .f32) (a2 : Arr F S3200000 .f32) (a3 a4 : Arr F S3200000 .i32) :
    Arr F S100000x2 .f32 :=
  addf x (mulf (agg2 x a2 a3 a4) (degInv2 g))

/-- The round's linear map, entry by entry: times the weight, plus the bias. -/
def lin (y w b : Arr F S100000x2 .f32) : Arr F S100000x2 .f32 := addf (mulf y w) b

/-- The positive part. -/
def relu (y : Arr F S100000x2 .f32) : Arr F S100000x2 .f32 :=
  maximumf y (broadcastInDim S100000x2 ![] bcast_S_S100000x2 (constant S_ .f32 0x00000000#32))

/-- The three rounds' weights, spread over the table. -/
def weight0 (a5 : Arr F S3x1x1 .f32) : Arr F S100000x2 .f32 :=
  broadcastInDim S100000x2 ![] bcast_S_S100000x2
    (shapeCast S_ (extractStridedSlice S1x1x1 ![0, 0, 0] a5 slices_S3x1x1_S1x1x1_0_0_0) shapeCasts_S1x1x1_S_)
def weight1 (a5 : Arr F S3x1x1 .f32) : Arr F S100000x2 .f32 :=
  broadcastInDim S100000x2 ![] bcast_S_S100000x2
    (shapeCast S_ (extractStridedSlice S1x1x1 ![1, 0, 0] a5 slices_S3x1x1_S1x1x1_1_0_0) shapeCasts_S1x1x1_S_)
def weight2 (a5 : Arr F S3x1x1 .f32) : Arr F S100000x2 .f32 :=
  broadcastInDim S100000x2 ![] bcast_S_S100000x2
    (shapeCast S_ (extractStridedSlice S1x1x1 ![2, 0, 0] a5 slices_S3x1x1_S1x1x1_2_0_0) shapeCasts_S1x1x1_S_)

/-- The three rounds' biases, spread over the table. -/
def bias0 (a6 : Arr F S3x1 .f32) : Arr F S100000x2 .f32 :=
  broadcastInDim S100000x2 ![0, 1] bcast_S1x1_S100000x2_0_1 (broadcastInDim S1x1 ![1] bcast_S1_S1x1_1
    (shapeCast S1 (extractStridedSlice S1x1 ![0, 0] a6 slices_S3x1_S1x1_0_0) shapeCasts_S1x1_S1))
def bias1 (a6 : Arr F S3x1 .f32) : Arr F S100000x2 .f32 :=
  broadcastInDim S100000x2 ![0, 1] bcast_S1x1_S100000x2_0_1 (broadcastInDim S1x1 ![1] bcast_S1_S1x1_1
    (shapeCast S1 (extractStridedSlice S1x1 ![1, 0] a6 slices_S3x1_S1x1_1_0) shapeCasts_S1x1_S1))
def bias2 (a6 : Arr F S3x1 .f32) : Arr F S100000x2 .f32 :=
  broadcastInDim S100000x2 ![0, 1] bcast_S1x1_S100000x2_0_1 (broadcastInDim S1x1 ![1] bcast_S1_S1x1_1
    (shapeCast S1 (extractStridedSlice S1x1 ![2, 0] a6 slices_S3x1_S1x1_2_0) shapeCasts_S1x1_S1))

/-- The mean of three tables: stacked, summed over the stack, divided by three. -/
def mean3 (p0 p1 p2 : Arr F S100000x2 .f32) : Arr F S100000x2 .f32 :=
  Host.divf
    (Host.reduceAdd
      (concatenate S3x100000x2 0
        [⟨S1x100000x2, broadcastInDim S1x100000x2 ![1, 2] bcast_S100000x2_S1x100000x2_1_2 p0⟩,
         ⟨S1x100000x2, broadcastInDim S1x100000x2 ![1, 2] bcast_S100000x2_S1x100000x2_1_2 p1⟩,
         ⟨S1x100000x2, broadcastInDim S1x100000x2 ![1, 2] bcast_S100000x2_S1x100000x2_1_2 p2⟩]
        concatenates_S1x100000x2_S1x100000x2_S1x100000x2_S3x100000x2_d0)
      (constant S_ .f32 0x00000000#32) reducesTo_S3x100000x2_S100000x2_d0 h_S_)
    (broadcastInDim S100000x2 ![] bcast_S_S100000x2 (constant S_ .f32 0x40400000#32))

section
variable (a0 a1 : Arr F S100000x1 .f32) (a2 : Arr F S3200000 .f32) (a3 a4 : Arr F S3200000 .i32)
  (a5 : Arr F S3x1x1 .f32) (a6 : Arr F S3x1 .f32)

/-- The first round's three-column sum. -/
def sum0 : Arr F S100000x3 .f32 := agg3 (feats2 a0 a1) a2 a3 a4

/-- The three rounds' values before the positive part. -/
def pre0 : Arr F S100000x2 .f32 := lin (mixed0 (feats2 a0 a1) (sum0 a0 a1 a2 a3 a4)) (weight0 a5) (bias0 a6)
def pre1 : Arr F S100000x2 .f32 :=
  lin (mixed (relu (pre0 a0 a1 a2 a3 a4 a5 a6)) (sum0 a0 a1 a2 a3 a4) a2 a3 a4) (weight1 a5) (bias1 a6)
def pre2 : Arr F S100000x2 .f32 :=
  lin (mixed (relu (pre1 a0 a1 a2 a3 a4 a5 a6)) (sum0 a0 a1 a2 a3 a4) a2 a3 a4) (weight2 a5) (bias2 a6)

/-- The mean of the three rounds, both columns. -/
def mean : Arr F S100000x2 .f32 :=
  mean3 (pre0 a0 a1 a2 a3 a4 a5 a6) (pre1 a0 a1 a2 a3 a4 a5 a6) (pre2 a0 a1 a2 a3 a4 a5 a6)

/-- The two columns the head reads. -/
def feat0 : Arr F S100000x1 .f32 :=
  extractStridedSlice S100000x1 ![0, 0] (mean a0 a1 a2 a3 a4 a5 a6) slices_S100000x2_S100000x1_0_0
def feat1 : Arr F S100000x1 .f32 :=
  extractStridedSlice S100000x1 ![0, 1] (mean a0 a1 a2 a3 a4 a5 a6) slices_S100000x2_S100000x1_0_1
end

end Cert.KernelIdeal.Prelude

end
-- ==== Proof.PreludeEntry.lean ====
import proofs.«103645_j80582176407619_2_alg».proof.Proof.HeadEntry
import proofs.«103645_j80582176407619_2_alg».proof.Proof.ColumnStages
import Idealize.ShloMosaic.Lib.StableHlo.Run

/-!
What the head's region finds in its four input arrays, as functions of the program's arguments: the two feature
columns are the two column slices of the three-round mean computed over both columns side by side, the bias row is
the bias vector laid out as one row, and the weight matrix is the argument itself.
-/

noncomputable section

namespace Cert.KernelIdeal.Prelude

open Idealize.ShloMosaic Idealize.ShloMosaic.TcCoe Idealize.ShloMosaic.StableHlo
open Idealize.SL Idealize.SL.Sem
open Cert Cert.KernelIdeal Cert.KernelIdeal.Gen Cert.KernelIdeal.Head

variable {F : FTy → Type} [FloatOps F]
variable (m : (ℓ : Loc nD τ sig) → Buf (Elt F) ℓ) (c : Dev nD)

set_option maxHeartbeats 1500000 in
/-- The first round's value before the positive part, as the region's entry finds it. -/
theorem entry_pre0 : (V m c main_v33 : Arr F S100000x2 .f32) = pre0 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) := by
  dsimp only [Head.V, Head.V0]
  simp only [Head.prefixOps, hostOps0, hostOps0_1, hostOps0_2, hostOps0_3, hostOps0_4, hostOps0_5, hostOps0_6,
    List.flatten_cons, List.flatten_nil, List.append_nil, List.cons_append, List.nil_append]
  after_results_simp
  rfl

set_option maxHeartbeats 1500000 in
/-- The second round's. -/
theorem entry_pre1 : (V m c main_v58 : Arr F S100000x2 .f32) = pre1 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) := by
  dsimp only [Head.V, Head.V0]
  simp only [Head.prefixOps, hostOps0, hostOps0_1, hostOps0_2, hostOps0_3, hostOps0_4, hostOps0_5, hostOps0_6,
    List.flatten_cons, List.flatten_nil, List.append_nil, List.cons_append, List.nil_append]
  after_results_simp
  rfl

set_option maxHeartbeats 1500000 in
/-- The third round's. -/
theorem entry_pre2 : (V m c main_v83 : Arr F S100000x2 .f32) = pre2 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) := by
  dsimp only [Head.V, Head.V0]
  simp only [Head.prefixOps, hostOps0, hostOps0_1, hostOps0_2, hostOps0_3, hostOps0_4, hostOps0_5, hostOps0_6,
    List.flatten_cons, List.flatten_nil, List.append_nil, List.cons_append, List.nil_append]
  after_results_simp
  rfl

/-- The buffers' contents after the three rounds, before the last stretch of host operations (the stacking, the
    mean, the column slices and the bias row). -/
def beforeMean : Valuation τ sig (Elt F) :=
  after hostOps0_5 (after hostOps0_4 (after hostOps0_3 (after hostOps0_2 (after hostOps0_1 (after hostOps0 (fun b => m (c, b)))))))

/-- The entry contents are the last stretch run from there. -/
theorem V_lastStretch (b : Ref sig .tc) :
    V m c b = after hostOps0_6 (beforeMean m c) (Proc.devRef .tc b) := by
  show after (List.flatten (prefixOps (F := F))) (fun b => m (c, b)) (Proc.devRef .tc b) = _
  simp only [prefixOps, List.flatten_cons, List.flatten_nil, List.append_nil]
  rw [after_append, after_append, after_append, after_append, after_append, after_append]
  rfl

section LastStretch
variable (W : Valuation τ sig (Elt F))

/-- The last stretch leaves the three rounds' buffers alone. -/
theorem last_keep0 : after hostOps0_6 W (Proc.devRef .tc main_v33) = W (Proc.devRef .tc main_v33) := by
  after_results_simp
theorem last_keep1 : after hostOps0_6 W (Proc.devRef .tc main_v58) = W (Proc.devRef .tc main_v58) := by
  after_results_simp
theorem last_keep2 : after hostOps0_6 W (Proc.devRef .tc main_v83) = W (Proc.devRef .tc main_v83) := by
  after_results_simp

/-- The last stretch writes column 0 of the mean of the three rounds' buffers into the first feature buffer. -/
theorem last_feat0 :
    (after hostOps0_6 W (Proc.devRef .tc main_v92) : Arr F S100000x1 .f32)
      = extractStridedSlice S100000x1 ![0, 0]
          (mean3 (W (Proc.devRef .tc main_v33)) (W (Proc.devRef .tc main_v58)) (W (Proc.devRef .tc main_v83)))
          slices_S100000x2_S100000x1_0_0 := by
  after_results_simp
  rfl

/-- … and column 1 into the second. -/
theorem last_feat1 :
    (after hostOps0_6 W (Proc.devRef .tc main_v93) : Arr F S100000x1 .f32)
      = extractStridedSlice S100000x1 ![0, 1]
          (mean3 (W (Proc.devRef .tc main_v33)) (W (Proc.devRef .tc main_v58)) (W (Proc.devRef .tc main_v83)))
          slices_S100000x2_S100000x1_0_1 := by
  after_results_simp
  rfl
end LastStretch

/-- The three rounds' buffers before the last stretch hold the three rounds' values. -/
theorem before_pre0 : (beforeMean m c (Proc.devRef .tc main_v33) : Arr F S100000x2 .f32) = pre0 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) :=
  (last_keep0 (beforeMean m c)).symm.trans ((V_lastStretch m c main_v33).symm.trans (entry_pre0 m c))
theorem before_pre1 : (beforeMean m c (Proc.devRef .tc main_v58) : Arr F S100000x2 .f32) = pre1 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) :=
  (last_keep1 (beforeMean m c)).symm.trans ((V_lastStretch m c main_v58).symm.trans (entry_pre1 m c))
theorem before_pre2 : (beforeMean m c (Proc.devRef .tc main_v83) : Arr F S100000x2 .f32) = pre2 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) :=
  (last_keep2 (beforeMean m c)).symm.trans ((V_lastStretch m c main_v83).symm.trans (entry_pre2 m c))

/-- The first feature buffer the region reads is column 0 of the three-round mean. -/
theorem entry_feat0 : (V m c main_v92 : Arr F S100000x1 .f32) = feat0 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) := by
  refine (V_lastStretch m c main_v92).trans ((last_feat0 (beforeMean m c)).trans ?_)
  rw [before_pre0, before_pre1, before_pre2]
  rfl

/-- The second feature buffer the region reads is column 1 of the three-round mean. -/
theorem entry_feat1 : (V m c main_v93 : Arr F S100000x1 .f32) = feat1 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) := by
  refine (V_lastStretch m c main_v93).trans ((last_feat1 (beforeMean m c)).trans ?_)
  rw [before_pre0, before_pre1, before_pre2]
  rfl

/-- The bias buffer the region reads is the bias vector laid out as one row. -/
theorem entry_bias :
    (V m c main_v94 : Arr F S1x1024 .f32)
      = shapeCast S1x1024 (m ((c.tc : Thread _ _).loc main_arg8) : Arr F S1024 .f32) shapeCasts_S1024_S1x1024 := by
  dsimp only [Head.V, Head.V0]
  simp only [Head.prefixOps, hostOps0, hostOps0_1, hostOps0_2, hostOps0_3, hostOps0_4, hostOps0_5, hostOps0_6,
    List.flatten_cons, List.flatten_nil, List.append_nil, List.cons_append, List.nil_append]
  after_results_simp
  rfl

/-- The weight matrix the region reads is the argument, untouched by the host operations before the region. -/
theorem entry_weights :
    (V m c main_arg7 : Arr F S100000x1024 .f32) = m ((c.tc : Thread _ _).loc main_arg7) := by
  dsimp only [Head.V, Head.V0]
  simp only [Head.prefixOps, hostOps0, hostOps0_1, hostOps0_2, hostOps0_3, hostOps0_4, hostOps0_5, hostOps0_6,
    List.flatten_cons, List.flatten_nil, List.append_nil, List.cons_append, List.nil_append]
  after_results_simp

end Cert.KernelIdeal.Prelude
end
-- ==== Proof.RefColumns.lean ====
import proofs.«103645_j80582176407619_2_alg».proof.Proof.ColumnStages
import proofs.«103645_j80582176407619_2_alg».proof.Proof.Gen.ReferenceIdeal.Read

/-!
The one-column program's two feature stages are the one-column computation of the three rounds run on its first
and on its second input column: the program writes the same operations twice, once per column.
-/

noncomputable section

namespace Cert.ReferenceIdeal.Column

open Idealize.ShloMosaic Cert Cert.ReferenceIdeal Cert.ReferenceIdeal.Gen

variable {F : FTy → Type} [FloatOps F]
variable (x : Arr F S100000x1 .f32) (x2 : Arr F S3200000 .f32) (x3 x4 : Arr F S3200000 .i32)
  (x5 : Arr F S3x1x1 .f32) (x6 : Arr F S3x1 .f32)

/-- The stage the first head product reads is the three-round mean of the first column. -/
theorem val_main_v87_eq_feat : Read.val_main_v87 x x2 x3 x4 x5 x6 = feat x x2 x3 x4 x5 x6 := rfl

/-- The stage the second head product reads is the three-round mean of the second column. -/
theorem val_main_v170_eq_feat : Read.val_main_v170 x x2 x3 x4 x5 x6 = feat x x2 x3 x4 x5 x6 := rfl

end Cert.ReferenceIdeal.Column
end
-- ==== Proof.ColumnLaws.lean ====
import proofs.«103645_j80582176407619_2_alg».proof.Proof.ColumnStages
import proofs.«103645_j80582176407619_2_alg».proof.Proof.Gen.ReferenceIdeal.Read

/-!
Column `j` of the side-by-side computation is the one-column computation run on column `j`.

Write `x ∼ⱼ y` when the `[N, 2]` table `x` has the `[N, 1]` column `y` as its column `j`. Each stage keeps the relation:
a row read through a row number keeps the column; an entrywise product or sum keeps it; a sum of edge values into
destination rows is, in each column, the sum of that column's edge values over the same set of edges; the in-degree
comes out of the third column of ones exactly as out of the flat sum of ones; `· * w` and the one-term matrix
product agree; the mean over the stack of three is taken entry by entry. Nothing here needs a value to be finite:
the only laws used are that a sum over one index is its term and that equal terms have equal sums.
-/

noncomputable section

namespace Cert.GraphColumns

open Idealize.ShloMosaic Idealize.ShloMosaic.ValueIdx Cert Cert.Lib.Rows
open scoped BigOperators

/-! ## Reading the layout operations -/

/-- A scalar constant spread over a shape, read anywhere, is the constant. -/
theorem spread_const {T : Shape} (h : (⟨0, ![]⟩ : Shape).BroadcastsInDim T (![] : Fin 0 → Fin T.rank)) (w : BitVec 32) (i : T.Idx) :
    broadcastInDim T ![] h (constant (F := Ideal) ⟨0, ![]⟩ .f32 w) i = Ideal.ofBits .f32 w :=
  (broadcastInDim_apply _ h _ i ix0 (fun a => a.elim0)).trans rfl

/-- The edge weights repeated over two columns, read at `(e, j)`: the weight of `e`. -/
theorem norm2_apply (a2 : Arr Ideal KernelIdeal.S3200000 .f32) (e : Fin 3200000) (j : Fin 2) :
    KernelIdeal.Prelude.norm2 a2 (ix2 e j) = a2 (ix1 e) :=
  (broadcastInDim_apply _ _ _ (ix2 e j) (ix2 e (0 : Fin 1)) (fun a => match a with
      | ⟨0, _⟩ => by show e.val = if (3200000 : Nat) = 1 then 0 else e.val; rw [if_neg (by decide)]
      | ⟨1, _⟩ => by show (0 : Nat) = if (1 : Nat) = 1 then 0 else j.val; rw [if_pos rfl])).trans
    (broadcastInDim_apply _ _ a2 (ix2 e (0 : Fin 1)) (ix1 e) (fun a => match a with
      | ⟨0, _⟩ => by show e.val = if (3200000 : Nat) = 1 then 0 else e.val; rw [if_neg (by decide)]))

/-- The edge weights as a column, read at `(e, 0)`: the weight of `e`. -/
theorem normCol_apply (a2 : Arr Ideal ReferenceIdeal.S3200000 .f32) (e : Fin 3200000) :
    ReferenceIdeal.Column.normCol a2 (ix2 e (0 : Fin 1)) = a2 (ix1 e) :=
  broadcastInDim_apply _ _ a2 (ix2 e (0 : Fin 1)) (ix1 e) (fun a => match a with
    | ⟨0, _⟩ => by show e.val = if (3200000 : Nat) = 1 then 0 else e.val; rw [if_neg (by decide)])

/-- The two programs compute the source and destination row numbers by the same operations. -/
theorem srcCol_eq (a3 : Arr Ideal KernelIdeal.S3200000 .i32) : KernelIdeal.Prelude.srcCol a3 = ReferenceIdeal.Column.srcCol a3 := rfl
theorem dstCol_eq (a4 : Arr Ideal KernelIdeal.S3200000 .i32) : KernelIdeal.Prelude.dstCol a4 = ReferenceIdeal.Column.dstCol a4 := rfl

/-! ## Rows read and rows summed into -/

/-- A row of the two-column table read through a row number: the table at the clamped row, same column. -/
theorem gather2_apply (x : Arr Ideal KernelIdeal.S100000x2 .f32) (idx : Arr Ideal KernelIdeal.S3200000x1 .i32) (e : Fin 3200000) (j : Fin 2) :
    Host.gather KernelIdeal.gather_S100000x2_S3200000x1_S3200000x2_1_0_n_n_0_1_12 x idx (ix2 e j)
      = x (ix2 (rowOf 100000 (by decide) (idx (ix2 e (0 : Fin 1)))) j) :=
  gatherRows_apply (N := 100000) (E := 3200000) (C := 2) (by decide)
    KernelIdeal.gather_S100000x2_S3200000x1_S3200000x2_1_0_n_n_0_1_12.wf x idx e j

/-- The same for the one-column table. -/
theorem gather1_apply (y : Arr Ideal ReferenceIdeal.S100000x1 .f32) (idx : Arr Ideal ReferenceIdeal.S3200000x1 .i32) (e : Fin 3200000) :
    Host.gather ReferenceIdeal.gather_S100000x1_S3200000x1_S3200000x1_1_0_n_n_0_1_11 y idx (ix2 e (0 : Fin 1))
      = y (ix2 (rowOf 100000 (by decide) (idx (ix2 e (0 : Fin 1)))) (0 : Fin 1)) :=
  gatherRows_apply (N := 100000) (E := 3200000) (C := 1) (by decide)
    ReferenceIdeal.gather_S100000x1_S3200000x1_S3200000x1_1_0_n_n_0_1_11.wf y idx e 0

/-- Edge values summed into the rows of a three-column table, read at `(r, k)`. -/
theorem scatter3_apply (x : Arr Ideal KernelIdeal.S100000x3 .f32) (idx : Arr Ideal KernelIdeal.S3200000x1 .i32)
    (upd : Arr Ideal KernelIdeal.S3200000x3 .f32) (r : Fin 100000) (k : Fin 3) :
    Host.scatterAdd (F := Ideal) (φ := .f32) KernelIdeal.scatter_S100000x3_S3200000x1_S3200000x3_1_0_0_1 x idx upd (ix2 r k)
      = x (ix2 r k) + ∑ e ∈ edgesInto idx r, upd (ix2 e k) :=
  scatterAddRows_apply (N := 100000) (E := 3200000) (C := 3)
    KernelIdeal.scatter_S100000x3_S3200000x1_S3200000x3_1_0_0_1.wf idx k x upd r

/-- … of a two-column table … -/
theorem scatter2_apply (x : Arr Ideal KernelIdeal.S100000x2 .f32) (idx : Arr Ideal KernelIdeal.S3200000x1 .i32)
    (upd : Arr Ideal KernelIdeal.S3200000x2 .f32) (r : Fin 100000) (k : Fin 2) :
    Host.scatterAdd (F := Ideal) (φ := .f32) KernelIdeal.scatter_S100000x2_S3200000x1_S3200000x2_1_0_0_1 x idx upd (ix2 r k)
      = x (ix2 r k) + ∑ e ∈ edgesInto idx r, upd (ix2 e k) :=
  scatterAddRows_apply (N := 100000) (E := 3200000) (C := 2)
    KernelIdeal.scatter_S100000x2_S3200000x1_S3200000x2_1_0_0_1.wf idx k x upd r

/-- … of a one-column table … -/
theorem scatter1_apply (x : Arr Ideal ReferenceIdeal.S100000x1 .f32) (idx : Arr Ideal ReferenceIdeal.S3200000x1 .i32)
    (upd : Arr Ideal ReferenceIdeal.S3200000x1 .f32) (r : Fin 100000) :
    Host.scatterAdd (F := Ideal) (φ := .f32) ReferenceIdeal.scatter_S100000x1_S3200000x1_S3200000x1_1_0_0_1 x idx upd (ix2 r (0 : Fin 1))
      = x (ix2 r (0 : Fin 1)) + ∑ e ∈ edgesInto idx r, upd (ix2 e (0 : Fin 1)) :=
  scatterAddRows_apply (N := 100000) (E := 3200000) (C := 1)
    ReferenceIdeal.scatter_S100000x1_S3200000x1_S3200000x1_1_0_0_1.wf idx 0 x upd r

/-- … and of a flat table. -/
theorem scatterFlat_apply (x : Arr Ideal ReferenceIdeal.S100000 .f32) (idx : Arr Ideal ReferenceIdeal.S3200000x1 .i32)
    (upd : Arr Ideal ReferenceIdeal.S3200000 .f32) (r : Fin 100000) :
    Host.scatterAdd (F := Ideal) (φ := .f32) ReferenceIdeal.scatter_S100000_S3200000x1_S3200000_n_0_0_1 x idx upd (ix1 r)
      = x (ix1 r) + ∑ e ∈ edgesInto idx r, upd (ix1 e) :=
  scatterAddElts_apply (N := 100000) (E := 3200000)
    ReferenceIdeal.scatter_S100000_S3200000x1_S3200000_n_0_0_1.wf idx x upd r

/-! ## Columns -/

/-- `y` is column `j` of `x`. -/
def IsCol (j : Fin 2) (x : Arr Ideal KernelIdeal.S100000x2 .f32) (y : Arr Ideal ReferenceIdeal.S100000x1 .f32) : Prop :=
  ∀ r : Fin 100000, x (ix2 r j) = y (ix2 r (0 : Fin 1))

/-- The two feature columns put side by side have the first as column 0 … -/
theorem feats2_col0 (a0 a1 : Arr Ideal KernelIdeal.S100000x1 .f32) : IsCol 0 (KernelIdeal.Prelude.feats2 a0 a1) a0 := fun r =>
  concatenate_pair_apply_left (1 : Fin 2) a0 a1 _ (ix2 r (0 : Fin 2)) rfl (ix2 r (0 : Fin 1))
    (fun b => match b with | ⟨0, _⟩ => rfl | ⟨1, _⟩ => rfl)

/-- … and the second as column 1. -/
theorem feats2_col1 (a0 a1 : Arr Ideal KernelIdeal.S100000x1 .f32) : IsCol 1 (KernelIdeal.Prelude.feats2 a0 a1) a1 := fun r =>
  concatenate_pair_apply_right (1 : Fin 2) a0 a1 _ (ix2 r (1 : Fin 2)) rfl rfl (ix2 r (0 : Fin 1))
    (fun b => match b with | ⟨0, _⟩ => fun _ => rfl | ⟨1, _⟩ => fun h => absurd rfl h) rfl

/-- What an edge carries in column `j`: the table at its clamped source row, times its weight. -/
theorem msg2_apply (x : Arr Ideal KernelIdeal.S100000x2 .f32) (a2 : Arr Ideal KernelIdeal.S3200000 .f32) (a3 : Arr Ideal KernelIdeal.S3200000 .i32)
    (e : Fin 3200000) (j : Fin 2) :
    KernelIdeal.Prelude.msg x a2 a3 (ix2 e j)
      = x (ix2 (rowOf 100000 (by decide) (KernelIdeal.Prelude.srcCol a3 (ix2 e (0 : Fin 1)))) j) * a2 (ix1 e) := by
  unfold KernelIdeal.Prelude.msg
  rw [mulf_apply, gather2_apply, norm2_apply]

theorem msg1_apply (y : Arr Ideal ReferenceIdeal.S100000x1 .f32) (a2 : Arr Ideal ReferenceIdeal.S3200000 .f32) (a3 : Arr Ideal ReferenceIdeal.S3200000 .i32)
    (e : Fin 3200000) :
    ReferenceIdeal.Column.msg y a2 a3 (ix2 e (0 : Fin 1))
      = y (ix2 (rowOf 100000 (by decide) (ReferenceIdeal.Column.srcCol a3 (ix2 e (0 : Fin 1)))) (0 : Fin 1)) * a2 (ix1 e) := by
  unfold ReferenceIdeal.Column.msg
  rw [mulf_apply, gather1_apply, normCol_apply]

section
variable {j : Fin 2} {x : Arr Ideal KernelIdeal.S100000x2 .f32} {y : Arr Ideal ReferenceIdeal.S100000x1 .f32}
  (a2 : Arr Ideal KernelIdeal.S3200000 .f32) (a3 a4 : Arr Ideal KernelIdeal.S3200000 .i32)

/-- Column `j` of the messages is the messages of column `j`. -/
theorem col_msg (h : IsCol j x y) (e : Fin 3200000) :
    KernelIdeal.Prelude.msg x a2 a3 (ix2 e j) = ReferenceIdeal.Column.msg y a2 a3 (ix2 e (0 : Fin 1)) := by
  rw [msg2_apply, msg1_apply, srcCol_eq, h]

/-- The two-column row sum in column `j`: zero plus that column's messages over the edges into the row. -/
theorem agg2_apply (x : Arr Ideal KernelIdeal.S100000x2 .f32) (r : Fin 100000) (j : Fin 2) :
    KernelIdeal.Prelude.agg2 x a2 a3 a4 (ix2 r j)
      = Ideal.ofBits .f32 0x00000000#32 + ∑ e ∈ edgesInto (KernelIdeal.Prelude.dstCol a4) r, KernelIdeal.Prelude.msg x a2 a3 (ix2 e j) := by
  unfold KernelIdeal.Prelude.agg2
  rw [scatter2_apply, spread_const]

theorem agg1_apply (y : Arr Ideal ReferenceIdeal.S100000x1 .f32) (r : Fin 100000) :
    ReferenceIdeal.Column.agg y a2 a3 a4 (ix2 r (0 : Fin 1))
      = Ideal.ofBits .f32 0x00000000#32 + ∑ e ∈ edgesInto (ReferenceIdeal.Column.dstCol a4) r, ReferenceIdeal.Column.msg y a2 a3 (ix2 e (0 : Fin 1)) := by
  unfold ReferenceIdeal.Column.agg
  rw [scatter1_apply, spread_const]

/-- Column `j` of the row sum is the row sum of column `j`: the same edges, the same terms. -/
theorem col_agg2 (h : IsCol j x y) (r : Fin 100000) :
    KernelIdeal.Prelude.agg2 x a2 a3 a4 (ix2 r j) = ReferenceIdeal.Column.agg y a2 a3 a4 (ix2 r (0 : Fin 1)) := by
  rw [agg2_apply, agg1_apply, dstCol_eq]
  exact congrArg (_ + ·) (Finset.sum_congr rfl fun e _ => col_msg a2 a3 h e)
end

section
variable {j : Fin 2} {x : Arr Ideal KernelIdeal.S100000x2 .f32} {y : Arr Ideal ReferenceIdeal.S100000x1 .f32}
  (a2 : Arr Ideal KernelIdeal.S3200000 .f32) (a3 a4 : Arr Ideal KernelIdeal.S3200000 .i32)

/-- The messages with the column of ones beside them, read in a message column … -/
theorem withOnes_left (u : Arr Ideal KernelIdeal.S3200000x2 .f32) (v : Arr Ideal KernelIdeal.S3200000x1 .f32) (e : Fin 3200000) (j : Fin 2) :
    concatenate KernelIdeal.S3200000x3 1 [⟨KernelIdeal.S3200000x2, u⟩, ⟨KernelIdeal.S3200000x1, v⟩]
        KernelIdeal.Gen.concatenates_S3200000x2_S3200000x1_S3200000x3_d1 (ix2 e (Fin.castSucc j)) = u (ix2 e j) :=
  concatenate_pair_apply_left (1 : Fin 2) u v _ (ix2 e (Fin.castSucc j)) rfl (ix2 e j)
    (fun b => match b with | ⟨0, _⟩ => rfl | ⟨1, _⟩ => rfl)

/-- … and in the last column. -/
theorem withOnes_right (u : Arr Ideal KernelIdeal.S3200000x2 .f32) (v : Arr Ideal KernelIdeal.S3200000x1 .f32) (e : Fin 3200000) :
    concatenate KernelIdeal.S3200000x3 1 [⟨KernelIdeal.S3200000x2, u⟩, ⟨KernelIdeal.S3200000x1, v⟩]
        KernelIdeal.Gen.concatenates_S3200000x2_S3200000x1_S3200000x3_d1 (ix2 e (2 : Fin 3)) = v (ix2 e (0 : Fin 1)) :=
  concatenate_pair_apply_right (1 : Fin 2) u v _ (ix2 e (2 : Fin 3)) rfl rfl (ix2 e (0 : Fin 1))
    (fun b => match b with | ⟨0, _⟩ => fun _ => rfl | ⟨1, _⟩ => fun h => absurd rfl h) rfl

/-- The three-column row sum in a message column. -/
theorem agg3_apply_msg (x : Arr Ideal KernelIdeal.S100000x2 .f32) (r : Fin 100000) (j : Fin 2) :
    KernelIdeal.Prelude.agg3 x a2 a3 a4 (ix2 r (Fin.castSucc j))
      = Ideal.ofBits .f32 0x00000000#32 + ∑ e ∈ edgesInto (KernelIdeal.Prelude.dstCol a4) r, KernelIdeal.Prelude.msg x a2 a3 (ix2 e j) := by
  unfold KernelIdeal.Prelude.agg3
  rw [scatter3_apply, spread_const]
  exact congrArg (_ + ·) (Finset.sum_congr rfl fun e _ => withOnes_left _ _ e j)

/-- The three-column row sum in the last column: zero plus a one for every edge into the row. -/
theorem agg3_apply_ones (x : Arr Ideal KernelIdeal.S100000x2 .f32) (r : Fin 100000) :
    KernelIdeal.Prelude.agg3 x a2 a3 a4 (ix2 r (2 : Fin 3))
      = Ideal.ofBits .f32 0x00000000#32 + ∑ e ∈ edgesInto (KernelIdeal.Prelude.dstCol a4) r, Ideal.ofBits .f32 0x3F800000#32 := by
  unfold KernelIdeal.Prelude.agg3
  rw [scatter3_apply, spread_const]
  exact congrArg (_ + ·) (Finset.sum_congr rfl fun e _ => (withOnes_right _ _ e).trans (spread_const _ _ _))

/-- The flat count of the edges into a row. -/
theorem degree_apply (r : Fin 100000) :
    ReferenceIdeal.Column.degree a4 (ix1 r)
      = Ideal.ofBits .f32 0x00000000#32 + ∑ e ∈ edgesInto (ReferenceIdeal.Column.dstCol a4) r, Ideal.ofBits .f32 0x3F800000#32 := by
  unfold ReferenceIdeal.Column.degree
  rw [scatterFlat_apply, spread_const]
  exact congrArg (_ + ·) (Finset.sum_congr rfl fun e _ => spread_const _ _ _)

/-- The last column of the three-column row sum is the in-degree. -/
theorem agg3_degree (x : Arr Ideal KernelIdeal.S100000x2 .f32) (r : Fin 100000) :
    KernelIdeal.Prelude.agg3 x a2 a3 a4 (ix2 r (2 : Fin 3)) = ReferenceIdeal.Column.degree a4 (ix1 r) := by
  rw [agg3_apply_ones, degree_apply, dstCol_eq]
end

end Cert.GraphColumns
end
-- ==== Proof.ColumnRounds.lean ====
import proofs.«103645_j80582176407619_2_alg».proof.Proof.ColumnLaws

/-!
The rounds, column by column: the division by the in-degree, the mixing of a feature with the mean of its incoming
messages, the linear map, the positive part and the mean over the three rounds each keep "column `j` of the
two-column table is the one-column table".
-/

noncomputable section

namespace Cert.GraphColumns

open Idealize.ShloMosaic Idealize.ShloMosaic.ValueIdx Cert Cert.Lib.Rows
open scoped BigOperators

/-- The host's quotient of two arrays, entry by entry. -/
theorem hostDivf_apply {s : Shape} (a b : FVec Ideal s .f32) (i : s.Idx) :
    Host.divf a b i = FloatOps.hostDivf (F := Ideal) (φ := .f32) (a i) (b i) := rfl

/-- One over a count, the count taken to be at least one. -/
def invCount (d : EReal) : EReal :=
  FloatOps.hostDivf (F := Ideal) (φ := .f32) (Ideal.ofBits .f32 0x3F800000#32) (max d (Ideal.ofBits .f32 0x3F800000#32))

section
variable {j : Fin 2} {x : Arr Ideal KernelIdeal.S100000x2 .f32} {y : Arr Ideal ReferenceIdeal.S100000x1 .f32}
  (a2 : Arr Ideal KernelIdeal.S3200000 .f32) (a3 a4 : Arr Ideal KernelIdeal.S3200000 .i32)

/-- One over the in-degree, from a three-column table's last column. -/
theorem degInvK_apply (g : Arr Ideal KernelIdeal.S100000x3 .f32) (r : Fin 100000) :
    KernelIdeal.Prelude.degInv g (ix2 r (0 : Fin 1)) = invCount (g (ix2 r (2 : Fin 3))) := by
  unfold KernelIdeal.Prelude.degInv invCount
  rw [hostDivf_apply, maximumf_apply, spread_const, extractStridedSlice_apply _ g _ (ix2 r (0 : Fin 1)) (ix2 r (2 : Fin 3))
    (fun a => match a with
      | ⟨0, _⟩ => by show r.val = 0 + r.val; omega
      | ⟨1, _⟩ => rfl)]

/-- The same spread over both columns. -/
theorem degInv2_apply (g : Arr Ideal KernelIdeal.S100000x3 .f32) (r : Fin 100000) (j : Fin 2) :
    KernelIdeal.Prelude.degInv2 g (ix2 r j) = invCount (g (ix2 r (2 : Fin 3))) := by
  unfold KernelIdeal.Prelude.degInv2
  rw [broadcastInDim_apply _ _ _ (ix2 r j) (ix2 r (0 : Fin 1)) (fun a => match a with
      | ⟨0, _⟩ => by show r.val = if (100000 : Nat) = 1 then 0 else r.val; rw [if_neg (by decide)]
      | ⟨1, _⟩ => by show (0 : Nat) = if (1 : Nat) = 1 then 0 else j.val; rw [if_pos rfl]), degInvK_apply]

/-- One over the in-degree, from the flat count. -/
theorem degInv1_apply (r : Fin 100000) :
    ReferenceIdeal.Column.degInv a4 (ix2 r (0 : Fin 1)) = invCount (ReferenceIdeal.Column.degree a4 (ix1 r)) := by
  unfold ReferenceIdeal.Column.degInv invCount
  rw [broadcastInDim_apply _ _ _ (ix2 r (0 : Fin 1)) (ix1 r) (fun a => match a with
      | ⟨0, _⟩ => by show r.val = if (100000 : Nat) = 1 then 0 else r.val; rw [if_neg (by decide)]),
    hostDivf_apply, maximumf_apply, spread_const]

/-- Both programs divide by the same in-degree. -/
theorem col_degInv (x' : Arr Ideal KernelIdeal.S100000x2 .f32) (r : Fin 100000) (j : Fin 2) :
    KernelIdeal.Prelude.degInv2 (KernelIdeal.Prelude.agg3 x' a2 a3 a4) (ix2 r j) = ReferenceIdeal.Column.degInv a4 (ix2 r (0 : Fin 1)) := by
  rw [degInv2_apply, degInv1_apply, agg3_degree]
end

section
variable {j : Fin 2} {x : Arr Ideal KernelIdeal.S100000x2 .f32} {y : Arr Ideal ReferenceIdeal.S100000x1 .f32}
  (a2 : Arr Ideal KernelIdeal.S3200000 .f32) (a3 a4 : Arr Ideal KernelIdeal.S3200000 .i32)

/-- The first round's mixing, entry by entry. -/
theorem mixed0_apply (x : Arr Ideal KernelIdeal.S100000x2 .f32) (g : Arr Ideal KernelIdeal.S100000x3 .f32) (r : Fin 100000) (j : Fin 2) :
    KernelIdeal.Prelude.mixed0 x g (ix2 r j) = x (ix2 r j) + g (ix2 r (Fin.castSucc j)) * KernelIdeal.Prelude.degInv2 g (ix2 r j) := by
  unfold KernelIdeal.Prelude.mixed0
  rw [addf_apply, mulf_apply, extractStridedSlice_apply _ g _ (ix2 r j) (ix2 r (Fin.castSucc j))
      (fun a => match a with
        | ⟨0, _⟩ => by show r.val = 0 + r.val; omega
        | ⟨1, _⟩ => by show j.val = 0 + j.val; omega)]

/-- A later round's mixing, entry by entry. -/
theorem mixed2_apply (x : Arr Ideal KernelIdeal.S100000x2 .f32) (g : Arr Ideal KernelIdeal.S100000x3 .f32) (r : Fin 100000) (j : Fin 2) :
    KernelIdeal.Prelude.mixed x g a2 a3 a4 (ix2 r j) = x (ix2 r j) + KernelIdeal.Prelude.agg2 x a2 a3 a4 (ix2 r j) * KernelIdeal.Prelude.degInv2 g (ix2 r j) := by
  unfold KernelIdeal.Prelude.mixed
  rw [addf_apply, mulf_apply]

theorem mixed1_apply (y : Arr Ideal ReferenceIdeal.S100000x1 .f32) (r : Fin 100000) :
    ReferenceIdeal.Column.mixed y a2 a3 a4 (ix2 r (0 : Fin 1))
      = y (ix2 r (0 : Fin 1)) + ReferenceIdeal.Column.agg y a2 a3 a4 (ix2 r (0 : Fin 1)) * ReferenceIdeal.Column.degInv a4 (ix2 r (0 : Fin 1)) := by
  unfold ReferenceIdeal.Column.mixed
  rw [addf_apply, mulf_apply]

/-- The first round's mixing keeps the column. -/
theorem col_mixed0 (h : IsCol j x y) :
    IsCol j (KernelIdeal.Prelude.mixed0 x (KernelIdeal.Prelude.agg3 x a2 a3 a4)) (ReferenceIdeal.Column.mixed y a2 a3 a4) := by
  intro r
  rw [mixed0_apply, mixed1_apply, agg3_apply_msg, col_degInv, h r, agg1_apply, dstCol_eq]
  exact congrArg (fun s => y (ix2 r (0 : Fin 1)) + (Ideal.ofBits .f32 0x00000000#32 + s) * ReferenceIdeal.Column.degInv a4 (ix2 r (0 : Fin 1)))
    (Finset.sum_congr rfl fun e _ => col_msg a2 a3 h e)

/-- A later round's mixing keeps the column, whatever table the in-degree was counted beside. -/
theorem col_mixed (x' : Arr Ideal KernelIdeal.S100000x2 .f32) (h : IsCol j x y) :
    IsCol j (KernelIdeal.Prelude.mixed x (KernelIdeal.Prelude.agg3 x' a2 a3 a4) a2 a3 a4) (ReferenceIdeal.Column.mixed y a2 a3 a4) := by
  intro r
  rw [mixed2_apply, mixed1_apply, col_agg2 a2 a3 a4 h r, col_degInv, h r]
end

/-! ## The linear map, the positive part and the mean -/

/-- The product of a column by a one-by-one matrix, read at a row: the sum, over the one contracted index `k`, of the
    column at `(row, k)` times the matrix at `(k, 0)`. -/
theorem dot_apply (y0 : Arr Ideal ReferenceIdeal.S100000x1 .f32) (y1 : Arr Ideal ReferenceIdeal.S1x1 .f32) (i : ReferenceIdeal.S100000x1.Idx) :
    Host.dotGeneral (F := Ideal) (φ₁ := .f32) (φ₂ := .f32) ReferenceIdeal.dot_S100000x1_S1x1_S100000x1_1_0_0_1_n_n none y0 y1 i
      = ∑ k : Fin 1, y0 (ReferenceIdeal.Read.lidx_main_v26 i k) * y1 (ReferenceIdeal.Read.ridx_main_v26 i k) := by
  simp only [Host.dotGeneral]
  rw [Ideal.dotGeneral_apply, ← Equiv.sum_comp (ValueIdx.contrEquiv1 ReferenceIdeal.dot_S100000x1_S1x1_S100000x1_1_0_0_1_n_n 1 rfl rfl).symm]
  refine Finset.sum_congr rfl fun k _ => ?_
  have hk := ValueIdx.contrEquiv1_symm_val ReferenceIdeal.dot_S100000x1_S1x1_S100000x1_1_0_0_1_n_n 1 rfl rfl k
  have el : ReferenceIdeal.dot_S100000x1_S1x1_S100000x1_1_0_0_1_n_n.lhsIdx i ((ValueIdx.contrEquiv1 ReferenceIdeal.dot_S100000x1_S1x1_S100000x1_1_0_0_1_n_n 1 rfl rfl).symm k) = ReferenceIdeal.Read.lidx_main_v26 i k :=
    funext fun a => Fin.ext (by
      match a with
      | ⟨0, _⟩ => exact ReferenceIdeal.Read.lhs_main_v26_0 _ _
      | ⟨1, _⟩ => exact (ReferenceIdeal.Read.lhs_main_v26_1 _ _).trans hk)
  have er : ReferenceIdeal.dot_S100000x1_S1x1_S100000x1_1_0_0_1_n_n.rhsIdx i ((ValueIdx.contrEquiv1 ReferenceIdeal.dot_S100000x1_S1x1_S100000x1_1_0_0_1_n_n 1 rfl rfl).symm k) = ReferenceIdeal.Read.ridx_main_v26 i k :=
    funext fun a => Fin.ext (by
      match a with
      | ⟨0, _⟩ => exact (ReferenceIdeal.Read.rhs_main_v26_0 _ _).trans hk
      | ⟨1, _⟩ => exact ReferenceIdeal.Read.rhs_main_v26_1 _ _)
  rw [el, er]

/-- The one-column linear map at a row: the entry times the single weight, plus the bias. -/
theorem lin1_apply (y : Arr Ideal ReferenceIdeal.S100000x1 .f32) (w : Arr Ideal ReferenceIdeal.S1x1 .f32) (b : Arr Ideal ReferenceIdeal.S100000x1 .f32)
    (r : Fin 100000) :
    ReferenceIdeal.Column.lin y w b (ix2 r (0 : Fin 1))
      = y (ix2 r (0 : Fin 1)) * w (ix2 (0 : Fin 1) (0 : Fin 1)) + b (ix2 r (0 : Fin 1)) := by
  unfold ReferenceIdeal.Column.lin
  rw [addf_apply, dot_apply, Fin.sum_univ_one]
  have e1 : ReferenceIdeal.Read.lidx_main_v26 (ix2 r (0 : Fin 1)) 0 = ix2 r (0 : Fin 1) :=
    funext fun a => Fin.ext (by match a with | ⟨0, _⟩ => rfl | ⟨1, _⟩ => rfl)
  have e2 : ReferenceIdeal.Read.ridx_main_v26 (ix2 r (0 : Fin 1)) 0 = ix2 (0 : Fin 1) (0 : Fin 1) :=
    funext fun a => Fin.ext (by match a with | ⟨0, _⟩ => rfl | ⟨1, _⟩ => rfl)
  rw [e1, e2]

/-- The linear map keeps the column when the weight table is constant and the bias table has the bias column. -/
theorem col_lin {j : Fin 2} {yk wk bk : Arr Ideal KernelIdeal.S100000x2 .f32} {y b : Arr Ideal ReferenceIdeal.S100000x1 .f32}
    {w : Arr Ideal ReferenceIdeal.S1x1 .f32} (hy : IsCol j yk y)
    (hw : ∀ r : Fin 100000, wk (ix2 r j) = w (ix2 (0 : Fin 1) (0 : Fin 1))) (hb : IsCol j bk b) :
    IsCol j (KernelIdeal.Prelude.lin yk wk bk) (ReferenceIdeal.Column.lin y w b) := by
  intro r
  rw [lin1_apply]
  unfold KernelIdeal.Prelude.lin
  rw [addf_apply, mulf_apply, hy r, hw r, hb r]

/-- The positive part keeps the column. -/
theorem col_relu {j : Fin 2} {x : Arr Ideal KernelIdeal.S100000x2 .f32} {y : Arr Ideal ReferenceIdeal.S100000x1 .f32} (h : IsCol j x y) :
    IsCol j (KernelIdeal.Prelude.relu x) (ReferenceIdeal.Column.relu y) := by
  intro r
  unfold KernelIdeal.Prelude.relu ReferenceIdeal.Column.relu
  rw [maximumf_apply, maximumf_apply, spread_const, spread_const, h r]

/-! ## Weights and biases -/

/-- Round 0's weight, spread over the two-column table: entry `(0, 0, 0)` of the weights everywhere. -/
theorem weightK0_apply (a5 : Arr Ideal KernelIdeal.S3x1x1 .f32) (i : KernelIdeal.S100000x2.Idx) :
    KernelIdeal.Prelude.weight0 a5 i = a5 (ix3 (0 : Fin 3) (0 : Fin 1) (0 : Fin 1)) := by
  unfold KernelIdeal.Prelude.weight0
  refine (broadcastInDim_apply _ _ _ i ix0 (fun a => a.elim0)).trans ?_
  refine (shapeCast_apply _ _ ix0 (ix3 (0 : Fin 1) (0 : Fin 1) (0 : Fin 1)) ?_).trans ?_
  · exact (Shape.rowMajor_val_three _).trans (Shape.rowMajorPi_zero _ _).symm
  · exact extractStridedSlice_apply _ a5 _ (ix3 (0 : Fin 1) (0 : Fin 1) (0 : Fin 1)) (ix3 (0 : Fin 3) (0 : Fin 1) (0 : Fin 1))
      (fun a => match a with | ⟨0, _⟩ => rfl | ⟨1, _⟩ => rfl | ⟨2, _⟩ => rfl)

/-- Round 0's one-by-one weight matrix: the same entry. -/
theorem weightR0_apply (x5 : Arr Ideal ReferenceIdeal.S3x1x1 .f32) :
    ReferenceIdeal.Column.weight0 x5 (ix2 (0 : Fin 1) (0 : Fin 1)) = x5 (ix3 (0 : Fin 3) (0 : Fin 1) (0 : Fin 1)) := by
  show ReferenceIdeal.Read.val_main_v25 x5 (ix2 (0 : Fin 1) (0 : Fin 1)) = _
  rw [ReferenceIdeal.Read.val_main_v25_apply, ReferenceIdeal.Read.val_main_v24_apply, ReferenceIdeal.Read.val_main_v23_apply]
  exact congrArg x5 (funext fun a => Fin.ext (by match a with | ⟨0, _⟩ => rfl | ⟨1, _⟩ => rfl | ⟨2, _⟩ => rfl))

/-- Round 1's weight, spread over the two-column table: entry `(1, 0, 0)` of the weights everywhere. -/
theorem weightK1_apply (a5 : Arr Ideal KernelIdeal.S3x1x1 .f32) (i : KernelIdeal.S100000x2.Idx) :
    KernelIdeal.Prelude.weight1 a5 i = a5 (ix3 (1 : Fin 3) (0 : Fin 1) (0 : Fin 1)) := by
  unfold KernelIdeal.Prelude.weight1
  refine (broadcastInDim_apply _ _ _ i ix0 (fun a => a.elim0)).trans ?_
  refine (shapeCast_apply _ _ ix0 (ix3 (0 : Fin 1) (0 : Fin 1) (0 : Fin 1)) ?_).trans ?_
  · exact (Shape.rowMajor_val_three _).trans (Shape.rowMajorPi_zero _ _).symm
  · exact extractStridedSlice_apply _ a5 _ (ix3 (0 : Fin 1) (0 : Fin 1) (0 : Fin 1)) (ix3 (1 : Fin 3) (0 : Fin 1) (0 : Fin 1))
      (fun a => match a with | ⟨0, _⟩ => rfl | ⟨1, _⟩ => rfl | ⟨2, _⟩ => rfl)

/-- Round 1's one-by-one weight matrix: the same entry. -/
theorem weightR1_apply (x5 : Arr Ideal ReferenceIdeal.S3x1x1 .f32) :
    ReferenceIdeal.Column.weight1 x5 (ix2 (0 : Fin 1) (0 : Fin 1)) = x5 (ix3 (1 : Fin 3) (0 : Fin 1) (0 : Fin 1)) := by
  show ReferenceIdeal.Read.val_main_v49 x5 (ix2 (0 : Fin 1) (0 : Fin 1)) = _
  rw [ReferenceIdeal.Read.val_main_v49_apply, ReferenceIdeal.Read.val_main_v48_apply, ReferenceIdeal.Read.val_main_v47_apply]
  exact congrArg x5 (funext fun a => Fin.ext (by match a with | ⟨0, _⟩ => rfl | ⟨1, _⟩ => rfl | ⟨2, _⟩ => rfl))

/-- Round 2's weight, spread over the two-column table: entry `(2, 0, 0)` of the weights everywhere. -/
theorem weightK2_apply (a5 : Arr Ideal KernelIdeal.S3x1x1 .f32) (i : KernelIdeal.S100000x2.Idx) :
    KernelIdeal.Prelude.weight2 a5 i = a5 (ix3 (2 : Fin 3) (0 : Fin 1) (0 : Fin 1)) := by
  unfold KernelIdeal.Prelude.weight2
  refine (broadcastInDim_apply _ _ _ i ix0 (fun a => a.elim0)).trans ?_
  refine (shapeCast_apply _ _ ix0 (ix3 (0 : Fin 1) (0 : Fin 1) (0 : Fin 1)) ?_).trans ?_
  · exact (Shape.rowMajor_val_three _).trans (Shape.rowMajorPi_zero _ _).symm
  · exact extractStridedSlice_apply _ a5 _ (ix3 (0 : Fin 1) (0 : Fin 1) (0 : Fin 1)) (ix3 (2 : Fin 3) (0 : Fin 1) (0 : Fin 1))
      (fun a => match a with | ⟨0, _⟩ => rfl | ⟨1, _⟩ => rfl | ⟨2, _⟩ => rfl)

/-- Round 2's one-by-one weight matrix: the same entry. -/
theorem weightR2_apply (x5 : Arr Ideal ReferenceIdeal.S3x1x1 .f32) :
    ReferenceIdeal.Column.weight2 x5 (ix2 (0 : Fin 1) (0 : Fin 1)) = x5 (ix3 (2 : Fin 3) (0 : Fin 1) (0 : Fin 1)) := by
  show ReferenceIdeal.Read.val_main_v73 x5 (ix2 (0 : Fin 1) (0 : Fin 1)) = _
  rw [ReferenceIdeal.Read.val_main_v73_apply, ReferenceIdeal.Read.val_main_v72_apply, ReferenceIdeal.Read.val_main_v71_apply]
  exact congrArg x5 (funext fun a => Fin.ext (by match a with | ⟨0, _⟩ => rfl | ⟨1, _⟩ => rfl | ⟨2, _⟩ => rfl))

/-- Round 0's bias, spread over the two-column table: entry `(0, 0)` of the biases everywhere. -/
theorem biasK0_apply (a6 : Arr Ideal KernelIdeal.S3x1 .f32) (r : Fin 100000) (j : Fin 2) :
    KernelIdeal.Prelude.bias0 a6 (ix2 r j) = a6 (ix2 (0 : Fin 3) (0 : Fin 1)) := by
  unfold KernelIdeal.Prelude.bias0
  refine (broadcastInDim_apply _ _ _ (ix2 r j) (ix2 (0 : Fin 1) (0 : Fin 1)) (fun a => match a with
      | ⟨0, _⟩ => by show (0 : Nat) = if (1 : Nat) = 1 then 0 else r.val; rw [if_pos rfl]
      | ⟨1, _⟩ => by show (0 : Nat) = if (1 : Nat) = 1 then 0 else j.val; rw [if_pos rfl])).trans ?_
  refine (broadcastInDim_apply _ _ _ (ix2 (0 : Fin 1) (0 : Fin 1)) (ix1 (0 : Fin 1)) (fun a => match a with
      | ⟨0, _⟩ => by show (0 : Nat) = if (1 : Nat) = 1 then 0 else 0; rw [if_pos rfl])).trans ?_
  refine (shapeCast_apply _ _ (ix1 (0 : Fin 1)) (ix2 (0 : Fin 1) (0 : Fin 1)) ?_).trans ?_
  · exact (Shape.rowMajor_val_two _).trans (Shape.rowMajor_val_one (d := ![1]) (ix1 (0 : Fin 1))).symm
  · exact extractStridedSlice_apply _ a6 _ (ix2 (0 : Fin 1) (0 : Fin 1)) (ix2 (0 : Fin 3) (0 : Fin 1))
      (fun a => match a with | ⟨0, _⟩ => rfl | ⟨1, _⟩ => rfl)

/-- Round 0's bias, spread down the column: the same entry. -/
theorem biasR0_apply (x6 : Arr Ideal ReferenceIdeal.S3x1 .f32) (r : Fin 100000) :
    ReferenceIdeal.Column.bias0 x6 (ix2 r (0 : Fin 1)) = x6 (ix2 (0 : Fin 3) (0 : Fin 1)) := by
  show ReferenceIdeal.Read.val_main_v30 x6 (ix2 r (0 : Fin 1)) = _
  rw [ReferenceIdeal.Read.val_main_v30_apply, ReferenceIdeal.Read.val_main_v29_apply, ReferenceIdeal.Read.val_main_v28_apply, ReferenceIdeal.Read.val_main_v27_apply]
  exact congrArg x6 (funext fun a => Fin.ext (by match a with | ⟨0, _⟩ => rfl | ⟨1, _⟩ => rfl))

/-- Round 1's bias, spread over the two-column table: entry `(1, 0)` of the biases everywhere. -/
theorem biasK1_apply (a6 : Arr Ideal KernelIdeal.S3x1 .f32) (r : Fin 100000) (j : Fin 2) :
    KernelIdeal.Prelude.bias1 a6 (ix2 r j) = a6 (ix2 (1 : Fin 3) (0 : Fin 1)) := by
  unfold KernelIdeal.Prelude.bias1
  refine (broadcastInDim_apply _ _ _ (ix2 r j) (ix2 (0 : Fin 1) (0 : Fin 1)) (fun a => match a with
      | ⟨0, _⟩ => by show (0 : Nat) = if (1 : Nat) = 1 then 0 else r.val; rw [if_pos rfl]
      | ⟨1, _⟩ => by show (0 : Nat) = if (1 : Nat) = 1 then 0 else j.val; rw [if_pos rfl])).trans ?_
  refine (broadcastInDim_apply _ _ _ (ix2 (0 : Fin 1) (0 : Fin 1)) (ix1 (0 : Fin 1)) (fun a => match a with
      | ⟨0, _⟩ => by show (0 : Nat) = if (1 : Nat) = 1 then 0 else 0; rw [if_pos rfl])).trans ?_
  refine (shapeCast_apply _ _ (ix1 (0 : Fin 1)) (ix2 (0 : Fin 1) (0 : Fin 1)) ?_).trans ?_
  · exact (Shape.rowMajor_val_two _).trans (Shape.rowMajor_val_one (d := ![1]) (ix1 (0 : Fin 1))).symm
  · exact extractStridedSlice_apply _ a6 _ (ix2 (0 : Fin 1) (0 : Fin 1)) (ix2 (1 : Fin 3) (0 : Fin 1))
      (fun a => match a with | ⟨0, _⟩ => rfl | ⟨1, _⟩ => rfl)

/-- Round 1's bias, spread down the column: the same entry. -/
theorem biasR1_apply (x6 : Arr Ideal ReferenceIdeal.S3x1 .f32) (r : Fin 100000) :
    ReferenceIdeal.Column.bias1 x6 (ix2 r (0 : Fin 1)) = x6 (ix2 (1 : Fin 3) (0 : Fin 1)) := by
  show ReferenceIdeal.Read.val_main_v54 x6 (ix2 r (0 : Fin 1)) = _
  rw [ReferenceIdeal.Read.val_main_v54_apply, ReferenceIdeal.Read.val_main_v53_apply, ReferenceIdeal.Read.val_main_v52_apply, ReferenceIdeal.Read.val_main_v51_apply]
  exact congrArg x6 (funext fun a => Fin.ext (by match a with | ⟨0, _⟩ => rfl | ⟨1, _⟩ => rfl))

/-- Round 2's bias, spread over the two-column table: entry `(2, 0)` of the biases everywhere. -/
theorem biasK2_apply (a6 : Arr Ideal KernelIdeal.S3x1 .f32) (r : Fin 100000) (j : Fin 2) :
    KernelIdeal.Prelude.bias2 a6 (ix2 r j) = a6 (ix2 (2 : Fin 3) (0 : Fin 1)) := by
  unfold KernelIdeal.Prelude.bias2
  refine (broadcastInDim_apply _ _ _ (ix2 r j) (ix2 (0 : Fin 1) (0 : Fin 1)) (fun a => match a with
      | ⟨0, _⟩ => by show (0 : Nat) = if (1 : Nat) = 1 then 0 else r.val; rw [if_pos rfl]
      | ⟨1, _⟩ => by show (0 : Nat) = if (1 : Nat) = 1 then 0 else j.val; rw [if_pos rfl])).trans ?_
  refine (broadcastInDim_apply _ _ _ (ix2 (0 : Fin 1) (0 : Fin 1)) (ix1 (0 : Fin 1)) (fun a => match a with
      | ⟨0, _⟩ => by show (0 : Nat) = if (1 : Nat) = 1 then 0 else 0; rw [if_pos rfl])).trans ?_
  refine (shapeCast_apply _ _ (ix1 (0 : Fin 1)) (ix2 (0 : Fin 1) (0 : Fin 1)) ?_).trans ?_
  · exact (Shape.rowMajor_val_two _).trans (Shape.rowMajor_val_one (d := ![1]) (ix1 (0 : Fin 1))).symm
  · exact extractStridedSlice_apply _ a6 _ (ix2 (0 : Fin 1) (0 : Fin 1)) (ix2 (2 : Fin 3) (0 : Fin 1))
      (fun a => match a with | ⟨0, _⟩ => rfl | ⟨1, _⟩ => rfl)

/-- Round 2's bias, spread down the column: the same entry. -/
theorem biasR2_apply (x6 : Arr Ideal ReferenceIdeal.S3x1 .f32) (r : Fin 100000) :
    ReferenceIdeal.Column.bias2 x6 (ix2 r (0 : Fin 1)) = x6 (ix2 (2 : Fin 3) (0 : Fin 1)) := by
  show ReferenceIdeal.Read.val_main_v78 x6 (ix2 r (0 : Fin 1)) = _
  rw [ReferenceIdeal.Read.val_main_v78_apply, ReferenceIdeal.Read.val_main_v77_apply, ReferenceIdeal.Read.val_main_v76_apply, ReferenceIdeal.Read.val_main_v75_apply]
  exact congrArg x6 (funext fun a => Fin.ext (by match a with | ⟨0, _⟩ => rfl | ⟨1, _⟩ => rfl))

/-! ## The mean over the three rounds -/

/-- The stack of three two-column tables read at `(k, r, ·)`: table `k` at `(r, ·)`. -/
theorem stackK_apply (p0 p1 p2 : Arr Ideal KernelIdeal.S100000x2 .f32) (k : Fin 3) (r : Fin 100000) (j : Fin 2) :
    concatenate KernelIdeal.S3x100000x2 0 [⟨KernelIdeal.S1x100000x2, (broadcastInDim KernelIdeal.S1x100000x2 ![1, 2] KernelIdeal.Gen.bcast_S100000x2_S1x100000x2_1_2 p0)⟩, ⟨KernelIdeal.S1x100000x2, (broadcastInDim KernelIdeal.S1x100000x2 ![1, 2] KernelIdeal.Gen.bcast_S100000x2_S1x100000x2_1_2 p1)⟩, ⟨KernelIdeal.S1x100000x2, (broadcastInDim KernelIdeal.S1x100000x2 ![1, 2] KernelIdeal.Gen.bcast_S100000x2_S1x100000x2_1_2 p2)⟩] KernelIdeal.Gen.concatenates_S1x100000x2_S1x100000x2_S1x100000x2_S3x100000x2_d0 (ix3 k r j) = (![p0, p1, p2] k) (ix2 r j) := by
  have hb : ∀ p : Arr Ideal KernelIdeal.S100000x2 .f32, (broadcastInDim KernelIdeal.S1x100000x2 ![1, 2] KernelIdeal.Gen.bcast_S100000x2_S1x100000x2_1_2 p) (ix3 (0 : Fin 1) r j) = p (ix2 r j) := fun p =>
    broadcastInDim_apply _ _ p (ix3 (0 : Fin 1) r j) (ix2 r j) (fun a => match a with
      | ⟨0, _⟩ => by show r.val = if (100000 : Nat) = 1 then 0 else r.val; rw [if_neg (by decide)]
      | ⟨1, _⟩ => by show j.val = if (2 : Nat) = 1 then 0 else j.val; rw [if_neg (by decide)])
  match k with
  | ⟨0, _⟩ => exact (concatenate_apply_piece (0 : Fin 3) _ _ (ix3 (0 : Fin 3) r j) 0 (by show (0 : Nat) < 3; decide) KernelIdeal.S1x100000x2 (broadcastInDim KernelIdeal.S1x100000x2 ![1, 2] KernelIdeal.Gen.bcast_S100000x2_S1x100000x2_1_2 p0) rfl rfl 0 rfl
        (ix3 (0 : Fin 1) r j) (fun b => match b with | ⟨0, _⟩ => fun h => absurd rfl h | ⟨1, _⟩ => fun _ => rfl | ⟨2, _⟩ => fun _ => rfl) rfl).trans (hb p0)
  | ⟨1, _⟩ => exact (concatenate_apply_piece (0 : Fin 3) _ _ (ix3 (1 : Fin 3) r j) 1 (by show (1 : Nat) < 3; decide) KernelIdeal.S1x100000x2 (broadcastInDim KernelIdeal.S1x100000x2 ![1, 2] KernelIdeal.Gen.bcast_S100000x2_S1x100000x2_1_2 p1) rfl rfl 1 rfl
        (ix3 (0 : Fin 1) r j) (fun b => match b with | ⟨0, _⟩ => fun h => absurd rfl h | ⟨1, _⟩ => fun _ => rfl | ⟨2, _⟩ => fun _ => rfl) rfl).trans (hb p1)
  | ⟨2, _⟩ => exact (concatenate_apply_piece (0 : Fin 3) _ _ (ix3 (2 : Fin 3) r j) 2 (by show (2 : Nat) < 3; decide) KernelIdeal.S1x100000x2 (broadcastInDim KernelIdeal.S1x100000x2 ![1, 2] KernelIdeal.Gen.bcast_S100000x2_S1x100000x2_1_2 p2) rfl rfl 2 rfl
        (ix3 (0 : Fin 1) r j) (fun b => match b with | ⟨0, _⟩ => fun h => absurd rfl h | ⟨1, _⟩ => fun _ => rfl | ⟨2, _⟩ => fun _ => rfl) rfl).trans (hb p2)

/-- The same at any index of the stack. -/
theorem stackK_at (p0 p1 p2 : Arr Ideal KernelIdeal.S100000x2 .f32) (i : KernelIdeal.S3x100000x2.Idx) :
    concatenate KernelIdeal.S3x100000x2 0 [⟨KernelIdeal.S1x100000x2, (broadcastInDim KernelIdeal.S1x100000x2 ![1, 2] KernelIdeal.Gen.bcast_S100000x2_S1x100000x2_1_2 p0)⟩, ⟨KernelIdeal.S1x100000x2, (broadcastInDim KernelIdeal.S1x100000x2 ![1, 2] KernelIdeal.Gen.bcast_S100000x2_S1x100000x2_1_2 p1)⟩, ⟨KernelIdeal.S1x100000x2, (broadcastInDim KernelIdeal.S1x100000x2 ![1, 2] KernelIdeal.Gen.bcast_S100000x2_S1x100000x2_1_2 p2)⟩] KernelIdeal.Gen.concatenates_S1x100000x2_S1x100000x2_S1x100000x2_S3x100000x2_d0 i = (![p0, p1, p2] (i 0)) (ix2 (i 1) (i 2)) :=
  (congrArg (concatenate KernelIdeal.S3x100000x2 0 [⟨KernelIdeal.S1x100000x2, (broadcastInDim KernelIdeal.S1x100000x2 ![1, 2] KernelIdeal.Gen.bcast_S100000x2_S1x100000x2_1_2 p0)⟩, ⟨KernelIdeal.S1x100000x2, (broadcastInDim KernelIdeal.S1x100000x2 ![1, 2] KernelIdeal.Gen.bcast_S100000x2_S1x100000x2_1_2 p1)⟩, ⟨KernelIdeal.S1x100000x2, (broadcastInDim KernelIdeal.S1x100000x2 ![1, 2] KernelIdeal.Gen.bcast_S100000x2_S1x100000x2_1_2 p2)⟩] KernelIdeal.Gen.concatenates_S1x100000x2_S1x100000x2_S1x100000x2_S3x100000x2_d0) (eq_ix3 i)).trans (stackK_apply p0 p1 p2 (i 0) (i 1) (i 2))

/-- The stack of three one-column tables read at `(k, r, ·)`: table `k` at `(r, ·)`. -/
theorem stackR_apply (p0 p1 p2 : Arr Ideal ReferenceIdeal.S100000x1 .f32) (k : Fin 3) (r : Fin 100000) (c : Fin 1) :
    concatenate ReferenceIdeal.S3x100000x1 0 [⟨ReferenceIdeal.S1x100000x1, (broadcastInDim ReferenceIdeal.S1x100000x1 ![1, 2] ReferenceIdeal.Gen.bcast_S100000x1_S1x100000x1_1_2 p0)⟩, ⟨ReferenceIdeal.S1x100000x1, (broadcastInDim ReferenceIdeal.S1x100000x1 ![1, 2] ReferenceIdeal.Gen.bcast_S100000x1_S1x100000x1_1_2 p1)⟩, ⟨ReferenceIdeal.S1x100000x1, (broadcastInDim ReferenceIdeal.S1x100000x1 ![1, 2] ReferenceIdeal.Gen.bcast_S100000x1_S1x100000x1_1_2 p2)⟩] ReferenceIdeal.Gen.concatenates_S1x100000x1_S1x100000x1_S1x100000x1_S3x100000x1_d0 (ix3 k r c) = (![p0, p1, p2] k) (ix2 r c) := by
  have hb : ∀ p : Arr Ideal ReferenceIdeal.S100000x1 .f32, (broadcastInDim ReferenceIdeal.S1x100000x1 ![1, 2] ReferenceIdeal.Gen.bcast_S100000x1_S1x100000x1_1_2 p) (ix3 (0 : Fin 1) r c) = p (ix2 r c) := fun p =>
    broadcastInDim_apply _ _ p (ix3 (0 : Fin 1) r c) (ix2 r c) (fun a => match a with
      | ⟨0, _⟩ => by show r.val = if (100000 : Nat) = 1 then 0 else r.val; rw [if_neg (by decide)]
      | ⟨1, _⟩ => by have := c.isLt; show c.val = if (1 : Nat) = 1 then 0 else c.val; rw [if_pos rfl]; omega)
  match k with
  | ⟨0, _⟩ => exact (concatenate_apply_piece (0 : Fin 3) _ _ (ix3 (0 : Fin 3) r c) 0 (by show (0 : Nat) < 3; decide) ReferenceIdeal.S1x100000x1 (broadcastInDim ReferenceIdeal.S1x100000x1 ![1, 2] ReferenceIdeal.Gen.bcast_S100000x1_S1x100000x1_1_2 p0) rfl rfl 0 rfl
        (ix3 (0 : Fin 1) r c) (fun b => match b with | ⟨0, _⟩ => fun h => absurd rfl h | ⟨1, _⟩ => fun _ => rfl | ⟨2, _⟩ => fun _ => rfl) rfl).trans (hb p0)
  | ⟨1, _⟩ => exact (concatenate_apply_piece (0 : Fin 3) _ _ (ix3 (1 : Fin 3) r c) 1 (by show (1 : Nat) < 3; decide) ReferenceIdeal.S1x100000x1 (broadcastInDim ReferenceIdeal.S1x100000x1 ![1, 2] ReferenceIdeal.Gen.bcast_S100000x1_S1x100000x1_1_2 p1) rfl rfl 1 rfl
        (ix3 (0 : Fin 1) r c) (fun b => match b with | ⟨0, _⟩ => fun h => absurd rfl h | ⟨1, _⟩ => fun _ => rfl | ⟨2, _⟩ => fun _ => rfl) rfl).trans (hb p1)
  | ⟨2, _⟩ => exact (concatenate_apply_piece (0 : Fin 3) _ _ (ix3 (2 : Fin 3) r c) 2 (by show (2 : Nat) < 3; decide) ReferenceIdeal.S1x100000x1 (broadcastInDim ReferenceIdeal.S1x100000x1 ![1, 2] ReferenceIdeal.Gen.bcast_S100000x1_S1x100000x1_1_2 p2) rfl rfl 2 rfl
        (ix3 (0 : Fin 1) r c) (fun b => match b with | ⟨0, _⟩ => fun h => absurd rfl h | ⟨1, _⟩ => fun _ => rfl | ⟨2, _⟩ => fun _ => rfl) rfl).trans (hb p2)

/-- The same at any index of the stack. -/
theorem stackR_at (p0 p1 p2 : Arr Ideal ReferenceIdeal.S100000x1 .f32) (i : ReferenceIdeal.S3x100000x1.Idx) :
    concatenate ReferenceIdeal.S3x100000x1 0 [⟨ReferenceIdeal.S1x100000x1, (broadcastInDim ReferenceIdeal.S1x100000x1 ![1, 2] ReferenceIdeal.Gen.bcast_S100000x1_S1x100000x1_1_2 p0)⟩, ⟨ReferenceIdeal.S1x100000x1, (broadcastInDim ReferenceIdeal.S1x100000x1 ![1, 2] ReferenceIdeal.Gen.bcast_S100000x1_S1x100000x1_1_2 p1)⟩, ⟨ReferenceIdeal.S1x100000x1, (broadcastInDim ReferenceIdeal.S1x100000x1 ![1, 2] ReferenceIdeal.Gen.bcast_S100000x1_S1x100000x1_1_2 p2)⟩] ReferenceIdeal.Gen.concatenates_S1x100000x1_S1x100000x1_S1x100000x1_S3x100000x1_d0 i = (![p0, p1, p2] (i 0)) (ix2 (i 1) (i 2)) :=
  (congrArg (concatenate ReferenceIdeal.S3x100000x1 0 [⟨ReferenceIdeal.S1x100000x1, (broadcastInDim ReferenceIdeal.S1x100000x1 ![1, 2] ReferenceIdeal.Gen.bcast_S100000x1_S1x100000x1_1_2 p0)⟩, ⟨ReferenceIdeal.S1x100000x1, (broadcastInDim ReferenceIdeal.S1x100000x1 ![1, 2] ReferenceIdeal.Gen.bcast_S100000x1_S1x100000x1_1_2 p1)⟩, ⟨ReferenceIdeal.S1x100000x1, (broadcastInDim ReferenceIdeal.S1x100000x1 ![1, 2] ReferenceIdeal.Gen.bcast_S100000x1_S1x100000x1_1_2 p2)⟩] ReferenceIdeal.Gen.concatenates_S1x100000x1_S1x100000x1_S1x100000x1_S3x100000x1_d0) (eq_ix3 i)).trans (stackR_apply p0 p1 p2 (i 0) (i 1) (i 2))

/-- The mean of three tables keeps the column when each table does. -/
theorem col_mean3 {j : Fin 2} {p0 p1 p2 : Arr Ideal KernelIdeal.S100000x2 .f32} {q0 q1 q2 : Arr Ideal ReferenceIdeal.S100000x1 .f32}
    (h0 : IsCol j p0 q0) (h1 : IsCol j p1 q1) (h2 : IsCol j p2 q2) :
    IsCol j (KernelIdeal.Prelude.mean3 p0 p1 p2) (ReferenceIdeal.Column.mean3 q0 q1 q2) := by
  intro r
  unfold KernelIdeal.Prelude.mean3 ReferenceIdeal.Column.mean3
  rw [hostDivf_apply, hostDivf_apply, spread_const, spread_const]
  simp only [Host.reduceAdd, Ideal.hostReduceAdd_def]
  rw [Ideal.hostReduceAdd_single KernelIdeal.Gen.reducesTo_S3x100000x2_S100000x2_d0 (by decide),
    Ideal.hostReduceAdd_single ReferenceIdeal.Gen.reducesTo_S3x100000x1_S100000x1_d0 (by decide)]
  refine congrArg (fun s => FloatOps.hostDivf (F := Ideal) (φ := .f32) (_ + s) _) (Finset.sum_congr rfl ?_)
  intro k _
  rw [stackK_at, stackR_at]
  obtain ⟨kv, hk⟩ := k
  have hk3 : kv < 3 := hk
  interval_cases kv
  · exact h0 r
  · exact h1 r
  · exact h2 r

end Cert.GraphColumns
end
-- ==== Proof.ColumnFeat.lean ====
import proofs.«103645_j80582176407619_2_alg».proof.Proof.ColumnRounds

/-!
The three rounds chained: column `j` of the side-by-side computation's mean over the rounds is the one-column
computation's mean run on input column `j`; so the two columns sliced out of the former are the latter on the two
input columns.
-/

noncomputable section

namespace Cert.GraphColumns

open Idealize.ShloMosaic Idealize.ShloMosaic.ValueIdx Cert Cert.Lib.Rows

section
variable (a0 a1 : Arr Ideal KernelIdeal.S100000x1 .f32) (a2 : Arr Ideal KernelIdeal.S3200000 .f32) (a3 a4 : Arr Ideal KernelIdeal.S3200000 .i32)
  (a5 : Arr Ideal KernelIdeal.S3x1x1 .f32) (a6 : Arr Ideal KernelIdeal.S3x1 .f32)
  {j : Fin 2} {y : Arr Ideal ReferenceIdeal.S100000x1 .f32}

/-- Round 0 keeps the column. -/
theorem col_pre0 (h : IsCol j (KernelIdeal.Prelude.feats2 a0 a1) y) :
    IsCol j (KernelIdeal.Prelude.pre0 a0 a1 a2 a3 a4 a5 a6) (ReferenceIdeal.Column.pre0 y a2 a3 a4 a5 a6) := by
  unfold KernelIdeal.Prelude.pre0 KernelIdeal.Prelude.sum0 ReferenceIdeal.Column.pre0
  exact col_lin (col_mixed0 a2 a3 a4 h) (fun r => (weightK0_apply a5 _).trans (weightR0_apply a5).symm)
    (fun r => (biasK0_apply a6 r j).trans (biasR0_apply a6 r).symm)

/-- Round 1 keeps the column. -/
theorem col_pre1 (h : IsCol j (KernelIdeal.Prelude.feats2 a0 a1) y) :
    IsCol j (KernelIdeal.Prelude.pre1 a0 a1 a2 a3 a4 a5 a6) (ReferenceIdeal.Column.pre1 y a2 a3 a4 a5 a6) := by
  unfold KernelIdeal.Prelude.pre1 KernelIdeal.Prelude.sum0 ReferenceIdeal.Column.pre1
  exact col_lin (col_mixed a2 a3 a4 _ (col_relu (col_pre0 a0 a1 a2 a3 a4 a5 a6 h)))
    (fun r => (weightK1_apply a5 _).trans (weightR1_apply a5).symm)
    (fun r => (biasK1_apply a6 r j).trans (biasR1_apply a6 r).symm)

/-- Round 2 keeps the column. -/
theorem col_pre2 (h : IsCol j (KernelIdeal.Prelude.feats2 a0 a1) y) :
    IsCol j (KernelIdeal.Prelude.pre2 a0 a1 a2 a3 a4 a5 a6) (ReferenceIdeal.Column.pre2 y a2 a3 a4 a5 a6) := by
  unfold KernelIdeal.Prelude.pre2 KernelIdeal.Prelude.sum0 ReferenceIdeal.Column.pre2
  exact col_lin (col_mixed a2 a3 a4 _ (col_relu (col_pre1 a0 a1 a2 a3 a4 a5 a6 h)))
    (fun r => (weightK2_apply a5 _).trans (weightR2_apply a5).symm)
    (fun r => (biasK2_apply a6 r j).trans (biasR2_apply a6 r).symm)

/-- The mean over the rounds keeps the column. -/
theorem col_mean (h : IsCol j (KernelIdeal.Prelude.feats2 a0 a1) y) :
    IsCol j (KernelIdeal.Prelude.mean a0 a1 a2 a3 a4 a5 a6) (ReferenceIdeal.Column.feat y a2 a3 a4 a5 a6) := by
  unfold KernelIdeal.Prelude.mean ReferenceIdeal.Column.feat
  exact col_mean3 (col_pre0 a0 a1 a2 a3 a4 a5 a6 h) (col_pre1 a0 a1 a2 a3 a4 a5 a6 h) (col_pre2 a0 a1 a2 a3 a4 a5 a6 h)

/-- An index of a one-column table is a row and column 0. -/
theorem exists_row (i : KernelIdeal.S100000x1.Idx) : ∃ r : Fin 100000, i = ix2 r (0 : Fin 1) := by
  refine ⟨i 0, ?_⟩
  have h := eq_ix2 (n0 := 100000) (n1 := 1) i
  have h1 : (i 1 : Fin 1) = (0 : Fin 1) :=
    Fin.ext (by have hlt := idx2_lt1 (n0 := 100000) (n1 := 1) i; show (i 1).val = 0; omega)
  rw [h1] at h
  exact h

/-- Column 0 sliced out of the side-by-side mean is the one-column computation on the first input column. -/
theorem feat0_eq : KernelIdeal.Prelude.feat0 a0 a1 a2 a3 a4 a5 a6 = ReferenceIdeal.Column.feat a0 a2 a3 a4 a5 a6 := by
  funext i
  obtain ⟨r, rfl⟩ := exists_row i
  unfold KernelIdeal.Prelude.feat0
  rw [extractStridedSlice_apply _ _ _ (ix2 r (0 : Fin 1)) (ix2 r (0 : Fin 2))
    (fun a => match a with
      | ⟨0, _⟩ => by show r.val = 0 + r.val; omega
      | ⟨1, _⟩ => rfl)]
  exact col_mean a0 a1 a2 a3 a4 a5 a6 (feats2_col0 a0 a1) r

/-- Column 1 sliced out of the side-by-side mean is the one-column computation on the second input column. -/
theorem feat1_eq : KernelIdeal.Prelude.feat1 a0 a1 a2 a3 a4 a5 a6 = ReferenceIdeal.Column.feat a1 a2 a3 a4 a5 a6 := by
  funext i
  obtain ⟨r, rfl⟩ := exists_row i
  unfold KernelIdeal.Prelude.feat1
  rw [extractStridedSlice_apply _ _ _ (ix2 r (0 : Fin 1)) (ix2 r (1 : Fin 2))
    (fun a => match a with
      | ⟨0, _⟩ => by show r.val = 0 + r.val; omega
      | ⟨1, _⟩ => rfl)]
  exact col_mean a0 a1 a2 a3 a4 a5 a6 (feats2_col1 a0 a1) r
end

end Cert.GraphColumns
end
-- ==== Proof.EntryFeats.lean ====
import proofs.«103645_j80582176407619_2_alg».proof.Proof.PreludeEntry
import proofs.«103645_j80582176407619_2_alg».proof.Proof.RefColumns
import proofs.«103645_j80582176407619_2_alg».proof.Proof.ColumnFeat

/-!
What the head's region finds, against the one-column program: at the extended reals, the two feature buffers the
region reads are the two feature stages of the one-column program on the same arguments; the bias buffer is the
bias vector laid out as one row, and the weight matrix is the argument.
-/

noncomputable section

namespace Cert.KernelIdeal.Prelude

open Idealize.ShloMosaic Idealize.ShloMosaic.TcCoe
open Idealize.SL Idealize.SL.Sem
open Cert Cert.KernelIdeal Cert.KernelIdeal.Gen

variable (m : (ℓ : Loc nD τ sig) → Buf (Elt Ideal) ℓ) (c : Dev nD)

/-- The first feature buffer at the region's entry is the one-column program's first feature stage. -/
theorem entry_feats1 :
    (Head.V (F := Ideal) m c main_v92 : S100000x1.Idx → EReal)
      = Cert.ReferenceIdeal.Read.val_main_v87 (F := Ideal) (m ((c.tc : Thread _ _).loc main_arg0)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) :=
  (entry_feat0 (F := Ideal) m c).trans
    ((GraphColumns.feat0_eq (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6))).trans
      (Cert.ReferenceIdeal.Column.val_main_v87_eq_feat (F := Ideal) (m ((c.tc : Thread _ _).loc main_arg0)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6))).symm)

/-- The second feature buffer at the region's entry is the one-column program's second feature stage. -/
theorem entry_feats2 :
    (Head.V (F := Ideal) m c main_v93 : S100000x1.Idx → EReal)
      = Cert.ReferenceIdeal.Read.val_main_v170 (F := Ideal) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)) :=
  (entry_feat1 (F := Ideal) m c).trans
    ((GraphColumns.feat1_eq (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6))).trans
      (Cert.ReferenceIdeal.Column.val_main_v170_eq_feat (F := Ideal) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6))).symm)

end Cert.KernelIdeal.Prelude
end
-- ==== Proof.Bridge.lean ====
/-
  The idealized kernel computes the reference's result.

  The region finds, in its two feature buffers, the reference's two feature columns (the three graph-convolution
  rounds run on both columns side by side give, column by column, what the reference computes one column at a
  time), the weight matrix itself, and the bias vector laid out as a row. The kernel's head row of a feature column
  — the sum over all rows of feature times weight, plus bias — is then entry for entry the reference's
  "flatten, one matrix product, add bias", and both programs end with the same tail.
-/
import proofs.«103645_j80582176407619_2_alg».proof.Proof.KernelValue
import proofs.«103645_j80582176407619_2_alg».proof.Proof.EntryFeats

noncomputable section

namespace Cert.KernelIdeal.Bridge

open Cert.KernelIdeal Cert.KernelIdeal.Gen Cert.KernelIdeal.Head Cert.KernelIdeal.HeadValue Cert.KernelIdeal.HeadResult
open Cert.KernelIdeal.KernelValue Cert.KernelIdeal.Prelude
open Idealize.ShloMosaic Idealize.ShloMosaic.TcCoe Idealize.ShloMosaic.ValueIdx Idealize.SL.Sem

variable (m : (ℓ : Loc nD τ sig) → Buf (Elt Ideal) ℓ) (c : Dev nD)

/-- The bias vector laid out as one row, read at column `j`, is the vector at `j`. -/
theorem bias_read (a8 : S1024.Idx → EReal) (h : S1024.ShapeCasts S1x1024) (i : S1x1024.Idx) :
    shapeCast S1x1024 a8 h (ix2 (0 : Fin 1) (i 1)) = a8 (ix1 (i 1)) :=
  shapeCast_apply a8 h _ _ (by
    rw [Shape.rowMajor_val_one, Shape.rowMajor_val_two]
    show (i 1).val = 0 * 1024 + (i 1).val
    omega)

/-- The head row depends only on its three arrays. -/
theorem headRow_congr {H H' : S100000x1.Idx → EReal} {W W' : S100000x1024.Idx → EReal} {B B' : S1x1024.Idx → EReal}
    (hH : H = H') (hW : W = W') (hB : B = B') : headRow H W B = headRow H' W' B' := by
  subst hH hW hB; rfl

/-- The head row of a column against the weight argument and the bias vector laid out as a row, in the
    reference's terms: the sum over all rows, plus the bias vector's entry. -/
theorem headRow_apply (H : S100000x1.Idx → EReal) (W : S100000x1024.Idx → EReal) (a8 : S1024.Idx → EReal)
    (h : S1024.ShapeCasts S1x1024) (i : S1x1024.Idx) :
    headRow H W (shapeCast S1x1024 a8 h) i
      = (∑ k : Fin 100000, H (ix2 k (0 : Fin 1)) * W (ix2 k (i 1))) + a8 (ix1 (i 1)) := by
  unfold headRow
  rw [bias_read]

/-- The first output row is the reference's first head row. -/
theorem row1_eq :
    headRow (feats1 m c) (weights m c) (biasRow m c)
      = Cert.ReferenceIdeal.Read.val_main_v91 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (headRow_congr (entry_feats1 m c) (entry_weights m c) (entry_bias m c)).trans ?_
  funext i
  rw [Cert.ReferenceIdeal.HeadRef.head1_apply, headRow_apply]

/-- The second output row is the reference's second head row. -/
theorem row2_eq :
    headRow (feats2 m c) (weights m c) (biasRow m c)
      = Cert.ReferenceIdeal.Read.val_main_v174 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (headRow_congr (entry_feats2 m c) (entry_weights m c) (entry_bias m c)).trans ?_
  funext i
  rw [Cert.ReferenceIdeal.HeadRef.head2_apply, headRow_apply]

/-- The kernel's result is the reference's result term of the kernel's own arguments. -/
theorem result_eq :
    KernelValue.result m c
      = Cert.ReferenceIdeal.Read.val_main_v183 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold KernelValue.result
  rw [row1_eq, row2_eq, Cert.ReferenceIdeal.HeadRef.result_eq_tail]

end Cert.KernelIdeal.Bridge

end
-- ==== Proof.lean ====
/-
  Two feature columns of a 100000-node graph go through three rounds of mean-aggregating graph convolution
  (gather the source node's value, weight it by the edge, sum into the destination node, divide by the in-degree
  clamped at one, add the node's own value, a one-by-one linear map, a rectifier between rounds); the three
  rounds' outputs before the rectifier are averaged, each averaged column h is sent through the linear head
  h ↦ hᵀ·W + b (W is 100000 x 1024), and the result is the logistic function of the dot product of the two head
  rows.

  The reference runs the rounds one column at a time and takes each head row in one matrix product. The kernel
  runs the rounds on both columns side by side (with a column of ones riding along in the first round, whose sums
  are the in-degrees), and streams W once through a grid of 2 x 25 blocks: for each half of the 1024 output
  columns an accumulator row starts at zero, gains the partial product of each block of 4000 rows, and after the
  25th block is written out with the bias added.

  On the extended reals the two agree for every input: a scatter-add and a gather act column by column, a running
  sum from zero over consecutive blocks is the whole sum because addition is commutative and associative there
  (no finiteness is needed, and the precondition is never opened), a product over a contracted axis of extent one
  is a product, and narrowing to a shorter float format is the identity.

  The three frame claims: each program runs to completion without a fault and leaves its nine arguments as they
  were. The kernel's frames hold at any float instance, from the launch of its one grid with an invariant that
  follows the two accumulator rows from point to point; the reference's frame is its run with the result dropped.
  The rewriting pass changed nothing, so the kernel read at the extended reals is its own idealization.
-/
import proofs.«103645_j80582176407619_2_alg».proof.Defs
import proofs.«103645_j80582176407619_2_alg».proof.Proof.Gen.Kernel
import proofs.«103645_j80582176407619_2_alg».proof.Proof.Gen.KernelIdeal
import proofs.«103645_j80582176407619_2_alg».proof.Proof.Gen.ReferenceIdeal
import proofs.«103645_j80582176407619_2_alg».proof.Proof.Gen.Pre_finite_inputs
import proofs.«103645_j80582176407619_2_alg».proof.Proof.HeadFrameBits
import proofs.«103645_j80582176407619_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Head.frame m ρ

/-- So does the kernel read at the extended reals. -/
theorem frame_kernel_ideal : Cert.frame_KernelIdeal := fun m ρ _ => Cert.KernelIdeal.Head.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the nine arguments both programs end at the same result: the reference's result
    term of those arguments. -/
theorem algebraic : Cert.algebraic_KernelIdeal_ReferenceIdeal := by
  intro m ρ m' ρ' _ hagree
  refine ⟨fun c => Cert.ReferenceIdeal.Read.val_main_v183 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Bridge.result_eq m c), (h c).2⟩)
      (Cert.KernelIdeal.KernelValue.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v183_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
